-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg20 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg16 : FVec F S256 .f32) (main_arg17 : FVec F S256 .f32) (main_arg18 : FVec F S256 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S256x128 .f32) (main_arg14 : FVec F S128 .f32) (main_arg15 : FVec F S256 .f32) (main_arg16 : FVec F S256 .f32) (main_arg17 : FVec F S256 .f32) (main_arg18 : FVec F S256 .f32) (main_arg19 : FVec F S128 .f32) (main_arg20 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x128 .f32 := Host.absf main_arg13
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_arg20 main_v63 main_v67

def fn_part2 {F : FTy → Type} [FloatOps F] (main_arg9 : FVec F S128x256 .f32) (main_arg10 : FVec F S256 .f32) (main_arg11 : FVec F S256x256 .f32) (main_arg12 : FVec F S256 .f32) (main_arg13 : FVec F S256x128 .f32) (main_arg14 : FVec F S128 .f32) (main_arg15 : FVec F S256 .f32) (main_arg16 : FVec F S256 .f32) (main_arg17 : FVec F S256 .f32) (main_arg18 : FVec F S256 .f32) (main_arg19 : FVec F S128 .f32) (main_arg20 : FVec F S128 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_arg19 main_arg20 main_v48 main_v49 main_v50

def fn_part1 {F : FTy → Type} [FloatOps F] (main_arg6 : FVec F S256 .f32) (main_arg7 : FVec F S256x128 .f32) (main_arg8 : FVec F S128 .f32) (main_arg9 : FVec F S128x256 .f32) (main_arg10 : FVec F S256 .f32) (main_arg11 : FVec F S256x256 .f32) (main_arg12 : FVec F S256 .f32) (main_arg13 : FVec F S256x128 .f32) (main_arg14 : FVec F S128 .f32) (main_arg15 : FVec F S256 .f32) (main_arg16 : FVec F S256 .f32) (main_arg17 : FVec F S256 .f32) (main_arg18 : FVec F S256 .f32) (main_arg19 : FVec F S128 .f32) (main_arg20 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S256x128 .f32) (main_arg8 : FVec F S128 .f32) (main_arg9 : FVec F S128x256 .f32) (main_arg10 : FVec F S256 .f32) (main_arg11 : FVec F S256x256 .f32) (main_arg12 : FVec F S256 .f32) (main_arg13 : FVec F S256x128 .f32) (main_arg14 : FVec F S128 .f32) (main_arg15 : FVec F S256 .f32) (main_arg16 : FVec F S256 .f32) (main_arg17 : FVec F S256 .f32) (main_arg18 : FVec F S256 .f32) (main_arg19 : FVec F S128 .f32) (main_arg20 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S800000x256 : Shape := ⟨2, ![800000, 256]⟩
abbrev S50000x1 : Shape := ⟨2, ![50000, 1]⟩
abbrev S2000x1 : Shape := ⟨2, ![2000, 1]⟩
abbrev S2000 : Shape := ⟨1, ![2000]⟩
abbrev S1x128 : Shape := ⟨2, ![1, 128]⟩
abbrev S800000x128 : Shape := ⟨2, ![800000, 128]⟩
abbrev S64x128 : Shape := ⟨2, ![64, 128]⟩
abbrev S64 : Shape := ⟨1, ![64]⟩
abbrev S64x1 : Shape := ⟨2, ![64, 1]⟩

abbrev nBuf : Space → Nat
  | .hbm => 138
  | .vmem => 66
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S128x256, .f32⟩
  | 10 => ⟨S256, .f32⟩
  | 11 => ⟨S256x256, .f32⟩
  | 12 => ⟨S256, .f32⟩
  | 13 => ⟨S256x128, .f32⟩
  | 14 => ⟨S128, .f32⟩
  | 15 => ⟨S256, .f32⟩
  | 16 => ⟨S256, .f32⟩
  | 17 => ⟨S256, .f32⟩
  | 18 => ⟨S256, .f32⟩
  | 19 => ⟨S128, .f32⟩
  | 20 => ⟨S128, .f32⟩
  | 21 => ⟨S1x800000, .i32⟩
  | 22 => ⟨S800000, .i32⟩
  | 23 => ⟨S1x800000, .i32⟩
  | 24 => ⟨S800000, .i32⟩
  | 25 => ⟨S_, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S_, .f32⟩
  | 36 => ⟨S800000, .f32⟩
  | 37 => ⟨S50000, .f32⟩
  | 38 => ⟨S_, .f32⟩
  | 39 => ⟨S50000, .f32⟩
  | 40 => ⟨S50000, .f32⟩
  | 41 => ⟨S50000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000, .f32⟩
  | 60 => ⟨S800000, .f32⟩
  | 61 => ⟨S50000, .f32⟩
  | 62 => ⟨S50000x256, .f32⟩
  | 63 => ⟨S50000x256, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x256, .f32⟩
  | 73 => ⟨S800000x1, .f32⟩
  | 74 => ⟨S800000x256, .f32⟩
  | 75 => ⟨S800000x256, .f32⟩
  | 76 => ⟨S_, .f32⟩
  | 77 => ⟨S50000x256, .f32⟩
  | 78 => ⟨S800000x1, .i32⟩
  | 79 => ⟨S50000x256, .f32⟩
  | 80 => ⟨S50000x1, .f32⟩
  | 81 => ⟨S50000x256, .f32⟩
  | 82 => ⟨S50000x256, .f32⟩
  | 83 => ⟨S50000x256, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x256, .f32⟩
  | 93 => ⟨S800000x1, .f32⟩
  | 94 => ⟨S800000x256, .f32⟩
  | 95 => ⟨S800000x256, .f32⟩
  | 96 => ⟨S_, .f32⟩
  | 97 => ⟨S50000x256, .f32⟩
  | 98 => ⟨S800000x1, .i32⟩
  | 99 => ⟨S50000x256, .f32⟩
  | 100 => ⟨S50000x1, .f32⟩
  | 101 => ⟨S50000x256, .f32⟩
  | 102 => ⟨S50000x128, .f32⟩
  | 103 => ⟨S50000x128, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S800000x1, .f32⟩
  | 114 => ⟨S800000x128, .f32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S50000x1, .f32⟩
  | 121 => ⟨S50000x128, .f32⟩
  | 122 => ⟨S_, .f32⟩
  | 123 => ⟨S64x128, .f32⟩
  | 124 => ⟨S50000x1, .i32⟩
  | 125 => ⟨S64x128, .f32⟩
  | 126 => ⟨S_, .f32⟩
  | 127 => ⟨S50000, .f32⟩
  | _ => ⟨S50000x128, .f32⟩

abbrev hbmTy0_1 (i : Nat) : BufTy := match i % 128 with
  | 0 => ⟨S_, .f32⟩
  | 1 => ⟨S64, .f32⟩
  | 2 => ⟨S50000x1, .i32⟩
  | 3 => ⟨S64, .f32⟩
  | 4 => ⟨S_, .f32⟩
  | 5 => ⟨S64, .f32⟩
  | 6 => ⟨S64, .f32⟩
  | 7 => ⟨S64x1, .f32⟩
  | 8 => ⟨S64x128, .f32⟩
  | 9 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S128x256, .f32⟩
  | .local _ .vmem, ⟨4, _⟩ => ⟨S256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x1, .f32⟩
  | .local _ .vmem, ⟨16, _⟩ => ⟨S2000x1, .f32⟩
  | .local _ .vmem, ⟨17, _⟩ => ⟨S256, .f32⟩
  | .local _ .vmem, ⟨18, _⟩ => ⟨S256, .f32⟩
  | .local _ .vmem, ⟨19, _⟩ => ⟨S256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x256, .f32⟩
  | .local _ .vmem, ⟨25, _⟩ => ⟨S256x256, .f32⟩
  | .local _ .vmem, ⟨26, _⟩ => ⟨S256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x1, .f32⟩
  | .local _ .vmem, ⟨38, _⟩ => ⟨S2000x1, .f32⟩
  | .local _ .vmem, ⟨39, _⟩ => ⟨S256, .f32⟩
  | .local _ .vmem, ⟨40, _⟩ => ⟨S256, .f32⟩
  | .local _ .vmem, ⟨41, _⟩ => ⟨S256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S256x128, .f32⟩
  | .local _ .vmem, ⟨47, _⟩ => ⟨S256x128, .f32⟩
  | .local _ .vmem, ⟨48, _⟩ => ⟨S128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S2000x1, .f32⟩
  | .local _ .vmem, ⟨60, _⟩ => ⟨S2000x1, .f32⟩
  | .local _ .vmem, ⟨61, _⟩ => ⟨S128, .f32⟩
  | .local _ .vmem, ⟨62, _⟩ => ⟨S128, .f32⟩
  | .local _ .vmem, ⟨63, _⟩ => ⟨S128, .f32⟩
  | .local _ .vmem, ⟨64, _⟩ => ⟨S2000x128, .f32⟩
  | .local _ .vmem, ⟨65, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_c : Ref sig .tc := ⟨.hbm, 27, rfl⟩
abbrev main_v5 : Ref sig .tc := ⟨.hbm, 28, rfl⟩
abbrev main_v6 : Ref sig .tc := ⟨.hbm, 29, rfl⟩
abbrev main_c_0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_3 : Ref sig .tc := ⟨.hbm, 42, rfl⟩
abbrev main_v16 : Ref sig .tc := ⟨.hbm, 43, rfl⟩
abbrev main_v17 : Ref sig .tc := ⟨.hbm, 44, rfl⟩
abbrev main_c_4 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_5 : Ref sig .tc := ⟨.hbm, 51, rfl⟩
abbrev main_v23 : Ref sig .tc := ⟨.hbm, 52, rfl⟩
abbrev main_v24 : Ref sig .tc := ⟨.hbm, 53, rfl⟩
abbrev main_c_6 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32_0 : Ref sig .tc := ⟨.hbm, 62, rfl⟩
abbrev main_v32_1 : Ref sig .tc := ⟨.hbm, 63, rfl⟩
abbrev main_c_7 : Ref sig .tc := ⟨.hbm, 64, rfl⟩
abbrev main_v33 : Ref sig .tc := ⟨.hbm, 65, rfl⟩
abbrev main_v34 : Ref sig .tc := ⟨.hbm, 66, rfl⟩
abbrev main_c_8 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_9 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48_0 : Ref sig .tc := ⟨.hbm, 82, rfl⟩
abbrev main_v48_1 : Ref sig .tc := ⟨.hbm, 83, rfl⟩
abbrev main_c_10 : Ref sig .tc := ⟨.hbm, 84, rfl⟩
abbrev main_v49 : Ref sig .tc := ⟨.hbm, 85, rfl⟩
abbrev main_v50 : Ref sig .tc := ⟨.hbm, 86, rfl⟩
abbrev main_c_11 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_12 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64_0 : Ref sig .tc := ⟨.hbm, 102, rfl⟩
abbrev main_v64_1 : Ref sig .tc := ⟨.hbm, 103, rfl⟩
abbrev main_c_13 : Ref sig .tc := ⟨.hbm, 104, rfl⟩
abbrev main_v65 : Ref sig .tc := ⟨.hbm, 105, rfl⟩
abbrev main_v66 : Ref sig .tc := ⟨.hbm, 106, rfl⟩
abbrev main_c_14 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_15 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_16 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_17 : Ref sig .tc := ⟨.hbm, 126, rfl⟩
abbrev main_v83 : Ref sig .tc := ⟨.hbm, 127, rfl⟩
abbrev main_cst_18 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_19 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg4_1 : Ref sig .tc := ⟨.vmem, 50, rfl⟩
abbrev cc4_stg5_0 : Ref sig .tc := ⟨.vmem, 51, rfl⟩
abbrev cc4_stg5_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg1_1 : Ref sig .tc := ⟨.vmem, 56, rfl⟩
abbrev cc5_stg2_0 : Ref sig .tc := ⟨.vmem, 57, rfl⟩
abbrev cc5_stg2_1 : Ref sig .tc := ⟨.vmem, 58, rfl⟩
abbrev cc5_stg3_0 : Ref sig .tc := ⟨.vmem, 59, rfl⟩
abbrev cc5_stg3_1 : Ref sig .tc := ⟨.vmem, 60, rfl⟩
abbrev cc5_stg4_0 : Ref sig .tc := ⟨.vmem, 61, rfl⟩
abbrev cc5_stg5_0 : Ref sig .tc := ⟨.vmem, 62, rfl⟩
abbrev cc5_stg6_0 : Ref sig .tc := ⟨.vmem, 63, rfl⟩
abbrev cc5_stg7_0 : Ref sig .tc := ⟨.vmem, 64, rfl⟩
abbrev cc5_stg7_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem4_1 : DmaSem sig := 28
abbrev cc2_sem5_0 : DmaSem sig := 29
abbrev cc2_sem5_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem3_1 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem4_1 : DmaSem sig := 50
abbrev cc4_sem5_0 : DmaSem sig := 51
abbrev cc4_sem5_1 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem2_1 : DmaSem sig := 58
abbrev cc5_sem3_0 : DmaSem sig := 59
abbrev cc5_sem3_1 : DmaSem sig := 60
abbrev cc5_sem4_0 : DmaSem sig := 61
abbrev cc5_sem5_0 : DmaSem sig := 62
abbrev cc5_sem6_0 : DmaSem sig := 63
abbrev cc5_sem7_0 : DmaSem sig := 64
abbrev cc5_sem7_1 : DmaSem sig := 65

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S50000_S50000x1 : S50000.ShapeCasts S50000x1
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  reduces_S2000x256_S2000 : S2000x256.Reduces [1] S2000
  shapeCasts_S2000_S2000x1 : S2000.ShapeCasts S2000x1
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S2000x128_S2000x128 : S2000x128.ShapeCasts S2000x128
  broadcasts_S2000x1_S2000x128 : S2000x1.Broadcasts S2000x128
  reduces_S2000x128_S2000 : S2000x128.Reduces [1] S2000
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .f32 = 32 ∨ (Rect.block (s := S50000x256) S2000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S50000x1.size a
  hwx3_3 : ∀ i : grid3.Coords, EltTy.bits .f32 = 32 ∨ (Rect.block (s := S50000x1) S2000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256.size a ≤ S256.size a
  hwx3_5 : ∀ i : grid3.Coords, EltTy.bits .f32 = 32 ∨ (Rect.block (s := S256) S256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256.size a ≤ S256.size a
  hwx3_6 : ∀ i : grid3.Coords, EltTy.bits .f32 = 32 ∨ (Rect.block (s := S256) S256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x256.size a ≤ S50000x256.size a
  hwx3_7 : ∀ i : grid3.Coords, EltTy.bits .f32 = 32 ∨ (Rect.block (s := S50000x256) S2000x256.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S50000x128.size a
  hwx4_4 : ∀ i : grid4.Coords, EltTy.bits .f32 = 32 ∨ (Rect.block (s := S50000x128) S2000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x1.size a ≤ S50000x1.size a
  hwx5_3 : ∀ i : grid5.Coords, EltTy.bits .f32 = 32 ∨ (Rect.block (s := S50000x1) S2000x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128.size a ≤ S128.size a
  hwx5_6 : ∀ i : grid5.Coords, EltTy.bits .f32 = 32 ∨ (Rect.block (s := S128) S128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x128.size a ≤ S50000x128.size a
  hwx5_7 : ∀ i : grid5.Coords, EltTy.bits .f32 = 32 ∨ (Rect.block (s := S50000x128) S2000x128.size (cc5_transform_7 i) (hinb5_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32_0) S2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v32_1) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32_0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32_1) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v47) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48_0) S2000x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v48_1) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v61) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48_0) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48_1) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg18) S256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v63) S2000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v63) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64_0) S2000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v64_1) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v77) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64_0) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v64_1) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v78) S2000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_arg8) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg19) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg20) S128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v79) S2000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x256 : Shape := ⟨2, ![50000, 256]⟩
abbrev S800000x256 : Shape := ⟨2, ![800000, 256]⟩
abbrev S50000x1 : Shape := ⟨2, ![50000, 1]⟩
abbrev S1x256 : Shape := ⟨2, ![1, 256]⟩
abbrev S800000x128 : Shape := ⟨2, ![800000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩

abbrev nBuf : Space → Nat
  | .hbm => 270
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S128x256, .f32⟩
  | 10 => ⟨S256, .f32⟩
  | 11 => ⟨S256x256, .f32⟩
  | 12 => ⟨S256, .f32⟩
  | 13 => ⟨S256x128, .f32⟩
  | 14 => ⟨S128, .f32⟩
  | 15 => ⟨S256, .f32⟩
  | 16 => ⟨S256, .f32⟩
  | 17 => ⟨S256, .f32⟩
  | 18 => ⟨S256, .f32⟩
  | 19 => ⟨S128, .f32⟩
  | 20 => ⟨S128, .f32⟩
  | 21 => ⟨S1x800000, .i32⟩
  | 22 => ⟨S800000, .i32⟩
  | 23 => ⟨S1x800000, .i32⟩
  | 24 => ⟨S800000, .i32⟩
  | 25 => ⟨S_, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S_, .f32⟩
  | 36 => ⟨S800000, .f32⟩
  | 37 => ⟨S50000, .f32⟩
  | 38 => ⟨S_, .f32⟩
  | 39 => ⟨S50000, .f32⟩
  | 40 => ⟨S50000, .f32⟩
  | 41 => ⟨S50000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000, .f32⟩
  | 60 => ⟨S800000, .f32⟩
  | 61 => ⟨S50000, .f32⟩
  | 62 => ⟨S50000x256, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x256, .f32⟩
  | 72 => ⟨S800000x1, .f32⟩
  | 73 => ⟨S800000x256, .f32⟩
  | 74 => ⟨S800000x256, .f32⟩
  | 75 => ⟨S_, .f32⟩
  | 76 => ⟨S50000x256, .f32⟩
  | 77 => ⟨S800000x1, .i32⟩
  | 78 => ⟨S50000x256, .f32⟩
  | 79 => ⟨S50000x1, .f32⟩
  | 80 => ⟨S50000x256, .f32⟩
  | 81 => ⟨S50000x256, .f32⟩
  | 82 => ⟨S50000x256, .f32⟩
  | 83 => ⟨S1x256, .f32⟩
  | 84 => ⟨S50000x256, .f32⟩
  | 85 => ⟨S50000x256, .f32⟩
  | 86 => ⟨S50000x256, .f32⟩
  | 87 => ⟨S1x256, .f32⟩
  | 88 => ⟨S50000x256, .f32⟩
  | 89 => ⟨S50000x256, .f32⟩
  | 90 => ⟨S50000x256, .f32⟩
  | 91 => ⟨S_, .f32⟩
  | 92 => ⟨S50000, .f32⟩
  | 93 => ⟨S50000x1, .f32⟩
  | 94 => ⟨S_, .f32⟩
  | 95 => ⟨S50000x1, .f32⟩
  | 96 => ⟨S50000x1, .f32⟩
  | 97 => ⟨S50000x256, .f32⟩
  | 98 => ⟨S50000x256, .f32⟩
  | 99 => ⟨S50000x256, .f32⟩
  | 100 => ⟨S_, .f32⟩
  | 101 => ⟨S50000, .f32⟩
  | 102 => ⟨S50000x1, .f32⟩
  | 103 => ⟨S_, .f32⟩
  | 104 => ⟨S50000x1, .f32⟩
  | 105 => ⟨S50000x1, .f32⟩
  | 106 => ⟨S50000x256, .f32⟩
  | 107 => ⟨S50000x256, .f32⟩
  | 108 => ⟨S_, .f32⟩
  | 109 => ⟨S50000x1, .f32⟩
  | 110 => ⟨S50000x1, .f32⟩
  | 111 => ⟨S50000x1, .f32⟩
  | 112 => ⟨S50000x256, .f32⟩
  | 113 => ⟨S50000x256, .f32⟩
  | 114 => ⟨S1x256, .f32⟩
  | 115 => ⟨S50000x256, .f32⟩
  | 116 => ⟨S50000x256, .f32⟩
  | 117 => ⟨S1x256, .f32⟩
  | 118 => ⟨S50000x256, .f32⟩
  | 119 => ⟨S50000x256, .f32⟩
  | 120 => ⟨S50000x256, .f32⟩
  | 121 => ⟨S50000x256, .f32⟩
  | 122 => ⟨S_, .f32⟩
  | 123 => ⟨S50000x256, .f32⟩
  | 124 => ⟨S50000x256, .f32⟩
  | 125 => ⟨S_, .f32⟩
  | 126 => ⟨S50000x256, .f32⟩
  | 127 => ⟨S50000x256, .f32⟩
  | _ => ⟨S50000x128, .f32⟩

abbrev hbmTy0_1 (i : Nat) : BufTy := match i % 128 with
  | 0 => ⟨S50000x256, .f32⟩
  | 1 => ⟨S50000x256, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x256, .f32⟩
  | 11 => ⟨S800000x1, .f32⟩
  | 12 => ⟨S800000x256, .f32⟩
  | 13 => ⟨S800000x256, .f32⟩
  | 14 => ⟨S_, .f32⟩
  | 15 => ⟨S50000x256, .f32⟩
  | 16 => ⟨S800000x1, .i32⟩
  | 17 => ⟨S50000x256, .f32⟩
  | 18 => ⟨S50000x1, .f32⟩
  | 19 => ⟨S50000x256, .f32⟩
  | 20 => ⟨S50000x256, .f32⟩
  | 21 => ⟨S50000x256, .f32⟩
  | 22 => ⟨S1x256, .f32⟩
  | 23 => ⟨S50000x256, .f32⟩
  | 24 => ⟨S50000x256, .f32⟩
  | 25 => ⟨S50000x256, .f32⟩
  | 26 => ⟨S1x256, .f32⟩
  | 27 => ⟨S50000x256, .f32⟩
  | 28 => ⟨S50000x256, .f32⟩
  | 29 => ⟨S50000x256, .f32⟩
  | 30 => ⟨S_, .f32⟩
  | 31 => ⟨S50000, .f32⟩
  | 32 => ⟨S50000x1, .f32⟩
  | 33 => ⟨S_, .f32⟩
  | 34 => ⟨S50000x1, .f32⟩
  | 35 => ⟨S50000x1, .f32⟩
  | 36 => ⟨S50000x256, .f32⟩
  | 37 => ⟨S50000x256, .f32⟩
  | 38 => ⟨S50000x256, .f32⟩
  | 39 => ⟨S_, .f32⟩
  | 40 => ⟨S50000, .f32⟩
  | 41 => ⟨S50000x1, .f32⟩
  | 42 => ⟨S_, .f32⟩
  | 43 => ⟨S50000x1, .f32⟩
  | 44 => ⟨S50000x1, .f32⟩
  | 45 => ⟨S50000x256, .f32⟩
  | 46 => ⟨S50000x256, .f32⟩
  | 47 => ⟨S_, .f32⟩
  | 48 => ⟨S50000x1, .f32⟩
  | 49 => ⟨S50000x1, .f32⟩
  | 50 => ⟨S50000x1, .f32⟩
  | 51 => ⟨S50000x256, .f32⟩
  | 52 => ⟨S50000x256, .f32⟩
  | 53 => ⟨S1x256, .f32⟩
  | 54 => ⟨S50000x256, .f32⟩
  | 55 => ⟨S50000x256, .f32⟩
  | 56 => ⟨S1x256, .f32⟩
  | 57 => ⟨S50000x256, .f32⟩
  | 58 => ⟨S50000x256, .f32⟩
  | 59 => ⟨S50000x256, .f32⟩
  | 60 => ⟨S50000x256, .f32⟩
  | 61 => ⟨S_, .f32⟩
  | 62 => ⟨S50000x256, .f32⟩
  | 63 => ⟨S50000x256, .f32⟩
  | 64 => ⟨S_, .f32⟩
  | 65 => ⟨S50000x256, .f32⟩
  | 66 => ⟨S50000x256, .f32⟩
  | 67 => ⟨S50000x256, .f32⟩
  | 68 => ⟨S50000x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S800000x1, .f32⟩
  | 79 => ⟨S800000x128, .f32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S50000x1, .f32⟩
  | 86 => ⟨S50000x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S50000, .f32⟩
  | 99 => ⟨S50000x1, .f32⟩
  | 100 => ⟨S_, .f32⟩
  | 101 => ⟨S50000x1, .f32⟩
  | 102 => ⟨S50000x1, .f32⟩
  | 103 => ⟨S50000x128, .f32⟩
  | 104 => ⟨S50000x128, .f32⟩
  | 105 => ⟨S50000x128, .f32⟩
  | 106 => ⟨S_, .f32⟩
  | 107 => ⟨S50000, .f32⟩
  | 108 => ⟨S50000x1, .f32⟩
  | 109 => ⟨S_, .f32⟩
  | 110 => ⟨S50000x1, .f32⟩
  | 111 => ⟨S50000x1, .f32⟩
  | 112 => ⟨S50000x128, .f32⟩
  | 113 => ⟨S50000x128, .f32⟩
  | 114 => ⟨S_, .f32⟩
  | 115 => ⟨S50000x1, .f32⟩
  | 116 => ⟨S50000x1, .f32⟩
  | 117 => ⟨S50000x1, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S64x128, .f32⟩
  | _ => ⟨S50000x128, .f32⟩

abbrev hbmTy0_2 (i : Nat) : BufTy := match i % 128 with
  | 0 => ⟨S50000x1, .i32⟩
  | 1 => ⟨S64x128, .f32⟩
  | 2 => ⟨S_, .f32⟩
  | 3 => ⟨S50000, .f32⟩
  | 4 => ⟨S_, .f32⟩
  | 5 => ⟨S64, .f32⟩
  | 6 => ⟨S50000x1, .i32⟩
  | 7 => ⟨S64, .f32⟩
  | 8 => ⟨S_, .f32⟩
  | 9 => ⟨S64, .f32⟩
  | 10 => ⟨S64, .f32⟩
  | 11 => ⟨S64x1, .f32⟩
  | 12 => ⟨S64x128, .f32⟩
  | 13 => ⟨S64x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_c : Ref sig .tc := ⟨.hbm, 27, rfl⟩
abbrev main_v5 : Ref sig .tc := ⟨.hbm, 28, rfl⟩
abbrev main_v6 : Ref sig .tc := ⟨.hbm, 29, rfl⟩
abbrev main_c_0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_3 : Ref sig .tc := ⟨.hbm, 42, rfl⟩
abbrev main_v16 : Ref sig .tc := ⟨.hbm, 43, rfl⟩
abbrev main_v17 : Ref sig .tc := ⟨.hbm, 44, rfl⟩
abbrev main_c_4 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_5 : Ref sig .tc := ⟨.hbm, 51, rfl⟩
abbrev main_v23 : Ref sig .tc := ⟨.hbm, 52, rfl⟩
abbrev main_v24 : Ref sig .tc := ⟨.hbm, 53, rfl⟩
abbrev main_c_6 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_7 : Ref sig .tc := ⟨.hbm, 63, rfl⟩
abbrev main_v33 : Ref sig .tc := ⟨.hbm, 64, rfl⟩
abbrev main_v34 : Ref sig .tc := ⟨.hbm, 65, rfl⟩
abbrev main_c_8 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_9 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_10 : Ref sig .tc := ⟨.hbm, 91, rfl⟩
abbrev main_v58 : Ref sig .tc := ⟨.hbm, 92, rfl⟩
abbrev main_v59 : Ref sig .tc := ⟨.hbm, 93, rfl⟩
abbrev main_cst_11 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_12 : Ref sig .tc := ⟨.hbm, 100, rfl⟩
abbrev main_v65 : Ref sig .tc := ⟨.hbm, 101, rfl⟩
abbrev main_v66 : Ref sig .tc := ⟨.hbm, 102, rfl⟩
abbrev main_cst_13 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_14 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_call0_v0 : Ref sig .tc := ⟨.hbm, 120, rfl⟩
abbrev main_call0_v1 : Ref sig .tc := ⟨.hbm, 121, rfl⟩
abbrev main_call0_cst : Ref sig .tc := ⟨.hbm, 122, rfl⟩
abbrev main_call0_v2 : Ref sig .tc := ⟨.hbm, 123, rfl⟩
abbrev main_call0_v3 : Ref sig .tc := ⟨.hbm, 124, rfl⟩
abbrev main_call0_cst_0 : Ref sig .tc := ⟨.hbm, 125, rfl⟩
abbrev main_call0_v4 : Ref sig .tc := ⟨.hbm, 126, rfl⟩
abbrev main_call0_v5 : Ref sig .tc := ⟨.hbm, 127, rfl⟩
abbrev main_v82 : Ref sig .tc := ⟨.hbm, 128, rfl⟩
abbrev main_v83 : Ref sig .tc := ⟨.hbm, 129, rfl⟩
abbrev main_c_15 : Ref sig .tc := ⟨.hbm, 130, rfl⟩
abbrev main_v84 : Ref sig .tc := ⟨.hbm, 131, rfl⟩
abbrev main_v85 : Ref sig .tc := ⟨.hbm, 132, rfl⟩
abbrev main_c_16 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_17 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_18 : Ref sig .tc := ⟨.hbm, 158, rfl⟩
abbrev main_v109 : Ref sig .tc := ⟨.hbm, 159, rfl⟩
abbrev main_v110 : Ref sig .tc := ⟨.hbm, 160, rfl⟩
abbrev main_cst_19 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_20 : Ref sig .tc := ⟨.hbm, 167, rfl⟩
abbrev main_v116 : Ref sig .tc := ⟨.hbm, 168, rfl⟩
abbrev main_v117 : Ref sig .tc := ⟨.hbm, 169, rfl⟩
abbrev main_cst_21 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_22 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_call1_v0 : Ref sig .tc := ⟨.hbm, 187, rfl⟩
abbrev main_call1_v1 : Ref sig .tc := ⟨.hbm, 188, rfl⟩
abbrev main_call1_cst : Ref sig .tc := ⟨.hbm, 189, rfl⟩
abbrev main_call1_v2 : Ref sig .tc := ⟨.hbm, 190, rfl⟩
abbrev main_call1_v3 : Ref sig .tc := ⟨.hbm, 191, rfl⟩
abbrev main_call1_cst_0 : Ref sig .tc := ⟨.hbm, 192, rfl⟩
abbrev main_call1_v4 : Ref sig .tc := ⟨.hbm, 193, rfl⟩
abbrev main_call1_v5 : Ref sig .tc := ⟨.hbm, 194, rfl⟩
abbrev main_v133 : Ref sig .tc := ⟨.hbm, 195, rfl⟩
abbrev main_v134 : Ref sig .tc := ⟨.hbm, 196, rfl⟩
abbrev main_c_23 : Ref sig .tc := ⟨.hbm, 197, rfl⟩
abbrev main_v135 : Ref sig .tc := ⟨.hbm, 198, rfl⟩
abbrev main_v136 : Ref sig .tc := ⟨.hbm, 199, rfl⟩
abbrev main_c_24 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_cst_25 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_cst_26 : Ref sig .tc := ⟨.hbm, 225, rfl⟩
abbrev main_v160 : Ref sig .tc := ⟨.hbm, 226, rfl⟩
abbrev main_v161 : Ref sig .tc := ⟨.hbm, 227, rfl⟩
abbrev main_cst_27 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_cst_28 : Ref sig .tc := ⟨.hbm, 234, rfl⟩
abbrev main_v167 : Ref sig .tc := ⟨.hbm, 235, rfl⟩
abbrev main_v168 : Ref sig .tc := ⟨.hbm, 236, rfl⟩
abbrev main_cst_29 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_cst_30 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_cst_31 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_cst_32 : Ref sig .tc := ⟨.hbm, 258, rfl⟩
abbrev main_v187 : Ref sig .tc := ⟨.hbm, 259, rfl⟩
abbrev main_cst_33 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_cst_34 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S_S50000x1 : S_.BroadcastsInDim S50000x1 (![] : Fin 0 → Fin S50000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KernelRun.lean ====
/-
  The idealized kernel's run, with its result named.

  @main of the kernel is eleven segments: a stretch of host operations, then a launched region, and so on, six regions
  in all, ending in a stretch of host operations that pools the node features by graph. The contents of the
  TensorCore's buffers at each segment boundary are a fold through @main from the launch memory: a host stretch applies
  its operations to the boundary's contents, a region replaces its arrays by what its write-backs leave and keeps every
  other buffer. Every weakly fair execution terminates without a fault with every unscoped buffer at the last
  boundary's contents; read at the result buffer and at the argument buffers this says: the result array ends at the
  fold's value of it, and the arguments end as launched.
-/
import proofs.«139766_j71992241815698_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the value the fold
    through @main's segments gives it, and each argument array ends as launched. -/
theorem run_result : θ_run defs (onTc (τ := τ) (main (F := F))) ⟨m, fun _ => 0, ρ⟩ (fun r => ∀ c : Dev nD,
      r.2.mem ((c.tc : Thread nD τ).loc main_v91) = W11 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v91 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c),
       (h c _ (mem_uc main_arg19 (by decide))).trans (W11_main_arg19 m ρ c),
       (h c _ (mem_uc main_arg20 (by decide))).trans (W11_main_arg20 m ρ c)⟩)

end Cert.KernelIdeal.RunValue

end
-- ==== Proof.FoldKeep.lean ====
/-
  Buffers that the idealized kernel's @main reads long after they were written.

  The contents of the TensorCore's buffers at the boundaries of @main's eleven segments are a fold from the launch
  memory. A stretch of host operations changes only the buffers its operations write; a region changes only its own
  arrays. So a buffer keeps its contents across every segment that does not write it: an argument array holds its
  launch contents at every boundary; the four arrays computed once at the start — the edges' source and target
  nodes, the edges' coefficients and the nodes' self coefficients — hold at every later boundary what they held after
  the first stretch; and a block's two dense outputs are still there after the stretch that aggregates one of them.
-/
import proofs.«139766_j71992241815698_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem

/-- One boundary back across a stretch of host operations none of which writes the buffer. -/
macro "host_back" ops:ident : tactic => `(tactic|
  refine (StableHlo.after_of_forall_not_mem $ops _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_)

variable {F : FTy → Type} [FloatOps F]
variable (m : (ℓ : Loc nD τ sig) → Buf (Elt F) ℓ) (ρ : Dev nD → PrngReg) (c : Dev nD)

/-! One boundary back, boundary by boundary: boundaries 1, 3, 6, 9, 11 end a stretch of host operations (the buffer is
    kept when no operation of the stretch writes it), boundaries 2, 4, 5, 7, 8, 10 end a region (the buffer is kept when
    it is none of the region's arrays). -/

macro "b1" : tactic => `(tactic| host_back hostOps0)
macro "b2" : tactic => `(tactic| refine (W2_of_ne _ _ _ _ (by decide)).trans ?_)
macro "b3" : tactic => `(tactic| host_back hostOps1)
macro "b4" : tactic => `(tactic| refine (W4_of_ne _ _ _ _ (by decide)).trans ?_)
macro "b5" : tactic => `(tactic| refine (W5_of_ne _ _ _ _ (by decide)).trans ?_)
macro "b6" : tactic => `(tactic| host_back hostOps3)
macro "b7" : tactic => `(tactic| refine (W7_of_ne _ _ _ _ (by decide)).trans ?_)
macro "b8" : tactic => `(tactic| refine (W8_of_ne _ _ _ _ (by decide)).trans ?_)
macro "b9" : tactic => `(tactic| host_back hostOps5)
macro "b10" : tactic => `(tactic| refine (W10_of_ne _ _ _ _ (by decide)).trans ?_)

/-- From the boundary named back to the launch memory. -/
macro "from1" : tactic => `(tactic| (b1; rfl))
macro "from3" : tactic => `(tactic| (b3; b2; from1))
macro "from4" : tactic => `(tactic| (b4; from3))
macro "from6" : tactic => `(tactic| (b6; b5; from4))
macro "from7" : tactic => `(tactic| (b7; from6))
macro "from9" : tactic => `(tactic| (b9; b8; from7))
macro "from10" : tactic => `(tactic| (b10; from9))

/-- From the boundary named back to boundary 1. -/
macro "to1_from2" : tactic => `(tactic| (b2; rfl))
macro "to1_from5" : tactic => `(tactic| (b5; b4; b3; to1_from2))
macro "to1_from8" : tactic => `(tactic| (b8; b7; b6; to1_from5))

/-! ## The argument arrays, at the boundary where each is read -/

theorem W1_arg0 : W1 m ρ c (Proc.devRef .tc main_arg0) = m ((c : Thread nD τ).loc main_arg0) := by from1
theorem W1_arg3 : W1 m ρ c (Proc.devRef .tc main_arg3) = m ((c : Thread nD τ).loc main_arg3) := by from1
theorem W1_arg9 : W1 m ρ c (Proc.devRef .tc main_arg9) = m ((c : Thread nD τ).loc main_arg9) := by from1
theorem W1_arg10 : W1 m ρ c (Proc.devRef .tc main_arg10) = m ((c : Thread nD τ).loc main_arg10) := by from1
theorem W3_arg4 : W3 m ρ c (Proc.devRef .tc main_arg4) = m ((c : Thread nD τ).loc main_arg4) := by from3
theorem W3_arg15 : W3 m ρ c (Proc.devRef .tc main_arg15) = m ((c : Thread nD τ).loc main_arg15) := by from3
theorem W3_arg16 : W3 m ρ c (Proc.devRef .tc main_arg16) = m ((c : Thread nD τ).loc main_arg16) := by from3
theorem W4_arg5 : W4 m ρ c (Proc.devRef .tc main_arg5) = m ((c : Thread nD τ).loc main_arg5) := by from4
theorem W4_arg11 : W4 m ρ c (Proc.devRef .tc main_arg11) = m ((c : Thread nD τ).loc main_arg11) := by from4
theorem W4_arg12 : W4 m ρ c (Proc.devRef .tc main_arg12) = m ((c : Thread nD τ).loc main_arg12) := by from4
theorem W6_arg6 : W6 m ρ c (Proc.devRef .tc main_arg6) = m ((c : Thread nD τ).loc main_arg6) := by from6
theorem W6_arg17 : W6 m ρ c (Proc.devRef .tc main_arg17) = m ((c : Thread nD τ).loc main_arg17) := by from6
theorem W6_arg18 : W6 m ρ c (Proc.devRef .tc main_arg18) = m ((c : Thread nD τ).loc main_arg18) := by from6
theorem W7_arg7 : W7 m ρ c (Proc.devRef .tc main_arg7) = m ((c : Thread nD τ).loc main_arg7) := by from7
theorem W7_arg13 : W7 m ρ c (Proc.devRef .tc main_arg13) = m ((c : Thread nD τ).loc main_arg13) := by from7
theorem W7_arg14 : W7 m ρ c (Proc.devRef .tc main_arg14) = m ((c : Thread nD τ).loc main_arg14) := by from7
theorem W9_arg8 : W9 m ρ c (Proc.devRef .tc main_arg8) = m ((c : Thread nD τ).loc main_arg8) := by from9
theorem W9_arg19 : W9 m ρ c (Proc.devRef .tc main_arg19) = m ((c : Thread nD τ).loc main_arg19) := by from9
theorem W9_arg20 : W9 m ρ c (Proc.devRef .tc main_arg20) = m ((c : Thread nD τ).loc main_arg20) := by from9
theorem W10_arg2 : W10 m ρ c (Proc.devRef .tc main_arg2) = m ((c : Thread nD τ).loc main_arg2) := by from10

/-! ## The arrays computed by the first stretch, at the three boundaries where an aggregation reads them -/

theorem W2_v1 : W2 m ρ c (Proc.devRef .tc main_v1) = W1 m ρ c (Proc.devRef .tc main_v1) := by to1_from2
theorem W2_v3 : W2 m ρ c (Proc.devRef .tc main_v3) = W1 m ρ c (Proc.devRef .tc main_v3) := by to1_from2
theorem W2_v30 : W2 m ρ c (Proc.devRef .tc main_v30) = W1 m ρ c (Proc.devRef .tc main_v30) := by to1_from2
theorem W2_v31 : W2 m ρ c (Proc.devRef .tc main_v31) = W1 m ρ c (Proc.devRef .tc main_v31) := by to1_from2
theorem W5_v1 : W5 m ρ c (Proc.devRef .tc main_v1) = W1 m ρ c (Proc.devRef .tc main_v1) := by to1_from5
theorem W5_v3 : W5 m ρ c (Proc.devRef .tc main_v3) = W1 m ρ c (Proc.devRef .tc main_v3) := by to1_from5
theorem W5_v30 : W5 m ρ c (Proc.devRef .tc main_v30) = W1 m ρ c (Proc.devRef .tc main_v30) := by to1_from5
theorem W5_v31 : W5 m ρ c (Proc.devRef .tc main_v31) = W1 m ρ c (Proc.devRef .tc main_v31) := by to1_from5
theorem W8_v1 : W8 m ρ c (Proc.devRef .tc main_v1) = W1 m ρ c (Proc.devRef .tc main_v1) := by to1_from8
theorem W8_v3 : W8 m ρ c (Proc.devRef .tc main_v3) = W1 m ρ c (Proc.devRef .tc main_v3) := by to1_from8
theorem W8_v30 : W8 m ρ c (Proc.devRef .tc main_v30) = W1 m ρ c (Proc.devRef .tc main_v30) := by to1_from8
theorem W8_v31 : W8 m ρ c (Proc.devRef .tc main_v31) = W1 m ρ c (Proc.devRef .tc main_v31) := by to1_from8

/-! ## A block's dense outputs across the stretch that aggregates -/

theorem W3_v32_0 : W3 m ρ c (Proc.devRef .tc main_v32_0) = W2 m ρ c (Proc.devRef .tc main_v32_0) := by b3; rfl
theorem W3_v32_1 : W3 m ρ c (Proc.devRef .tc main_v32_1) = W2 m ρ c (Proc.devRef .tc main_v32_1) := by b3; rfl
theorem W6_v48_0 : W6 m ρ c (Proc.devRef .tc main_v48_0) = W5 m ρ c (Proc.devRef .tc main_v48_0) := by b6; rfl
theorem W6_v48_1 : W6 m ρ c (Proc.devRef .tc main_v48_1) = W5 m ρ c (Proc.devRef .tc main_v48_1) := by b6; rfl
theorem W9_v64_0 : W9 m ρ c (Proc.devRef .tc main_v64_0) = W8 m ρ c (Proc.devRef .tc main_v64_0) := by b9; rfl
theorem W9_v64_1 : W9 m ρ c (Proc.devRef .tc main_v64_1) = W8 m ρ c (Proc.devRef .tc main_v64_1) := by b9; rfl

end Cert.KernelIdeal.Fold

end
-- ==== Proof.Spec.lean ====
/-
  The dense pieces of one graph-convolution block, as functions of whole arrays over the extended reals,
  entry by entry, for any number of rows n and any widths a, b.

  * The product of an n×a array with an a×b array: entry (p, o) is the sum over k of x(p, k) · W(k, o); and
    the same product with a bias row added, x · R + rb.
  * The block's epilogue on a row: the pre-activation
        pre(p, o) = ((agg(p, o) + h(p, o) · sc(p)) + bias(o)) + res(p, o),
    normalised along the row with the divisor D (the row width as a float word) and the floor ε:
        μ = (∑ₖ pre(p, k)) / D,   σ² = (∑ₖ (pre(p, k) − μ)²) / D,
        ln(p, o) = ((pre(p, o) − μ) · rsqrt(σ² + ε)) · g(o) + be(o),
    and, for the two inner blocks, the gate ln · logistic(ln).
  Sums, products, quotients, the reciprocal square root and the logistic function are the extended reals'
  exact ones; nothing here uses that an entry is finite.
-/
import Idealize.ShloMosaic.Lib.ValueIdx
import Idealize.ShloMosaic.PureOps.Ideal

noncomputable section

open scoped BigOperators

namespace Cert.Spec

open Idealize.ShloMosaic Idealize.ShloMosaic.ValueIdx

variable {n a b : ℕ}

/-- Entry (p, o) of the product x · W. -/
def mmAt (x : FVec Ideal ⟨2, ![n, a]⟩ .f32) (W : FVec Ideal ⟨2, ![a, b]⟩ .f32) (p : Fin n) (o : Fin b) : EReal :=
  ∑ k : Fin a, x (ix2 p k) * W (ix2 k o)

/-- The product x · W. -/
def mm (x : FVec Ideal ⟨2, ![n, a]⟩ .f32) (W : FVec Ideal ⟨2, ![a, b]⟩ .f32) : FVec Ideal ⟨2, ![n, b]⟩ .f32 :=
  fun i => mmAt x W (i 0) (i 1)

/-- The product with a bias row: x · R + rb. -/
def lin (x : FVec Ideal ⟨2, ![n, a]⟩ .f32) (R : FVec Ideal ⟨2, ![a, b]⟩ .f32) (rb : FVec Ideal ⟨1, ![b]⟩ .f32) :
    FVec Ideal ⟨2, ![n, b]⟩ .f32 :=
  fun i => mmAt x R (i 0) (i 1) + rb (ix1 (i 1))

/-- The pre-activation at (p, o): the aggregate, the self term h · sc, the bias and the residual, added in
    this order. The self coefficient is a column [n, 1]. -/
def preAt (agg h res : FVec Ideal ⟨2, ![n, b]⟩ .f32) (sc : FVec Ideal ⟨2, ![n, 1]⟩ .f32)
    (bias : FVec Ideal ⟨1, ![b]⟩ .f32) (p : Fin n) (o : Fin b) : EReal :=
  agg (ix2 p o) + h (ix2 p o) * sc (ix2 p (0 : Fin 1)) + bias (ix1 o) + res (ix2 p o)

/-- The floor ε under the variance: the float word of 1e-5. -/
def epsW : EReal := Ideal.ofBits .f32 0x3727C5AC#32

/-- The mean of a row r of width b, with the divisor given as a float word. -/
def meanOf (dw : BitVec 32) (r : Fin b → EReal) : EReal :=
  Ideal.div (∑ k : Fin b, r k) (Ideal.ofBits .f32 dw)

/-- The mean of the squared deviations of a row from its mean. -/
def varOf (dw : BitVec 32) (r : Fin b → EReal) : EReal :=
  Ideal.div (∑ k : Fin b, (r k - meanOf dw r) * (r k - meanOf dw r)) (Ideal.ofBits .f32 dw)

/-- The normalised row at o, scaled by g and shifted by be. -/
def lnAt (dw : BitVec 32) (r : Fin b → EReal) (g be : FVec Ideal ⟨1, ![b]⟩ .f32) (o : Fin b) : EReal :=
  (r o - meanOf dw r) * Ideal.rsqrt (varOf dw r + epsW) * g (ix1 o) + be (ix1 o)

/-- The gate x · logistic(x). -/
def silu (x : EReal) : EReal := x * Ideal.logistic x

/-- The epilogue without the gate (the last block). -/
def combine (dw : BitVec 32) (agg h res : FVec Ideal ⟨2, ![n, b]⟩ .f32) (sc : FVec Ideal ⟨2, ![n, 1]⟩ .f32)
    (bias g be : FVec Ideal ⟨1, ![b]⟩ .f32) : FVec Ideal ⟨2, ![n, b]⟩ .f32 :=
  fun i => lnAt dw (fun o => preAt agg h res sc bias (i 0) o) g be (i 1)

/-- The epilogue with the gate (the two inner blocks). -/
def combineSilu (dw : BitVec 32) (agg h res : FVec Ideal ⟨2, ![n, b]⟩ .f32) (sc : FVec Ideal ⟨2, ![n, 1]⟩ .f32)
    (bias g be : FVec Ideal ⟨1, ![b]⟩ .f32) : FVec Ideal ⟨2, ![n, b]⟩ .f32 :=
  fun i => silu (lnAt dw (fun o => preAt agg h res sc bias (i 0) o) g be (i 1))

end Cert.Spec

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.DenseRegion0.lean ====
/-
  The first dual-product region of the kernel, read as whole arrays.

  The region runs over 25 grid points. Point t loads rows 2000·t … 2000·t + 1999 of the n×a input (n = 50000,
  a = 128), both a×b weight arrays whole (b = 256) and the bias row, and writes two 2000×b row blocks: the product of
  its rows with the first weight array, and the product with the second weight array plus the bias row. At the
  extended reals the conversion of the operands to the narrow float type is the identity and a matrix product into
  the zero accumulator is the plain sum over the contraction index, so what point t writes is block t of

      h(r, o)   = ∑ₖ x(r, k) · W(k, o)            and        res(r, o) = ∑ₖ x(r, k) · R(k, o) + rb(o).

  The 25 row blocks tile the n rows (row r lies in the block of point r / 2000) and every point writes back, so
  after the region the two output arrays are h and res.

  Steps: the value a point computes at an entry (p, o) of its block; where each window's block sits in its array
  (decided over the 25 points); each input block read as entries of its array; the block a point writes back as
  a block of h (of res); the blocks cover the array; the arrays after the last point.
-/
import proofs.«139766_j71992241815698_1_alg».proof.Proof.Gen.KernelIdeal.Frame
import proofs.«139766_j71992241815698_1_alg».proof.Proof.Spec
import proofs.«139766_j71992241815698_1_alg».proof.Proof.LibPlainDot
import Idealize.ShloMosaic.Lib.Pipeline.Value
import Idealize.ShloMosaic.Lib.ValueIdx
import Idealize.ShloMosaic.Lib.ValueLayout

set_option maxRecDepth 16384

noncomputable section

open scoped BigOperators

namespace Cert.KernelIdeal.DenseValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## What a point computes at an entry of its block -/

/-- The first product at entry (p, o): the sum over k of x(p, k) · W(k, o). -/
theorem block_h0_apply (x0 : FVec Ideal S2000x128 .f32) (x1 : FVec Ideal S128x256 .f32) (p : Fin 2000) (o : Fin 256) :
    k0_pay2 (F := Ideal) x0 x1 (ix2 p o) = Cert.Spec.mmAt x0 x1 p o :=
  Cert.LibPlainDot.matmul_zero_apply none x0 x1 p o

/-- The second product with the bias row at entry (p, o): the sum over k of x(p, k) · R(k, o), plus rb(o). The bias
    is a vector viewed as one row and repeated along the rows, so entry (p, o) of it is rb(o). -/
theorem block_res0_apply (x0 : FVec Ideal S2000x128 .f32) (x2 : FVec Ideal S128x256 .f32) (x3 : FVec Ideal S256 .f32)
    (p : Fin 2000) (o : Fin 256) :
    k0_pay3 (F := Ideal) x0 x2 x3 (ix2 p o) = Cert.Spec.mmAt x0 x2 p o + x3 (ix1 o) := by
  unfold k0_pay3
  rw [addf_apply]
  refine congrArg₂ (· + ·) (Cert.LibPlainDot.matmul_zero_apply none x0 x2 p o) ?_
  rw [broadcastTo_1b_ab_apply, shapeCast_a_1a_apply]

/-! ## Where the blocks sit -/

/-- The zero offset of a rank-2 access, as the constant function. -/
theorem origin2_0 : (![0, 0] : Fin 2 → Nat) = fun _ => 0 := funext fun a => by fin_cases a <;> rfl

/-- The zero offset of a rank-1 access, as the constant function. -/
theorem origin1_0 : (![0] : Fin 1 → Nat) = fun _ => 0 := funext fun a => by fin_cases a; rfl

/-- The block indices, decided over the 25 points: the input rows and both outputs are at block (t, 0); the two
    weight arrays and the bias row stay at block (0, 0) and (0). -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Entry x of the input's block at point t is entry k of the input array when k is 2000·t rows below x. -/
theorem rows0_apply (c : Dev nD) (t : Fin cfg0.N) (x : S2000x128.Idx) (k : S50000x128.Idx)
    (hk0 : (k 0).val = 2000 * t.val + (x 0).val) (hk1 : (k 1).val = (x 1).val) :
    (iblk0 V c 0 t : Vec Ideal S2000x128 .f32) x = (V c main_arg0 : S50000x128.Idx → EReal) k := by
  obtain ⟨e0, e1, -⟩ := block_index0 t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 128 + 1 * (x 1).val = (k 1).val; rw [e1, hk1]; omega

/-- The first weight array's block at any point is the whole array. -/
theorem weight_h0_apply (c : Dev nD) (t : Fin cfg0.N) (x k : S128x256.Idx)
    (hk0 : (k 0).val = (x 0).val) (hk1 : (k 1).val = (x 1).val) :
    (iblk0 V c 1 t : Vec Ideal S128x256 .f32) x = (V c main_arg3 : S128x256.Idx → EReal) k := by
  obtain ⟨-, -, e0, e1, -⟩ := block_index0 t
  unfold iblk0
  rw [View.read_apply]
  show V c main_arg3 _ = V c main_arg3 _
  congr 1
  funext a
  apply Fin.ext
  match a with
  | ⟨0, _⟩ => show win0_1.index t 0 * 128 + 1 * (x 0).val = (k 0).val; rw [e0, hk0]; omega
  | ⟨1, _⟩ => show win0_1.index t 1 * 256 + 1 * (x 1).val = (k 1).val; rw [e1, hk1]; omega

/-- The second weight array's block at any point is the whole array. -/
theorem weight_res0_apply (c : Dev nD) (t : Fin cfg0.N) (x k : S128x256.Idx)
    (hk0 : (k 0).val = (x 0).val) (hk1 : (k 1).val = (x 1).val) :
    (iblk0 V c 2 t : Vec Ideal S128x256 .f32) x = (V c main_arg9 : S128x256.Idx → EReal) k := by
  obtain ⟨-, -, -, -, e0, e1, -⟩ := block_index0 t
  unfold iblk0
  rw [View.read_apply]
  show V c main_arg9 _ = V c main_arg9 _
  congr 1
  funext a
  apply Fin.ext
  match a with
  | ⟨0, _⟩ => show win0_2.index t 0 * 128 + 1 * (x 0).val = (k 0).val; rw [e0, hk0]; omega
  | ⟨1, _⟩ => show win0_2.index t 1 * 256 + 1 * (x 1).val = (k 1).val; rw [e1, hk1]; omega

/-- The bias row's block at any point is the whole row. -/
theorem bias0_apply (c : Dev nD) (t : Fin cfg0.N) (x k : S256.Idx) (hk0 : (k 0).val = (x 0).val) :
    (iblk0 V c 3 t : Vec Ideal S256 .f32) x = (V c main_arg10 : S256.Idx → EReal) k := by
  obtain ⟨-, -, -, -, -, -, e0, -⟩ := block_index0 t
  unfold iblk0
  rw [View.read_apply]
  show V c main_arg10 _ = V c main_arg10 _
  congr 1
  funext a
  apply Fin.ext
  match a with
  | ⟨0, _⟩ => show win0_3.index t 0 * 256 + 1 * (x 0).val = (k 0).val; rw [e0, hk0]; omega

/-! ## What a point writes back -/

/-- Point t writes back block t of the product x · W: entry (p, o) of the block is entry (2000·t + p, o) of the
    array, and the input block's row p is the input array's row 2000·t + p. -/
theorem flushed_h0 (c : Dev nD) (t : Fin cfg0.N) :
    (dat0 (F := Ideal) V c).flushed 4 t
      = ((cfg0.win 4).blk t).view.read (Elt Ideal)
          (Cert.Spec.mm (n := 50000) (a := 128) (b := 256) (V c main_arg0) (V c main_arg3)) := by
  show (cfg0.win 4).cut (grid0.coords t) ((dat0 V c).after 4 t) = _
  rw [after0_4]
  unfold out0_4
  rw [View.canon_unit_zero origin2_0]
  simp only [View.ld_unit_zero (S := S2000x128) origin2_0, View.ld_unit_zero (S := S128x256) origin2_0]
  obtain ⟨-, -, -, -, -, -, -, e0, e1, -⟩ := block_index0 t
  funext j
  obtain ⟨p, o, rfl⟩ : ∃ (p : Fin 2000) (o : Fin 256), j = ix2 p o := ⟨j 0, j 1, eq_ix2 j⟩
  show k0_pay2 (F := Ideal) (iblk0 V c 0 t) (iblk0 V c 1 t) (ix2 p o)
    = Cert.Spec.mmAt (n := 50000) (a := 128) (b := 256) (V c main_arg0) (V c main_arg3)
        ((((cfg0.win 4).blk t).view.emb (ix2 p o)) 0) ((((cfg0.win 4).blk t).view.emb (ix2 p o)) 1)
  refine (block_h0_apply (iblk0 V c 0 t) (iblk0 V c 1 t) p o).trans ?_
  unfold Cert.Spec.mmAt
  refine Finset.sum_congr rfl fun k _ => congrArg₂ (· * ·) ?_ ?_
  · refine rows0_apply V c t _ _ ?_ rfl
    show win0_4.index t (0 : Fin 2) * 2000 + 1 * p.val = 2000 * t.val + p.val
    rw [e0]; omega
  · refine weight_h0_apply V c t _ _ rfl ?_
    show win0_4.index t (1 : Fin 2) * 256 + 1 * o.val = o.val
    rw [e1]; omega

/-- Point t writes back block t of x · R + rb. -/
theorem flushed_res0 (c : Dev nD) (t : Fin cfg0.N) :
    (dat0 (F := Ideal) V c).flushed 5 t
      = ((cfg0.win 5).blk t).view.read (Elt Ideal)
          (Cert.Spec.lin (n := 50000) (a := 128) (b := 256) (V c main_arg0) (V c main_arg9) (V c main_arg10)) := by
  show (cfg0.win 5).cut (grid0.coords t) ((dat0 V c).after 5 t) = _
  rw [after0_5]
  unfold out0_5
  rw [View.canon_unit_zero origin2_0]
  simp only [View.ld_unit_zero (S := S2000x128) origin2_0, View.ld_unit_zero (S := S128x256) origin2_0,
    View.ld_unit_zero (S := S256) origin1_0]
  obtain ⟨-, -, -, -, -, -, -, -, -, e0, e1⟩ := block_index0 t
  funext j
  obtain ⟨p, o, rfl⟩ : ∃ (p : Fin 2000) (o : Fin 256), j = ix2 p o := ⟨j 0, j 1, eq_ix2 j⟩
  show k0_pay3 (F := Ideal) (iblk0 V c 0 t) (iblk0 V c 2 t) (iblk0 V c 3 t) (ix2 p o)
    = Cert.Spec.mmAt (n := 50000) (a := 128) (b := 256) (V c main_arg0) (V c main_arg9)
        ((((cfg0.win 5).blk t).view.emb (ix2 p o)) 0) ((((cfg0.win 5).blk t).view.emb (ix2 p o)) 1)
      + (V c main_arg10 : FVec Ideal ⟨1, ![256]⟩ .f32) (ix1 ((((cfg0.win 5).blk t).view.emb (ix2 p o)) 1))
  refine (block_res0_apply (iblk0 V c 0 t) (iblk0 V c 2 t) (iblk0 V c 3 t) p o).trans ?_
  unfold Cert.Spec.mmAt
  refine congrArg₂ (· + ·) (Finset.sum_congr rfl fun k _ => congrArg₂ (· * ·) ?_ ?_) ?_
  · refine rows0_apply V c t _ _ ?_ rfl
    show win0_5.index t (0 : Fin 2) * 2000 + 1 * p.val = 2000 * t.val + p.val
    rw [e0]; omega
  · refine weight_res0_apply V c t _ _ rfl ?_
    show win0_5.index t (1 : Fin 2) * 256 + 1 * o.val = o.val
    rw [e1]; omega
  · refine bias0_apply V c t _ _ ?_
    show win0_5.index t (1 : Fin 2) * 256 + 1 * o.val = o.val
    rw [e1]; omega

/-! ## The blocks cover the arrays -/

/-- An index of the first output array is in point t's block iff each coordinate is in the block's range. -/
theorem mem_block_h0 (t : Fin cfg0.N) (i : S50000x256.Idx) :
    i ∈ ((cfg0.win 4).blk t).view.set ↔ ∀ a : Fin 2, win0_4.index t a * S2000x256.size a ≤ (i a).val
      ∧ (i a).val < win0_4.index t a * S2000x256.size a + S2000x256.size a := by
  show i ∈ ((View.whole main_v32_0).slice (win0_4.rect t)).set ↔ _
  rw [View.set_slice_whole, Rect.mem_set_unit]
  exact Iff.rfl

/-- The same for the second output array. -/
theorem mem_block_res0 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v32_1).slice (win0_5.rect t)).set ↔ _
  rw [View.set_slice_whole, Rect.mem_set_unit]
  exact Iff.rfl

/-- Row r of the first output array lies in the block of point r / 2000, which writes back. -/
theorem covered_h0 (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  have hN : cfg0.N = 25 := N_0
  have ht : (i 0).val / 2000 < cfg0.N := by rw [hN]; omega
  obtain ⟨-, -, -, -, -, -, -, e0, e1, -⟩ := block_index0 ⟨(i 0).val / 2000, ht⟩
  refine ⟨⟨(i 0).val / 2000, ht⟩, flush0_4 _, ?_⟩
  rw [mem_block_h0]
  intro a
  match a with
  | ⟨0, _⟩ =>
    show win0_4.index ⟨(i 0).val / 2000, ht⟩ (0 : Fin 2) * 2000 ≤ (i 0).val
      ∧ (i 0).val < win0_4.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_4.index ⟨(i 0).val / 2000, ht⟩ (1 : Fin 2) * 256 ≤ (i 1).val
      ∧ (i 1).val < win0_4.index ⟨(i 0).val / 2000, ht⟩ (1 : Fin 2) * 256 + 256
    rw [e1]; omega

/-- Row r of the second output array lies in the block of point r / 2000, which writes back. -/
theorem covered_res0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  have ht : (i 0).val / 2000 < cfg0.N := by rw [hN]; omega
  obtain ⟨-, -, -, -, -, -, -, -, -, e0, e1⟩ := block_index0 ⟨(i 0).val / 2000, ht⟩
  refine ⟨⟨(i 0).val / 2000, ht⟩, flush0_5 _, ?_⟩
  rw [mem_block_res0]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, ht⟩ (1 : Fin 2) * 256 ≤ (i 1).val
      ∧ (i 1).val < win0_5.index ⟨(i 0).val / 2000, ht⟩ (1 : Fin 2) * 256 + 256
    rw [e1]; omega

/-! ## The arrays after the region -/

/-- After the last point the first output array is the product x · W of the arrays the region found. -/
theorem dense0_h (c : Dev nD) :
    (dat0 (F := Ideal) V c).arrAt 4 cfg0.N
      = Cert.Spec.mm (n := 50000) (a := 128) (b := 256) (V c main_arg0) (V c main_arg3) :=
  (dat0 (F := Ideal) V c).arrAt_eq_of_cover 4 _ (fun t _ => flushed_h0 V c t) covered_h0

/-- After the last point the second output array is x · R + rb of the arrays the region found. -/
theorem dense0_res (c : Dev nD) :
    (dat0 (F := Ideal) V c).arrAt 5 cfg0.N
      = Cert.Spec.lin (n := 50000) (a := 128) (b := 256) (V c main_arg0) (V c main_arg9) (V c main_arg10) :=
  (dat0 (F := Ideal) V c).arrAt_eq_of_cover 5 _ (fun t _ => flushed_res0 V c t) covered_res0

end Cert.KernelIdeal.DenseValue

end
-- ==== Proof.DenseRegion2.lean ====
/-
  The second dual-product region of the kernel, read as whole arrays.

  The region runs over 25 grid points. Point t loads rows 2000·t … 2000·t + 1999 of the n×a input (n = 50000,
  a = 256), both a×b weight arrays whole (b = 256) and the bias row, and writes two 2000×b row blocks: the product of
  its rows with the first weight array, and the product with the second weight array plus the bias row. At the
  extended reals the conversion of the operands to the narrow float type is the identity and a matrix product into
  the zero accumulator is the plain sum over the contraction index, so what point t writes is block t of

      h(r, o)   = ∑ₖ x(r, k) · W(k, o)            and        res(r, o) = ∑ₖ x(r, k) · R(k, o) + rb(o).

  The 25 row blocks tile the n rows (row r lies in the block of point r / 2000) and every point writes back, so
  after the region the two output arrays are h and res.

  Steps: the value a point computes at an entry (p, o) of its block; where each window's block sits in its array
  (decided over the 25 points); each input block read as entries of its array; the block a point writes back as
  a block of h (of res); the blocks cover the array; the arrays after the last point.
-/
import proofs.«139766_j71992241815698_1_alg».proof.Proof.Gen.KernelIdeal.Frame
import proofs.«139766_j71992241815698_1_alg».proof.Proof.Spec
import proofs.«139766_j71992241815698_1_alg».proof.Proof.LibPlainDot
import Idealize.ShloMosaic.Lib.Pipeline.Value
import Idealize.ShloMosaic.Lib.ValueIdx
import Idealize.ShloMosaic.Lib.ValueLayout

set_option maxRecDepth 16384

noncomputable section

open scoped BigOperators

namespace Cert.KernelIdeal.DenseValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## What a point computes at an entry of its block -/

/-- The row block passes through a cast to its own shape and the conversion to the narrow float type before the
    products; at the extended reals both are the identity. -/
theorem input_cast2 (x0 : FVec Ideal S2000x256 .f32) : k2_pay1 (F := Ideal) x0 = truncf .bf16 x0 bitsLt_bf16_f32 := by
  unfold k2_pay1
  rw [shapeCast_self]

/-- The first product at entry (p, o): the sum over k of x(p, k) · W(k, o). -/
theorem block_h2_apply (x0 : FVec Ideal S2000x256 .f32) (x1 : FVec Ideal S256x256 .f32) (p : Fin 2000) (o : Fin 256) :
    k2_pay2 (F := Ideal) x0 x1 (ix2 p o) = Cert.Spec.mmAt x0 x1 p o := by
  unfold k2_pay2
  rw [input_cast2]
  exact Cert.LibPlainDot.matmul_zero_apply none x0 x1 p o

/-- The second product with the bias row at entry (p, o): the sum over k of x(p, k) · R(k, o), plus rb(o). The bias
    is a vector viewed as one row and repeated along the rows, so entry (p, o) of it is rb(o). -/
theorem block_res2_apply (x0 : FVec Ideal S2000x256 .f32) (x2 : FVec Ideal S256x256 .f32) (x3 : FVec Ideal S256 .f32)
    (p : Fin 2000) (o : Fin 256) :
    k2_pay3 (F := Ideal) x0 x2 x3 (ix2 p o) = Cert.Spec.mmAt x0 x2 p o + x3 (ix1 o) := by
  unfold k2_pay3
  rw [addf_apply, input_cast2]
  refine congrArg₂ (· + ·) (Cert.LibPlainDot.matmul_zero_apply none x0 x2 p o) ?_
  rw [broadcastTo_1b_ab_apply, shapeCast_a_1a_apply]

/-! ## Where the blocks sit -/

/-- The zero offset of a rank-2 access, as the constant function. -/
theorem origin2_2 : (![0, 0] : Fin 2 → Nat) = fun _ => 0 := funext fun a => by fin_cases a <;> rfl

/-- The zero offset of a rank-1 access, as the constant function. -/
theorem origin1_2 : (![0] : Fin 1 → Nat) = fun _ => 0 := funext fun a => by fin_cases a; rfl

/-- The block indices, decided over the 25 points: the input rows and both outputs are at block (t, 0); the two
    weight arrays and the bias row stay at block (0, 0) and (0). -/
theorem block_index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Entry x of the input's block at point t is entry k of the input array when k is 2000·t rows below x. -/
theorem rows2_apply (c : Dev nD) (t : Fin cfg2.N) (x : S2000x256.Idx) (k : S50000x256.Idx)
    (hk0 : (k 0).val = 2000 * t.val + (x 0).val) (hk1 : (k 1).val = (x 1).val) :
    (iblk2 V c 0 t : Vec Ideal S2000x256 .f32) x = (V c main_v47 : S50000x256.Idx → EReal) k := by
  obtain ⟨e0, e1, -⟩ := block_index2 t
  unfold iblk2
  rw [View.read_apply]
  show V c main_v47 _ = V c main_v47 _
  congr 1
  funext a
  apply Fin.ext
  match a with
  | ⟨0, _⟩ => show win2_0.index t 0 * 2000 + 1 * (x 0).val = (k 0).val; rw [e0, hk0]; omega
  | ⟨1, _⟩ => show win2_0.index t 1 * 256 + 1 * (x 1).val = (k 1).val; rw [e1, hk1]; omega

/-- The first weight array's block at any point is the whole array. -/
theorem weight_h2_apply (c : Dev nD) (t : Fin cfg2.N) (x k : S256x256.Idx)
    (hk0 : (k 0).val = (x 0).val) (hk1 : (k 1).val = (x 1).val) :
    (iblk2 V c 1 t : Vec Ideal S256x256 .f32) x = (V c main_arg5 : S256x256.Idx → EReal) k := by
  obtain ⟨-, -, e0, e1, -⟩ := block_index2 t
  unfold iblk2
  rw [View.read_apply]
  show V c main_arg5 _ = V c main_arg5 _
  congr 1
  funext a
  apply Fin.ext
  match a with
  | ⟨0, _⟩ => show win2_1.index t 0 * 256 + 1 * (x 0).val = (k 0).val; rw [e0, hk0]; omega
  | ⟨1, _⟩ => show win2_1.index t 1 * 256 + 1 * (x 1).val = (k 1).val; rw [e1, hk1]; omega

/-- The second weight array's block at any point is the whole array. -/
theorem weight_res2_apply (c : Dev nD) (t : Fin cfg2.N) (x k : S256x256.Idx)
    (hk0 : (k 0).val = (x 0).val) (hk1 : (k 1).val = (x 1).val) :
    (iblk2 V c 2 t : Vec Ideal S256x256 .f32) x = (V c main_arg11 : S256x256.Idx → EReal) k := by
  obtain ⟨-, -, -, -, e0, e1, -⟩ := block_index2 t
  unfold iblk2
  rw [View.read_apply]
  show V c main_arg11 _ = V c main_arg11 _
  congr 1
  funext a
  apply Fin.ext
  match a with
  | ⟨0, _⟩ => show win2_2.index t 0 * 256 + 1 * (x 0).val = (k 0).val; rw [e0, hk0]; omega
  | ⟨1, _⟩ => show win2_2.index t 1 * 256 + 1 * (x 1).val = (k 1).val; rw [e1, hk1]; omega

/-- The bias row's block at any point is the whole row. -/
theorem bias2_apply (c : Dev nD) (t : Fin cfg2.N) (x k : S256.Idx) (hk0 : (k 0).val = (x 0).val) :
    (iblk2 V c 3 t : Vec Ideal S256 .f32) x = (V c main_arg12 : S256.Idx → EReal) k := by
  obtain ⟨-, -, -, -, -, -, e0, -⟩ := block_index2 t
  unfold iblk2
  rw [View.read_apply]
  show V c main_arg12 _ = V c main_arg12 _
  congr 1
  funext a
  apply Fin.ext
  match a with
  | ⟨0, _⟩ => show win2_3.index t 0 * 256 + 1 * (x 0).val = (k 0).val; rw [e0, hk0]; omega

/-! ## What a point writes back -/

/-- Point t writes back block t of the product x · W: entry (p, o) of the block is entry (2000·t + p, o) of the
    array, and the input block's row p is the input array's row 2000·t + p. -/
theorem flushed_h2 (c : Dev nD) (t : Fin cfg2.N) :
    (dat2 (F := Ideal) V c).flushed 4 t
      = ((cfg2.win 4).blk t).view.read (Elt Ideal)
          (Cert.Spec.mm (n := 50000) (a := 256) (b := 256) (V c main_v47) (V c main_arg5)) := by
  show (cfg2.win 4).cut (grid2.coords t) ((dat2 V c).after 4 t) = _
  rw [after2_4]
  unfold out2_4
  rw [View.canon_unit_zero origin2_2]
  simp only [View.ld_unit_zero (S := S2000x256) origin2_2, View.ld_unit_zero (S := S256x256) origin2_2]
  obtain ⟨-, -, -, -, -, -, -, e0, e1, -⟩ := block_index2 t
  funext j
  obtain ⟨p, o, rfl⟩ : ∃ (p : Fin 2000) (o : Fin 256), j = ix2 p o := ⟨j 0, j 1, eq_ix2 j⟩
  show k2_pay2 (F := Ideal) (iblk2 V c 0 t) (iblk2 V c 1 t) (ix2 p o)
    = Cert.Spec.mmAt (n := 50000) (a := 256) (b := 256) (V c main_v47) (V c main_arg5)
        ((((cfg2.win 4).blk t).view.emb (ix2 p o)) 0) ((((cfg2.win 4).blk t).view.emb (ix2 p o)) 1)
  refine (block_h2_apply (iblk2 V c 0 t) (iblk2 V c 1 t) p o).trans ?_
  unfold Cert.Spec.mmAt
  refine Finset.sum_congr rfl fun k _ => congrArg₂ (· * ·) ?_ ?_
  · refine rows2_apply V c t _ _ ?_ rfl
    show win2_4.index t (0 : Fin 2) * 2000 + 1 * p.val = 2000 * t.val + p.val
    rw [e0]; omega
  · refine weight_h2_apply V c t _ _ rfl ?_
    show win2_4.index t (1 : Fin 2) * 256 + 1 * o.val = o.val
    rw [e1]; omega

/-- Point t writes back block t of x · R + rb. -/
theorem flushed_res2 (c : Dev nD) (t : Fin cfg2.N) :
    (dat2 (F := Ideal) V c).flushed 5 t
      = ((cfg2.win 5).blk t).view.read (Elt Ideal)
          (Cert.Spec.lin (n := 50000) (a := 256) (b := 256) (V c main_v47) (V c main_arg11) (V c main_arg12)) := by
  show (cfg2.win 5).cut (grid2.coords t) ((dat2 V c).after 5 t) = _
  rw [after2_5]
  unfold out2_5
  rw [View.canon_unit_zero origin2_2]
  simp only [View.ld_unit_zero (S := S2000x256) origin2_2, View.ld_unit_zero (S := S256x256) origin2_2,
    View.ld_unit_zero (S := S256) origin1_2]
  obtain ⟨-, -, -, -, -, -, -, -, -, e0, e1⟩ := block_index2 t
  funext j
  obtain ⟨p, o, rfl⟩ : ∃ (p : Fin 2000) (o : Fin 256), j = ix2 p o := ⟨j 0, j 1, eq_ix2 j⟩
  show k2_pay3 (F := Ideal) (iblk2 V c 0 t) (iblk2 V c 2 t) (iblk2 V c 3 t) (ix2 p o)
    = Cert.Spec.mmAt (n := 50000) (a := 256) (b := 256) (V c main_v47) (V c main_arg11)
        ((((cfg2.win 5).blk t).view.emb (ix2 p o)) 0) ((((cfg2.win 5).blk t).view.emb (ix2 p o)) 1)
      + (V c main_arg12 : FVec Ideal ⟨1, ![256]⟩ .f32) (ix1 ((((cfg2.win 5).blk t).view.emb (ix2 p o)) 1))
  refine (block_res2_apply (iblk2 V c 0 t) (iblk2 V c 2 t) (iblk2 V c 3 t) p o).trans ?_
  unfold Cert.Spec.mmAt
  refine congrArg₂ (· + ·) (Finset.sum_congr rfl fun k _ => congrArg₂ (· * ·) ?_ ?_) ?_
  · refine rows2_apply V c t _ _ ?_ rfl
    show win2_5.index t (0 : Fin 2) * 2000 + 1 * p.val = 2000 * t.val + p.val
    rw [e0]; omega
  · refine weight_res2_apply V c t _ _ rfl ?_
    show win2_5.index t (1 : Fin 2) * 256 + 1 * o.val = o.val
    rw [e1]; omega
  · refine bias2_apply V c t _ _ ?_
    show win2_5.index t (1 : Fin 2) * 256 + 1 * o.val = o.val
    rw [e1]; omega

/-! ## The blocks cover the arrays -/

/-- An index of the first output array is in point t's block iff each coordinate is in the block's range. -/
theorem mem_block_h2 (t : Fin cfg2.N) (i : S50000x256.Idx) :
    i ∈ ((cfg2.win 4).blk t).view.set ↔ ∀ a : Fin 2, win2_4.index t a * S2000x256.size a ≤ (i a).val
      ∧ (i a).val < win2_4.index t a * S2000x256.size a + S2000x256.size a := by
  show i ∈ ((View.whole main_v48_0).slice (win2_4.rect t)).set ↔ _
  rw [View.set_slice_whole, Rect.mem_set_unit]
  exact Iff.rfl

/-- The same for the second output array. -/
theorem mem_block_res2 (t : Fin cfg2.N) (i : S50000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v48_1).slice (win2_5.rect t)).set ↔ _
  rw [View.set_slice_whole, Rect.mem_set_unit]
  exact Iff.rfl

/-- Row r of the first output array lies in the block of point r / 2000, which writes back. -/
theorem covered_h2 (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  have hN : cfg2.N = 25 := N_2
  have ht : (i 0).val / 2000 < cfg2.N := by rw [hN]; omega
  obtain ⟨-, -, -, -, -, -, -, e0, e1, -⟩ := block_index2 ⟨(i 0).val / 2000, ht⟩
  refine ⟨⟨(i 0).val / 2000, ht⟩, flush2_4 _, ?_⟩
  rw [mem_block_h2]
  intro a
  match a with
  | ⟨0, _⟩ =>
    show win2_4.index ⟨(i 0).val / 2000, ht⟩ (0 : Fin 2) * 2000 ≤ (i 0).val
      ∧ (i 0).val < win2_4.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win2_4.index ⟨(i 0).val / 2000, ht⟩ (1 : Fin 2) * 256 ≤ (i 1).val
      ∧ (i 1).val < win2_4.index ⟨(i 0).val / 2000, ht⟩ (1 : Fin 2) * 256 + 256
    rw [e1]; omega

/-- Row r of the second output array lies in the block of point r / 2000, which writes back. -/
theorem covered_res2 (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  have hN : cfg2.N = 25 := N_2
  have ht : (i 0).val / 2000 < cfg2.N := by rw [hN]; omega
  obtain ⟨-, -, -, -, -, -, -, -, -, e0, e1⟩ := block_index2 ⟨(i 0).val / 2000, ht⟩
  refine ⟨⟨(i 0).val / 2000, ht⟩, flush2_5 _, ?_⟩
  rw [mem_block_res2]
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win2_5.index ⟨(i 0).val / 2000, ht⟩ (1 : Fin 2) * 256 ≤ (i 1).val
      ∧ (i 1).val < win2_5.index ⟨(i 0).val / 2000, ht⟩ (1 : Fin 2) * 256 + 256
    rw [e1]; omega

/-! ## The arrays after the region -/

/-- After the last point the first output array is the product x · W of the arrays the region found. -/
theorem dense2_h (c : Dev nD) :
    (dat2 (F := Ideal) V c).arrAt 4 cfg2.N
      = Cert.Spec.mm (n := 50000) (a := 256) (b := 256) (V c main_v47) (V c main_arg5) :=
  (dat2 (F := Ideal) V c).arrAt_eq_of_cover 4 _ (fun t _ => flushed_h2 V c t) covered_h2

/-- After the last point the second output array is x · R + rb of the arrays the region found. -/
theorem dense2_res (c : Dev nD) :
    (dat2 (F := Ideal) V c).arrAt 5 cfg2.N
      = Cert.Spec.lin (n := 50000) (a := 256) (b := 256) (V c main_v47) (V c main_arg11) (V c main_arg12) :=
  (dat2 (F := Ideal) V c).arrAt_eq_of_cover 5 _ (fun t _ => flushed_res2 V c t) covered_res2

end Cert.KernelIdeal.DenseValue

end
-- ==== Proof.DenseRegion4.lean ====
/-
  The third dual-product region of the kernel, read as whole arrays.

  The region runs over 25 grid points. Point t loads rows 2000·t … 2000·t + 1999 of the n×a input (n = 50000,
  a = 256), both a×b weight arrays whole (b = 128) and the bias row, and writes two 2000×b row blocks: the product of
  its rows with the first weight array, and the product with the second weight array plus the bias row. At the
  extended reals the conversion of the operands to the narrow float type is the identity and a matrix product into
  the zero accumulator is the plain sum over the contraction index, so what point t writes is block t of

      h(r, o)   = ∑ₖ x(r, k) · W(k, o)            and        res(r, o) = ∑ₖ x(r, k) · R(k, o) + rb(o).

  The 25 row blocks tile the n rows (row r lies in the block of point r / 2000) and every point writes back, so
  after the region the two output arrays are h and res.

  Steps: the value a point computes at an entry (p, o) of its block; where each window's block sits in its array
  (decided over the 25 points); each input block read as entries of its array; the block a point writes back as
  a block of h (of res); the blocks cover the array; the arrays after the last point.
-/
import proofs.«139766_j71992241815698_1_alg».proof.Proof.Gen.KernelIdeal.Frame
import proofs.«139766_j71992241815698_1_alg».proof.Proof.Spec
import proofs.«139766_j71992241815698_1_alg».proof.Proof.LibPlainDot
import Idealize.ShloMosaic.Lib.Pipeline.Value
import Idealize.ShloMosaic.Lib.ValueIdx
import Idealize.ShloMosaic.Lib.ValueLayout

set_option maxRecDepth 16384

noncomputable section

open scoped BigOperators

namespace Cert.KernelIdeal.DenseValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## What a point computes at an entry of its block -/

/-- The row block passes through a cast to its own shape and the conversion to the narrow float type before the
    products; at the extended reals both are the identity. -/
theorem input_cast4 (x0 : FVec Ideal S2000x256 .f32) : k4_pay1 (F := Ideal) x0 = truncf .bf16 x0 bitsLt_bf16_f32 := by
  unfold k4_pay1
  rw [shapeCast_self]

/-- The first product at entry (p, o): the sum over k of x(p, k) · W(k, o). -/
theorem block_h4_apply (x0 : FVec Ideal S2000x256 .f32) (x1 : FVec Ideal S256x128 .f32) (p : Fin 2000) (o : Fin 128) :
    k4_pay2 (F := Ideal) x0 x1 (ix2 p o) = Cert.Spec.mmAt x0 x1 p o := by
  unfold k4_pay2
  rw [input_cast4]
  exact Cert.LibPlainDot.matmul_zero_apply none x0 x1 p o

/-- The second product with the bias row at entry (p, o): the sum over k of x(p, k) · R(k, o), plus rb(o). The bias
    is a vector viewed as one row and repeated along the rows, so entry (p, o) of it is rb(o). -/
theorem block_res4_apply (x0 : FVec Ideal S2000x256 .f32) (x2 : FVec Ideal S256x128 .f32) (x3 : FVec Ideal S128 .f32)
    (p : Fin 2000) (o : Fin 128) :
    k4_pay3 (F := Ideal) x0 x2 x3 (ix2 p o) = Cert.Spec.mmAt x0 x2 p o + x3 (ix1 o) := by
  unfold k4_pay3
  rw [addf_apply, input_cast4]
  refine congrArg₂ (· + ·) (Cert.LibPlainDot.matmul_zero_apply none x0 x2 p o) ?_
  rw [broadcastTo_1b_ab_apply, shapeCast_a_1a_apply]

/-! ## Where the blocks sit -/

/-- The zero offset of a rank-2 access, as the constant function. -/
theorem origin2_4 : (![0, 0] : Fin 2 → Nat) = fun _ => 0 := funext fun a => by fin_cases a <;> rfl

/-- The zero offset of a rank-1 access, as the constant function. -/
theorem origin1_4 : (![0] : Fin 1 → Nat) = fun _ => 0 := funext fun a => by fin_cases a; rfl

/-- The block indices, decided over the 25 points: the input rows and both outputs are at block (t, 0); the two
    weight arrays and the bias row stay at block (0, 0) and (0). -/
theorem block_index4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- Entry x of the input's block at point t is entry k of the input array when k is 2000·t rows below x. -/
theorem rows4_apply (c : Dev nD) (t : Fin cfg4.N) (x : S2000x256.Idx) (k : S50000x256.Idx)
    (hk0 : (k 0).val = 2000 * t.val + (x 0).val) (hk1 : (k 1).val = (x 1).val) :
    (iblk4 V c 0 t : Vec Ideal S2000x256 .f32) x = (V c main_v63 : S50000x256.Idx → EReal) k := by
  obtain ⟨e0, e1, -⟩ := block_index4 t
  unfold iblk4
  rw [View.read_apply]
  show V c main_v63 _ = V c main_v63 _
  congr 1
  funext a
  apply Fin.ext
  match a with
  | ⟨0, _⟩ => show win4_0.index t 0 * 2000 + 1 * (x 0).val = (k 0).val; rw [e0, hk0]; omega
  | ⟨1, _⟩ => show win4_0.index t 1 * 256 + 1 * (x 1).val = (k 1).val; rw [e1, hk1]; omega

/-- The first weight array's block at any point is the whole array. -/
theorem weight_h4_apply (c : Dev nD) (t : Fin cfg4.N) (x k : S256x128.Idx)
    (hk0 : (k 0).val = (x 0).val) (hk1 : (k 1).val = (x 1).val) :
    (iblk4 V c 1 t : Vec Ideal S256x128 .f32) x = (V c main_arg7 : S256x128.Idx → EReal) k := by
  obtain ⟨-, -, e0, e1, -⟩ := block_index4 t
  unfold iblk4
  rw [View.read_apply]
  show V c main_arg7 _ = V c main_arg7 _
  congr 1
  funext a
  apply Fin.ext
  match a with
  | ⟨0, _⟩ => show win4_1.index t 0 * 256 + 1 * (x 0).val = (k 0).val; rw [e0, hk0]; omega
  | ⟨1, _⟩ => show win4_1.index t 1 * 128 + 1 * (x 1).val = (k 1).val; rw [e1, hk1]; omega

/-- The second weight array's block at any point is the whole array. -/
theorem weight_res4_apply (c : Dev nD) (t : Fin cfg4.N) (x k : S256x128.Idx)
    (hk0 : (k 0).val = (x 0).val) (hk1 : (k 1).val = (x 1).val) :
    (iblk4 V c 2 t : Vec Ideal S256x128 .f32) x = (V c main_arg13 : S256x128.Idx → EReal) k := by
  obtain ⟨-, -, -, -, e0, e1, -⟩ := block_index4 t
  unfold iblk4
  rw [View.read_apply]
  show V c main_arg13 _ = V c main_arg13 _
  congr 1
  funext a
  apply Fin.ext
  match a with
  | ⟨0, _⟩ => show win4_2.index t 0 * 256 + 1 * (x 0).val = (k 0).val; rw [e0, hk0]; omega
  | ⟨1, _⟩ => show win4_2.index t 1 * 128 + 1 * (x 1).val = (k 1).val; rw [e1, hk1]; omega

/-- The bias row's block at any point is the whole row. -/
theorem bias4_apply (c : Dev nD) (t : Fin cfg4.N) (x k : S128.Idx) (hk0 : (k 0).val = (x 0).val) :
    (iblk4 V c 3 t : Vec Ideal S128 .f32) x = (V c main_arg14 : S128.Idx → EReal) k := by
  obtain ⟨-, -, -, -, -, -, e0, -⟩ := block_index4 t
  unfold iblk4
  rw [View.read_apply]
  show V c main_arg14 _ = V c main_arg14 _
  congr 1
  funext a
  apply Fin.ext
  match a with
  | ⟨0, _⟩ => show win4_3.index t 0 * 128 + 1 * (x 0).val = (k 0).val; rw [e0, hk0]; omega

/-! ## What a point writes back -/

/-- Point t writes back block t of the product x · W: entry (p, o) of the block is entry (2000·t + p, o) of the
    array, and the input block's row p is the input array's row 2000·t + p. -/
theorem flushed_h4 (c : Dev nD) (t : Fin cfg4.N) :
    (dat4 (F := Ideal) V c).flushed 4 t
      = ((cfg4.win 4).blk t).view.read (Elt Ideal)
          (Cert.Spec.mm (n := 50000) (a := 256) (b := 128) (V c main_v63) (V c main_arg7)) := by
  show (cfg4.win 4).cut (grid4.coords t) ((dat4 V c).after 4 t) = _
  rw [after4_4]
  unfold out4_4
  rw [View.canon_unit_zero origin2_4]
  simp only [View.ld_unit_zero (S := S2000x256) origin2_4, View.ld_unit_zero (S := S256x128) origin2_4]
  obtain ⟨-, -, -, -, -, -, -, e0, e1, -⟩ := block_index4 t
  funext j
  obtain ⟨p, o, rfl⟩ : ∃ (p : Fin 2000) (o : Fin 128), j = ix2 p o := ⟨j 0, j 1, eq_ix2 j⟩
  show k4_pay2 (F := Ideal) (iblk4 V c 0 t) (iblk4 V c 1 t) (ix2 p o)
    = Cert.Spec.mmAt (n := 50000) (a := 256) (b := 128) (V c main_v63) (V c main_arg7)
        ((((cfg4.win 4).blk t).view.emb (ix2 p o)) 0) ((((cfg4.win 4).blk t).view.emb (ix2 p o)) 1)
  refine (block_h4_apply (iblk4 V c 0 t) (iblk4 V c 1 t) p o).trans ?_
  unfold Cert.Spec.mmAt
  refine Finset.sum_congr rfl fun k _ => congrArg₂ (· * ·) ?_ ?_
  · refine rows4_apply V c t _ _ ?_ rfl
    show win4_4.index t (0 : Fin 2) * 2000 + 1 * p.val = 2000 * t.val + p.val
    rw [e0]; omega
  · refine weight_h4_apply V c t _ _ rfl ?_
    show win4_4.index t (1 : Fin 2) * 128 + 1 * o.val = o.val
    rw [e1]; omega

/-- Point t writes back block t of x · R + rb. -/
theorem flushed_res4 (c : Dev nD) (t : Fin cfg4.N) :
    (dat4 (F := Ideal) V c).flushed 5 t
      = ((cfg4.win 5).blk t).view.read (Elt Ideal)
          (Cert.Spec.lin (n := 50000) (a := 256) (b := 128) (V c main_v63) (V c main_arg13) (V c main_arg14)) := by
  show (cfg4.win 5).cut (grid4.coords t) ((dat4 V c).after 5 t) = _
  rw [after4_5]
  unfold out4_5
  rw [View.canon_unit_zero origin2_4]
  simp only [View.ld_unit_zero (S := S2000x256) origin2_4, View.ld_unit_zero (S := S256x128) origin2_4,
    View.ld_unit_zero (S := S128) origin1_4]
  obtain ⟨-, -, -, -, -, -, -, -, -, e0, e1⟩ := block_index4 t
  funext j
  obtain ⟨p, o, rfl⟩ : ∃ (p : Fin 2000) (o : Fin 128), j = ix2 p o := ⟨j 0, j 1, eq_ix2 j⟩
  show k4_pay3 (F := Ideal) (iblk4 V c 0 t) (iblk4 V c 2 t) (iblk4 V c 3 t) (ix2 p o)
    = Cert.Spec.mmAt (n := 50000) (a := 256) (b := 128) (V c main_v63) (V c main_arg13)
        ((((cfg4.win 5).blk t).view.emb (ix2 p o)) 0) ((((cfg4.win 5).blk t).view.emb (ix2 p o)) 1)
      + (V c main_arg14 : FVec Ideal ⟨1, ![128]⟩ .f32) (ix1 ((((cfg4.win 5).blk t).view.emb (ix2 p o)) 1))
  refine (block_res4_apply (iblk4 V c 0 t) (iblk4 V c 2 t) (iblk4 V c 3 t) p o).trans ?_
  unfold Cert.Spec.mmAt
  refine congrArg₂ (· + ·) (Finset.sum_congr rfl fun k _ => congrArg₂ (· * ·) ?_ ?_) ?_
  · refine rows4_apply V c t _ _ ?_ rfl
    show win4_5.index t (0 : Fin 2) * 2000 + 1 * p.val = 2000 * t.val + p.val
    rw [e0]; omega
  · refine weight_res4_apply V c t _ _ rfl ?_
    show win4_5.index t (1 : Fin 2) * 128 + 1 * o.val = o.val
    rw [e1]; omega
  · refine bias4_apply V c t _ _ ?_
    show win4_5.index t (1 : Fin 2) * 128 + 1 * o.val = o.val
    rw [e1]; omega

/-! ## The blocks cover the arrays -/

/-- An index of the first output array is in point t's block iff each coordinate is in the block's range. -/
theorem mem_block_h4 (t : Fin cfg4.N) (i : S50000x128.Idx) :
    i ∈ ((cfg4.win 4).blk t).view.set ↔ ∀ a : Fin 2, win4_4.index t a * S2000x128.size a ≤ (i a).val
      ∧ (i a).val < win4_4.index t a * S2000x128.size a + S2000x128.size a := by
  show i ∈ ((View.whole main_v64_0).slice (win4_4.rect t)).set ↔ _
  rw [View.set_slice_whole, Rect.mem_set_unit]
  exact Iff.rfl

/-- The same for the second output array. -/
theorem mem_block_res4 (t : Fin cfg4.N) (i : S50000x128.Idx) :
    i ∈ ((cfg4.win 5).blk t).view.set ↔ ∀ a : Fin 2, win4_5.index t a * S2000x128.size a ≤ (i a).val
      ∧ (i a).val < win4_5.index t a * S2000x128.size a + S2000x128.size a := by
  show i ∈ ((View.whole main_v64_1).slice (win4_5.rect t)).set ↔ _
  rw [View.set_slice_whole, Rect.mem_set_unit]
  exact Iff.rfl

/-- Row r of the first output array lies in the block of point r / 2000, which writes back. -/
theorem covered_h4 (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  have hN : cfg4.N = 25 := N_4
  have ht : (i 0).val / 2000 < cfg4.N := by rw [hN]; omega
  obtain ⟨-, -, -, -, -, -, -, e0, e1, -⟩ := block_index4 ⟨(i 0).val / 2000, ht⟩
  refine ⟨⟨(i 0).val / 2000, ht⟩, flush4_4 _, ?_⟩
  rw [mem_block_h4]
  intro a
  match a with
  | ⟨0, _⟩ =>
    show win4_4.index ⟨(i 0).val / 2000, ht⟩ (0 : Fin 2) * 2000 ≤ (i 0).val
      ∧ (i 0).val < win4_4.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win4_4.index ⟨(i 0).val / 2000, ht⟩ (1 : Fin 2) * 128 ≤ (i 1).val
      ∧ (i 1).val < win4_4.index ⟨(i 0).val / 2000, ht⟩ (1 : Fin 2) * 128 + 128
    rw [e1]; omega

/-- Row r of the second output array lies in the block of point r / 2000, which writes back. -/
theorem covered_res4 (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 25 := N_4
  have ht : (i 0).val / 2000 < cfg4.N := by rw [hN]; omega
  obtain ⟨-, -, -, -, -, -, -, -, -, e0, e1⟩ := block_index4 ⟨(i 0).val / 2000, ht⟩
  refine ⟨⟨(i 0).val / 2000, ht⟩, flush4_5 _, ?_⟩
  rw [mem_block_res4]
  intro a
  match a with
  | ⟨0, _⟩ =>
    show win4_5.index ⟨(i 0).val / 2000, ht⟩ (0 : Fin 2) * 2000 ≤ (i 0).val
      ∧ (i 0).val < win4_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win4_5.index ⟨(i 0).val / 2000, ht⟩ (1 : Fin 2) * 128 ≤ (i 1).val
      ∧ (i 1).val < win4_5.index ⟨(i 0).val / 2000, ht⟩ (1 : Fin 2) * 128 + 128
    rw [e1]; omega

/-! ## The arrays after the region -/

/-- After the last point the first output array is the product x · W of the arrays the region found. -/
theorem dense4_h (c : Dev nD) :
    (dat4 (F := Ideal) V c).arrAt 4 cfg4.N
      = Cert.Spec.mm (n := 50000) (a := 256) (b := 128) (V c main_v63) (V c main_arg7) :=
  (dat4 (F := Ideal) V c).arrAt_eq_of_cover 4 _ (fun t _ => flushed_h4 V c t) covered_h4

/-- After the last point the second output array is x · R + rb of the arrays the region found. -/
theorem dense4_res (c : Dev nD) :
    (dat4 (F := Ideal) V c).arrAt 5 cfg4.N
      = Cert.Spec.lin (n := 50000) (a := 256) (b := 128) (V c main_v63) (V c main_arg13) (V c main_arg14) :=
  (dat4 (F := Ideal) V c).arrAt_eq_of_cover 5 _ (fun t _ => flushed_res4 V c t) covered_res4

end Cert.KernelIdeal.DenseValue

end
-- ==== Proof.LibKeepDims.lean ====
/-
  Two keep-dimension layout steps read at an index, for any extents.

  A reduction that keeps its reduced axis (a row sum kept as a column) is printed as a vector [a] viewed as a column
  [a, 1], and its result is spread back along the rows by a broadcast [a, 1] → [a, b]. A row-major view keeps an
  element's position, and position i of the vector is position i · 1 + 0 of the column, so the column reads the vector's
  entry i at (i, 0); the broadcast repeats the column's entry of row p at every (p, c).
-/
import Idealize.ShloMosaic.Lib.ValueIdx
import Idealize.ShloMosaic.Lib.Pipeline.Value

namespace Cert.Lib.KeepDims

open Idealize.ShloMosaic Idealize.ShloMosaic.ValueIdx

/-- A vector `[a]` viewed as a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepDims
-- ==== Proof.EpilogueRow.lean ====
/-
  A residual add followed by a normalisation along each row, on a block of rows, read entry by entry.

  A block of a rows of width b is taken through: the pre-activation
      pre = ((agg + h · sc) + bias) + res
  (the self coefficient sc a column [a, 1] spread along each row, the bias a row [b] spread over the rows), the row
  sum of pre kept as a column and divided by the width's float word D (the mean μ), the row sum of (pre − μ)² kept as
  a column and divided by D (the variance σ²), and
      ln = ((pre − μ) · rsqrt(σ² + ε)) · g + be.
  Every step is pointwise except the two row sums, the two "vector as a column" views and the three kinds of spreading
  (a column along its rows, a row over the rows, a scalar everywhere). Read at entry (p, o) over the extended reals,
  each spreading reads its operand at the matching coordinate, each row sum is the sum over the row's b entries with
  no initial term, and the whole is the specification's normalised row at o of the row o' ↦ pre(p, o').
  All of it for any a and b; the shapes' side facts (a view keeps the element count, a spread's axes match, the sum
  drops axis 1) are carried as one hypothesis, so a block of literal extents instantiates it with its own facts.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import proofs.«139766_j71992241815698_1_alg».proof.Proof.Spec
import proofs.«139766_j71992241815698_1_alg».proof.Proof.LibKeepDims

noncomputable section

open scoped BigOperators

namespace Cert.KernelIdeal.EpilogueValue

open Idealize.ShloMosaic Idealize.ShloMosaic.ValueIdx

/-- The side facts of the shapes a block of a rows of width b goes through. -/
structure RowFacts (a b : ℕ) : Prop where
  /-- a block viewed at its own shape -/
  castFull : (⟨2, ![a, b]⟩ : Shape).ShapeCasts ⟨2, ![a, b]⟩
  /-- a column viewed at its own shape -/
  castCol : (⟨2, ![a, 1]⟩ : Shape).ShapeCasts ⟨2, ![a, 1]⟩
  /-- a column spread along its rows -/
  spreadCol : (⟨2, ![a, 1]⟩ : Shape).Broadcasts ⟨2, ![a, b]⟩
  /-- a row vector viewed as a one-row block -/
  castRow : (⟨1, ![b]⟩ : Shape).ShapeCasts ⟨2, ![1, b]⟩
  /-- a one-row block spread over the rows -/
  spreadRow : (⟨2, ![1, b]⟩ : Shape).Broadcasts ⟨2, ![a, b]⟩
  /-- a sum along axis 1 leaves one entry per row -/
  sumRows : (⟨2, ![a, b]⟩ : Shape).Reduces [1] ⟨1, ![a]⟩
  /-- the row sums viewed as a column -/
  castKeep : (⟨1, ![a]⟩ : Shape).ShapeCasts ⟨2, ![a, 1]⟩

variable {a b : ℕ}

/-- A row vector spread over the rows of a block. -/
def spreadRowVec (hf : RowFacts a b) (v : FVec Ideal ⟨1, ![b]⟩ .f32) : FVec Ideal ⟨2, ![a, b]⟩ .f32 :=
  broadcastTo ⟨2, ![a, b]⟩ (shapeCast ⟨2, ![1, b]⟩ v hf.castRow) hf.spreadRow

/-- The pre-activation block: the aggregate, the self term, the bias and the residual, added in this order. -/
def preBlock (hf : RowFacts a b) (agg h : FVec Ideal ⟨2, ![a, b]⟩ .f32) (sc : FVec Ideal ⟨2, ![a, 1]⟩ .f32)
    (bias : FVec Ideal ⟨1, ![b]⟩ .f32) (res : FVec Ideal ⟨2, ![a, b]⟩ .f32) : FVec Ideal ⟨2, ![a, b]⟩ .f32 :=
  addf (addf (addf (shapeCast ⟨2, ![a, b]⟩ agg hf.castFull)
      (mulf (shapeCast ⟨2, ![a, b]⟩ h hf.castFull)
        (broadcastTo ⟨2, ![a, b]⟩ (shapeCast ⟨2, ![a, 1]⟩ sc hf.castCol) hf.spreadCol)))
      (spreadRowVec hf bias))
    (shapeCast ⟨2, ![a, b]⟩ res hf.castFull)

/-- The row sums of a block, kept as a column, divided by the float word dw. -/
def rowMeanCol (hf : RowFacts a b) (dw : BitVec 32) (x : FVec Ideal ⟨2, ![a, b]⟩ .f32) : FVec Ideal ⟨2, ![a, 1]⟩ .f32 :=
  divf (shapeCast ⟨2, ![a, 1]⟩ (multiReduction .add [1] ⟨1, ![a]⟩ x 0x00000000#32 hf.sumRows (.inl rfl) rfl) hf.castKeep)
    (broadcast ⟨2, ![a, 1]⟩ (Scalar.ofBits .f32 dw))

/-- The normalised block: the pre-activation less its row mean, times the reciprocal root of the row variance plus
    the floor, scaled by g and shifted by be. -/
def lnBlock (hf : RowFacts a b) (dw : BitVec 32) (agg h : FVec Ideal ⟨2, ![a, b]⟩ .f32) (sc : FVec Ideal ⟨2, ![a, 1]⟩ .f32)
    (bias : FVec Ideal ⟨1, ![b]⟩ .f32) (res : FVec Ideal ⟨2, ![a, b]⟩ .f32) (g be : FVec Ideal ⟨1, ![b]⟩ .f32) :
    FVec Ideal ⟨2, ![a, b]⟩ .f32 :=
  addf (mulf (mulf
        (subf (preBlock hf agg h sc bias res)
          (broadcastTo ⟨2, ![a, b]⟩ (rowMeanCol hf dw (preBlock hf agg h sc bias res)) hf.spreadCol))
        (broadcastTo ⟨2, ![a, b]⟩
          (rsqrt (addf
            (rowMeanCol hf dw (mulf
              (subf (preBlock hf agg h sc bias res)
                (broadcastTo ⟨2, ![a, b]⟩ (rowMeanCol hf dw (preBlock hf agg h sc bias res)) hf.spreadCol))
              (subf (preBlock hf agg h sc bias res)
                (broadcastTo ⟨2, ![a, b]⟩ (rowMeanCol hf dw (preBlock hf agg h sc bias res)) hf.spreadCol))))
            (broadcast ⟨2, ![a, 1]⟩ (Scalar.ofBits .f32 0x3727C5AC#32))))
          hf.spreadCol))
      (spreadRowVec hf g))
    (spreadRowVec hf be)

/-- A reciprocal square root at an index is the extended reals' one of the element. -/
theorem rsqrt_apply {s : Shape} {φ : FTy} (x : FVec Ideal s φ) (i : s.Idx) : rsqrt x i = Ideal.rsqrt (x i) := rfl

/-- A logistic function at an index is the extended reals' one of the element. -/
theorem logistic_apply {s : Shape} {φ : FTy} (x : FVec Ideal s φ) (i : s.Idx) : logistic x i = Ideal.logistic (x i) := rfl

/-- A row vector spread over the rows reads, at (p, o), the vector at o. -/
theorem spreadRowVec_apply (hf : RowFacts a b) (v : FVec Ideal ⟨1, ![b]⟩ .f32) (p : Fin a) (o : Fin b) :
    spreadRowVec hf v (ix2 p o) = v (ix1 o) := by
  unfold spreadRowVec
  rw [broadcastTo_1b_ab_apply, shapeCast_a_1a_apply]

/-- The pre-activation block at (p, o) is the specification's pre-activation there. -/
theorem preBlock_apply (hf : RowFacts a b) (agg h : FVec Ideal ⟨2, ![a, b]⟩ .f32) (sc : FVec Ideal ⟨2, ![a, 1]⟩ .f32)
    (bias : FVec Ideal ⟨1, ![b]⟩ .f32) (res : FVec Ideal ⟨2, ![a, b]⟩ .f32) (p : Fin a) (o : Fin b) :
    preBlock hf agg h sc bias res (ix2 p o) = Cert.Spec.preAt agg h res sc bias p o := by
  unfold preBlock Cert.Spec.preAt
  rw [addf_apply, addf_apply, addf_apply, mulf_apply, spreadRowVec_apply,
    Cert.Lib.KeepDims.broadcastTo_a1_ab_apply, shapeCast_self, shapeCast_self, shapeCast_self, shapeCast_self]

/-- The source index of a sum along axis 1 over result index p with coordinate k on the summed axis is (p, k). -/
theorem sumRows_lift (hf : RowFacts a b) (p : Fin a) (k : Fin b) :
    hf.sumRows.lift (ix1 p) k = ix2 p k := by
  funext c
  match c with
  | ⟨0, _⟩ => exact Fin.ext rfl
  | ⟨1, _⟩ => exact Fin.ext rfl

/-- The row-mean column at (p, u): the sum of the row's entries, no initial term, divided by the word's value. -/
theorem rowMeanCol_apply (hf : RowFacts a b) (dw : BitVec 32) (x : FVec Ideal ⟨2, ![a, b]⟩ .f32) (p : Fin a) (u : Fin 1) :
    rowMeanCol hf dw x (ix2 p u) = Ideal.div (∑ k : Fin b, x (ix2 p k)) (Ideal.ofBits .f32 dw) := by
  unfold rowMeanCol
  rw [divf_apply, Cert.Lib.KeepDims.shapeCast_a_a1_apply]
  refine congrArg₂ Ideal.div ?_ rfl
  refine (Ideal.multiReduction_add_single x 0x00000000#32 hf.sumRows (.inl rfl) rfl (ix1 p)).trans ?_
  exact Finset.sum_congr rfl fun k _ => congrArg x (sumRows_lift hf p k)

/-- THE NORMALISED BLOCK AT (p, o): the specification's normalised row at o, of the row o' ↦ pre(p, o'). -/
theorem lnBlock_apply (hf : RowFacts a b) (dw : BitVec 32) (agg h : FVec Ideal ⟨2, ![a, b]⟩ .f32)
    (sc : FVec Ideal ⟨2, ![a, 1]⟩ .f32) (bias : FVec Ideal ⟨1, ![b]⟩ .f32) (res : FVec Ideal ⟨2, ![a, b]⟩ .f32)
    (g be : FVec Ideal ⟨1, ![b]⟩ .f32) (p : Fin a) (o : Fin b) :
    lnBlock hf dw agg h sc bias res g be (ix2 p o)
      = Cert.Spec.lnAt dw (fun o' => Cert.Spec.preAt agg h res sc bias p o') g be o := by
  unfold lnBlock Cert.Spec.lnAt Cert.Spec.varOf Cert.Spec.meanOf Cert.Spec.epsW
  simp only [addf_apply, mulf_apply, subf_apply, rsqrt_apply, broadcast_apply, spreadRowVec_apply,
    Cert.Lib.KeepDims.broadcastTo_a1_ab_apply, rowMeanCol_apply, preBlock_apply]
  rfl

/-- The normalised row read off a block of rows is the one read off the arrays, when row p of the block is row r of
    the arrays entry by entry and the row vectors agree: the row o' ↦ pre(p, o') is the same function. -/
theorem lnAt_rows_eq {n : ℕ} (dw : BitVec 32)
    (x0 x1 x2 : FVec Ideal ⟨2, ![a, b]⟩ .f32) (x3 : FVec Ideal ⟨2, ![a, 1]⟩ .f32) (x4 x5 x6 : FVec Ideal ⟨1, ![b]⟩ .f32)
    (A0 A1 A2 : FVec Ideal ⟨2, ![n, b]⟩ .f32) (A3 : FVec Ideal ⟨2, ![n, 1]⟩ .f32) (A4 A5 A6 : FVec Ideal ⟨1, ![b]⟩ .f32)
    (p : Fin a) (r : Fin n)
    (h0 : ∀ o : Fin b, x0 (ix2 p o) = A0 (ix2 r o)) (h1 : ∀ o : Fin b, x1 (ix2 p o) = A1 (ix2 r o))
    (h2 : ∀ o : Fin b, x2 (ix2 p o) = A2 (ix2 r o)) (h3 : x3 (ix2 p (0 : Fin 1)) = A3 (ix2 r (0 : Fin 1)))
    (h4 : ∀ o : Fin b, x4 (ix1 o) = A4 (ix1 o)) (h5 : ∀ o : Fin b, x5 (ix1 o) = A5 (ix1 o))
    (h6 : ∀ o : Fin b, x6 (ix1 o) = A6 (ix1 o)) (o : Fin b) :
    Cert.Spec.lnAt dw (fun o' => Cert.Spec.preAt x0 x1 x2 x3 x4 p o') x5 x6 o
      = Cert.Spec.lnAt dw (fun o' => Cert.Spec.preAt A0 A1 A2 A3 A4 r o') A5 A6 o := by
  have hrow : (fun o' => Cert.Spec.preAt x0 x1 x2 x3 x4 p o') = fun o' => Cert.Spec.preAt A0 A1 A2 A3 A4 r o' :=
    funext fun o' => by unfold Cert.Spec.preAt; rw [h0, h1, h2, h3, h4]
  rw [hrow]
  unfold Cert.Spec.lnAt
  rw [h5, h6]

/-- The zero offsets of a whole-buffer access, on two axes and on one. -/
theorem hz2 : (![0, 0] : Fin 2 → Nat) = fun _ => 0 := funext fun a => by fin_cases a <;> rfl
theorem hz1 : (![0] : Fin 1 → Nat) = fun _ => 0 := funext fun a => by fin_cases a; rfl

/-- Row p of the t-th block of 2000 rows, among the 25 blocks of a 50000-row array. -/
def blockRow (t : ℕ) (ht : t < 25) (p : Fin 2000) : Fin 50000 := ⟨2000 * t + p.val, by have := p.isLt; omega⟩

/-- The gated block at (p, o): a block times its logistic image is the specification's gate of the entry. -/
theorem gate_apply (x : FVec Ideal ⟨2, ![a, b]⟩ .f32) (p : Fin a) (o : Fin b) :
    mulf x (logistic x) (ix2 p o) = Cert.Spec.silu (x (ix2 p o)) := rfl

end Cert.KernelIdeal.EpilogueValue

end
-- ==== Proof.EpilogueRegion1.lean ====
/-
  The first normalisation region of the idealized kernel, as one function of the arrays it finds.

  The region runs over 25 grid points; point t takes rows 2000·t … 2000·t + 1999 of the three [50000, 256] arrays
  (aggregate, features, residual) and of the [50000, 1] column of self coefficients, the three [256] row vectors whole,
  and writes rows 2000·t … 2000·t + 1999 of the [50000, 256] result. On its block the body computes the pre-activation,
  normalises it along each row (mean and variance over the 256 entries, divisor the float word of 256.0, floor ε), scales
  and shifts it, and multiplies the result by its logistic image. Since a row's mean and variance only involve that
  row, the block computed from rows 2000·t … of the arrays is rows 2000·t … of the specification's whole-array function;
  the 25 blocks cover the 50000 rows, so the result array ends holding that function.
  Steps: the body's value at an entry of a block (from the generic row lemma); each window's block read as rows of its
  array (the index maps decided over the 25 points: the row windows sit at block (t, 0), the vector windows at block 0);
  what a point writes back is its block of the specification's function; every index lies in the block of point
  (row / 2000); the array after the last point.
-/
import proofs.«139766_j71992241815698_1_alg».proof.Proof.Gen.KernelIdeal.Frame
import proofs.«139766_j71992241815698_1_alg».proof.Proof.Spec
import proofs.«139766_j71992241815698_1_alg».proof.Proof.LibKeepDims
import proofs.«139766_j71992241815698_1_alg».proof.Proof.EpilogueRow
import Idealize.ShloMosaic.Lib.Pipeline.Value

set_option maxRecDepth 16384

noncomputable section

namespace Cert.KernelIdeal.EpilogueValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's value at an entry of a block -/

/-- The shapes' side facts for a block of 2000 rows of width 256. -/
theorem facts1 : RowFacts 2000 256 :=
  ⟨Cert.KernelIdeal.Facts₀.shapeCasts_S2000x256_S2000x256, Cert.KernelIdeal.Facts₀.shapeCasts_S2000x1_S2000x1,
    Cert.KernelIdeal.Facts₀.broadcasts_S2000x1_S2000x256, Cert.KernelIdeal.Facts₀.shapeCasts_S256_S1x256,
    Cert.KernelIdeal.Facts₀.broadcasts_S1x256_S2000x256, Cert.KernelIdeal.Facts₀.reduces_S2000x256_S2000,
    Cert.KernelIdeal.Facts₀.shapeCasts_S2000_S2000x1⟩

/-- The body's normalised value is the generic normalised block at 2000 rows, width 256 and the word of 256.0:
    the same operations in the same order. -/
theorem ln1_eq (v0 v2 : FVec Ideal ⟨2, ![2000, 256]⟩ .f32) (v4 : FVec Ideal ⟨2, ![2000, 1]⟩ .f32)
    (v9 : FVec Ideal ⟨1, ![256]⟩ .f32) (v13 : FVec Ideal ⟨2, ![2000, 256]⟩ .f32) (v34 v38 : FVec Ideal ⟨1, ![256]⟩ .f32) :
    k1_pay2 (F := Ideal) v0 v2 v4 v9 v13 v34 v38 = lnBlock facts1 0x43800000#32 v0 v2 v4 v9 v13 v34 v38 := rfl

/-- What the body leaves in the result's buffer, at entry (p, o) of the block: the gate of the normalised row of
    the block's row p at o. -/
theorem out1_entry (x0 x1 x2 : FVec Ideal ⟨2, ![2000, 256]⟩ .f32) (x3 : FVec Ideal ⟨2, ![2000, 1]⟩ .f32)
    (x4 x5 x6 : FVec Ideal ⟨1, ![256]⟩ .f32) (p : Fin 2000) (o : Fin 256) :
    out1_7 (F := Ideal) x0 x1 x2 x3 x4 x5 x6 (ix2 p o)
      = Cert.Spec.silu (Cert.Spec.lnAt 0x43800000#32 (fun o' => Cert.Spec.preAt x0 x1 x2 x3 x4 p o') x5 x6 o) := by
  unfold out1_7
  rw [View.canon_unit_zero hz2]
  simp only [View.ld_unit_zero (S := S2000x256) hz2, View.ld_unit_zero (S := S2000x1) hz2,
    View.ld_unit_zero (S := S256) hz1]
  unfold k1_pay1 k1_pay3
  rw [ln1_eq]
  exact (gate_apply _ p o).trans (congrArg Cert.Spec.silu (lnBlock_apply facts1 _ x0 x1 x3 x4 x2 x5 x6 p o))

/-! ## The windows' blocks as rows of their arrays -/

/-- A grid point's number is below 25. -/
theorem lt1 (t : Fin cfg1.N) : t.val < 25 := lt_of_lt_of_eq t.isLt N_1

/-- The printed index maps, decided over the 25 points: a row window sits at block (t, 0), a vector window at block 0. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 1) = 0 := (by decide +kernel : ∀ t : Fin grid1.N, _)
theorem idx1_5 : ∀ t : Fin cfg1.N, win1_5.index t (0 : Fin 1) = 0 := (by decide +kernel : ∀ t : Fin grid1.N, _)
theorem idx1_6 : ∀ t : Fin cfg1.N, win1_6.index t (0 : Fin 1) = 0 := (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)

/-- A [50000, 256] array read through window 0's block at point t: entry (p, o) is the array's at (2000·t + p, o)
    (a block's coordinate is its index times its size plus the coordinate inside it). -/
theorem read1_0 (A : S50000x256.Idx → Ideal .f32) (t : Fin cfg1.N) (p : Fin 2000) (o : Fin 256) :
    (((cfg1.win 0).blk t).view.read (Elt Ideal) A : S2000x256.Idx → Ideal .f32) (ix2 p o)
      = A (ix2 (blockRow t.val (lt1 t) p) o) := by
  obtain ⟨e0, e1⟩ := idx1_0 t
  show A (((cfg1.win 0).blk t).view.emb (ix2 p o)) = _
  refine congrArg A (funext fun a => Fin.ext ?_)
  match a with
  | ⟨0, _⟩ => show win1_0.index t (0 : Fin 2) * 2000 + 1 * p.val = 2000 * t.val + p.val; rw [e0]; omega
  | ⟨1, _⟩ => show win1_0.index t (1 : Fin 2) * 256 + 1 * o.val = o.val; rw [e1]; omega

/-- The same through window 1's block. -/
theorem read1_1 (A : S50000x256.Idx → Ideal .f32) (t : Fin cfg1.N) (p : Fin 2000) (o : Fin 256) :
    (((cfg1.win 1).blk t).view.read (Elt Ideal) A : S2000x256.Idx → Ideal .f32) (ix2 p o)
      = A (ix2 (blockRow t.val (lt1 t) p) o) := by
  obtain ⟨e0, e1⟩ := idx1_1 t
  show A (((cfg1.win 1).blk t).view.emb (ix2 p o)) = _
  refine congrArg A (funext fun a => Fin.ext ?_)
  match a with
  | ⟨0, _⟩ => show win1_1.index t (0 : Fin 2) * 2000 + 1 * p.val = 2000 * t.val + p.val; rw [e0]; omega
  | ⟨1, _⟩ => show win1_1.index t (1 : Fin 2) * 256 + 1 * o.val = o.val; rw [e1]; omega

/-- The same through window 2's block. -/
theorem read1_2 (A : S50000x256.Idx → Ideal .f32) (t : Fin cfg1.N) (p : Fin 2000) (o : Fin 256) :
    (((cfg1.win 2).blk t).view.read (Elt Ideal) A : S2000x256.Idx → Ideal .f32) (ix2 p o)
      = A (ix2 (blockRow t.val (lt1 t) p) o) := by
  obtain ⟨e0, e1⟩ := idx1_2 t
  show A (((cfg1.win 2).blk t).view.emb (ix2 p o)) = _
  refine congrArg A (funext fun a => Fin.ext ?_)
  match a with
  | ⟨0, _⟩ => show win1_2.index t (0 : Fin 2) * 2000 + 1 * p.val = 2000 * t.val + p.val; rw [e0]; omega
  | ⟨1, _⟩ => show win1_2.index t (1 : Fin 2) * 256 + 1 * o.val = o.val; rw [e1]; omega

/-- A [50000, 1] column read through window 3's block at point t: entry (p, u) is the column's at (2000·t + p, u). -/
theorem read1_3 (A : S50000x1.Idx → Ideal .f32) (t : Fin cfg1.N) (p : Fin 2000) (u : Fin 1) :
    (((cfg1.win 3).blk t).view.read (Elt Ideal) A : S2000x1.Idx → Ideal .f32) (ix2 p u)
      = A (ix2 (blockRow t.val (lt1 t) p) u) := by
  obtain ⟨e0, e1⟩ := idx1_3 t
  show A (((cfg1.win 3).blk t).view.emb (ix2 p u)) = _
  refine congrArg A (funext fun a => Fin.ext ?_)
  match a with
  | ⟨0, _⟩ => show win1_3.index t (0 : Fin 2) * 2000 + 1 * p.val = 2000 * t.val + p.val; rw [e0]; omega
  | ⟨1, _⟩ => show win1_3.index t (1 : Fin 2) * 1 + 1 * u.val = u.val; rw [e1]; omega

/-- A [256] vector read through window 4's block, which is the whole vector at every point. -/
theorem read1_4 (A : S256.Idx → Ideal .f32) (t : Fin cfg1.N) (o : Fin 256) :
    (((cfg1.win 4).blk t).view.read (Elt Ideal) A : S256.Idx → Ideal .f32) (ix1 o) = A (ix1 o) := by
  have e0 := idx1_4 t
  show A (((cfg1.win 4).blk t).view.emb (ix1 o)) = _
  refine congrArg A (funext fun a => Fin.ext ?_)
  match a with
  | ⟨0, _⟩ => show win1_4.index t (0 : Fin 1) * 256 + 1 * o.val = o.val; rw [e0]; omega

/-- The same through window 5's block. -/
theorem read1_5 (A : S256.Idx → Ideal .f32) (t : Fin cfg1.N) (o : Fin 256) :
    (((cfg1.win 5).blk t).view.read (Elt Ideal) A : S256.Idx → Ideal .f32) (ix1 o) = A (ix1 o) := by
  have e0 := idx1_5 t
  show A (((cfg1.win 5).blk t).view.emb (ix1 o)) = _
  refine congrArg A (funext fun a => Fin.ext ?_)
  match a with
  | ⟨0, _⟩ => show win1_5.index t (0 : Fin 1) * 256 + 1 * o.val = o.val; rw [e0]; omega

/-- The same through window 6's block. -/
theorem read1_6 (A : S256.Idx → Ideal .f32) (t : Fin cfg1.N) (o : Fin 256) :
    (((cfg1.win 6).blk t).view.read (Elt Ideal) A : S256.Idx → Ideal .f32) (ix1 o) = A (ix1 o) := by
  have e0 := idx1_6 t
  show A (((cfg1.win 6).blk t).view.emb (ix1 o)) = _
  refine congrArg A (funext fun a => Fin.ext ?_)
  match a with
  | ⟨0, _⟩ => show win1_6.index t (0 : Fin 1) * 256 + 1 * o.val = o.val; rw [e0]; omega

/-- Entry (p, o) of the result window's block at point t is the array's index (2000·t + p, o). -/
theorem emb1_7 (t : Fin cfg1.N) (p : Fin 2000) (o : Fin 256) :
    (((cfg1.win 7).blk t).view.emb (ix2 p o : S2000x256.Idx) : S50000x256.Idx) = ix2 (blockRow t.val (lt1 t) p) o := by
  obtain ⟨e0, e1⟩ := idx1_7 t
  refine funext fun a => Fin.ext ?_
  match a with
  | ⟨0, _⟩ => show win1_7.index t (0 : Fin 2) * 2000 + 1 * p.val = 2000 * t.val + p.val; rw [e0]; omega
  | ⟨1, _⟩ => show win1_7.index t (1 : Fin 2) * 256 + 1 * o.val = o.val; rw [e1]; omega

section Region
variable (V : (c : Dev nD) → (b : Ref sig .tc) → Buf (Elt Ideal) ((c : Thread nD τ).loc b))

/-- Each input window's block at point t, as rows of the array the region finds. -/
theorem blk1_0 (c : Dev nD) (t : Fin cfg1.N) (p : Fin 2000) (o : Fin 256) :
    (iblk1 V c 0 t : S2000x256.Idx → Ideal .f32) (ix2 p o)
      = (V c main_v45 : S50000x256.Idx → Ideal .f32) (ix2 (blockRow t.val (lt1 t) p) o) := by
  unfold iblk1; exact read1_0 (V c main_v45) t p o
theorem blk1_1 (c : Dev nD) (t : Fin cfg1.N) (p : Fin 2000) (o : Fin 256) :
    (iblk1 V c 1 t : S2000x256.Idx → Ideal .f32) (ix2 p o)
      = (V c main_v32_0 : S50000x256.Idx → Ideal .f32) (ix2 (blockRow t.val (lt1 t) p) o) := by
  unfold iblk1; exact read1_1 (V c main_v32_0) t p o
theorem blk1_2 (c : Dev nD) (t : Fin cfg1.N) (p : Fin 2000) (o : Fin 256) :
    (iblk1 V c 2 t : S2000x256.Idx → Ideal .f32) (ix2 p o)
      = (V c main_v32_1 : S50000x256.Idx → Ideal .f32) (ix2 (blockRow t.val (lt1 t) p) o) := by
  unfold iblk1; exact read1_2 (V c main_v32_1) t p o
theorem blk1_3 (c : Dev nD) (t : Fin cfg1.N) (p : Fin 2000) (u : Fin 1) :
    (iblk1 V c 3 t : S2000x1.Idx → Ideal .f32) (ix2 p u)
      = (V c main_v46 : S50000x1.Idx → Ideal .f32) (ix2 (blockRow t.val (lt1 t) p) u) := by
  unfold iblk1; exact read1_3 (V c main_v46) t p u
theorem blk1_4 (c : Dev nD) (t : Fin cfg1.N) (o : Fin 256) :
    (iblk1 V c 4 t : S256.Idx → Ideal .f32) (ix1 o) = (V c main_arg4 : S256.Idx → Ideal .f32) (ix1 o) := by
  unfold iblk1; exact read1_4 (V c main_arg4) t o
theorem blk1_5 (c : Dev nD) (t : Fin cfg1.N) (o : Fin 256) :
    (iblk1 V c 5 t : S256.Idx → Ideal .f32) (ix1 o) = (V c main_arg15 : S256.Idx → Ideal .f32) (ix1 o) := by
  unfold iblk1; exact read1_5 (V c main_arg15) t o
theorem blk1_6 (c : Dev nD) (t : Fin cfg1.N) (o : Fin 256) :
    (iblk1 V c 6 t : S256.Idx → Ideal .f32) (ix1 o) = (V c main_arg16 : S256.Idx → Ideal .f32) (ix1 o) := by
  unfold iblk1; exact read1_6 (V c main_arg16) t o

/-! ## From the blocks to the array -/

/-- WHAT POINT t WRITES BACK is its block of the specification's function of the arrays the region finds. -/
theorem flushed1_eq (c : Dev nD) (t : Fin cfg1.N) :
    (dat1 (F := Ideal) V c).flushed 7 t = ((cfg1.win 7).blk t).view.read (Elt Ideal)
      (Cert.Spec.combineSilu (n := 50000) (b := 256) 0x43800000#32 (V c main_v45) (V c main_v32_0) (V c main_v32_1)
        (V c main_v46) (V c main_arg4) (V c main_arg15) (V c main_arg16)) := by
  show (cfg1.win 7).cut (grid1.coords t) ((dat1 V c).after 7 t) = _
  rw [after1_7]
  funext j
  obtain ⟨p, o, rfl⟩ : ∃ (p : Fin 2000) (o : Fin 256), j = ix2 p o := ⟨j 0, j 1, eq_ix2 j⟩
  show out1_7 (F := Ideal) (iblk1 V c 0 t) (iblk1 V c 1 t) (iblk1 V c 2 t) (iblk1 V c 3 t) (iblk1 V c 4 t)
        (iblk1 V c 5 t) (iblk1 V c 6 t) (ix2 p o)
      = Cert.Spec.combineSilu (n := 50000) (b := 256) 0x43800000#32 (V c main_v45) (V c main_v32_0) (V c main_v32_1)
        (V c main_v46) (V c main_arg4) (V c main_arg15) (V c main_arg16) (((cfg1.win 7).blk t).view.emb (ix2 p o))
  rw [emb1_7 t p o]
  refine (out1_entry (iblk1 V c 0 t) (iblk1 V c 1 t) (iblk1 V c 2 t) (iblk1 V c 3 t) (iblk1 V c 4 t)
    (iblk1 V c 5 t) (iblk1 V c 6 t) p o).trans ?_
  exact congrArg Cert.Spec.silu (lnAt_rows_eq 0x43800000#32
    (iblk1 V c 0 t) (iblk1 V c 1 t) (iblk1 V c 2 t) (iblk1 V c 3 t) (iblk1 V c 4 t) (iblk1 V c 5 t) (iblk1 V c 6 t)
    (V c main_v45) (V c main_v32_0) (V c main_v32_1) (V c main_v46) (V c main_arg4) (V c main_arg15) (V c main_arg16)
    p (blockRow t.val (lt1 t) p)
    (fun o' => blk1_0 V c t p o') (fun o' => blk1_1 V c t p o') (fun o' => blk1_2 V c t p o') (blk1_3 V c t p 0)
    (fun o' => blk1_4 V c t o') (fun o' => blk1_5 V c t o') (fun o' => blk1_6 V c t o') o)

/-- An index of the result array is in point t's block iff each coordinate is in the block's range on its axis. -/
theorem mem_blk1_7 (t : Fin cfg1.N) (i : S50000x256.Idx) :
    i ∈ ((cfg1.win 7).blk t).view.set ↔ ∀ a : Fin 2, win1_7.index t a * S2000x256.size a ≤ (i a).val
      ∧ (i a).val < win1_7.index t a * S2000x256.size a + S2000x256.size a := by
  show i ∈ ((View.whole main_v47).slice (win1_7.rect t)).set ↔ _
  rw [View.set_slice_whole, Rect.mem_set_unit]
  exact Iff.rfl

/-- Every index of the result array lies in the block of the point numbered (row / 2000), and every point writes back. -/
theorem covered1_7 (i : S50000x256.Idx) :
    ∃ t : Fin cfg1.N, (cfg1.win 7).flush t = true ∧ i ∈ ((cfg1.win 7).blk t).view.set := by
  have hi0 : (i 0).val < 50000 := (i 0).isLt
  have hi1 : (i 1).val < 256 := (i 1).isLt
  have hN : (i 0).val / 2000 < cfg1.N := lt_of_lt_of_eq (by omega : (i 0).val / 2000 < 25) N_1.symm
  refine ⟨⟨(i 0).val / 2000, hN⟩, flush1_7 _, ?_⟩
  obtain ⟨e0, e1⟩ := idx1_7 ⟨(i 0).val / 2000, hN⟩
  rw [mem_blk1_7]
  intro a
  match a with
  | ⟨0, _⟩ =>
    show win1_7.index _ (0 : Fin 2) * 2000 ≤ (i 0).val ∧ (i 0).val < win1_7.index _ (0 : Fin 2) * 2000 + 2000
    rw [e0]; show (i 0).val / 2000 * 2000 ≤ _ ∧ _ < (i 0).val / 2000 * 2000 + 2000; omega
  | ⟨1, _⟩ =>
    show win1_7.index _ (1 : Fin 2) * 256 ≤ (i 1).val ∧ (i 1).val < win1_7.index _ (1 : Fin 2) * 256 + 256
    rw [e1]; omega

/-- THE RESULT ARRAY after the region's last point: the specification's gated normalisation of the arrays the
    region finds. -/
theorem epilogue1 (c : Dev nD) : (dat1 (F := Ideal) V c).arrAt 7 cfg1.N
    = Cert.Spec.combineSilu (n := 50000) (b := 256) 0x43800000#32 (V c main_v45) (V c main_v32_0) (V c main_v32_1)
        (V c main_v46) (V c main_arg4) (V c main_arg15) (V c main_arg16) :=
  (dat1 (F := Ideal) V c).arrAt_eq_of_cover 7 _ (fun t _ => flushed1_eq V c t) covered1_7

end Region

end Cert.KernelIdeal.EpilogueValue

end
-- ==== Proof.EpilogueRegion3.lean ====
/-
  The second normalisation region of the idealized kernel, as one function of the arrays it finds.

  The region runs over 25 grid points; point t takes rows 2000·t … 2000·t + 1999 of the three [50000, 256] arrays
  (aggregate, features, residual) and of the [50000, 1] column of self coefficients, the three [256] row vectors whole,
  and writes rows 2000·t … 2000·t + 1999 of the [50000, 256] result. On its block the body computes the pre-activation,
  normalises it along each row (mean and variance over the 256 entries, divisor the float word of 256.0, floor ε), scales
  and shifts it, and multiplies the result by its logistic image. Since a row's mean and variance only involve that
  row, the block computed from rows 2000·t … of the arrays is rows 2000·t … of the specification's whole-array function;
  the 25 blocks cover the 50000 rows, so the result array ends holding that function.
  Steps: the body's value at an entry of a block (from the generic row lemma); each window's block read as rows of its
  array (the index maps decided over the 25 points: the row windows sit at block (t, 0), the vector windows at block 0);
  what a point writes back is its block of the specification's function; every index lies in the block of point
  (row / 2000); the array after the last point.
-/
import proofs.«139766_j71992241815698_1_alg».proof.Proof.Gen.KernelIdeal.Frame
import proofs.«139766_j71992241815698_1_alg».proof.Proof.Spec
import proofs.«139766_j71992241815698_1_alg».proof.Proof.LibKeepDims
import proofs.«139766_j71992241815698_1_alg».proof.Proof.EpilogueRow
import Idealize.ShloMosaic.Lib.Pipeline.Value

set_option maxRecDepth 16384

noncomputable section

namespace Cert.KernelIdeal.EpilogueValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's value at an entry of a block -/

/-- The shapes' side facts for a block of 2000 rows of width 256. -/
theorem facts3 : RowFacts 2000 256 :=
  ⟨Cert.KernelIdeal.Facts₀.shapeCasts_S2000x256_S2000x256, Cert.KernelIdeal.Facts₀.shapeCasts_S2000x1_S2000x1,
    Cert.KernelIdeal.Facts₀.broadcasts_S2000x1_S2000x256, Cert.KernelIdeal.Facts₀.shapeCasts_S256_S1x256,
    Cert.KernelIdeal.Facts₀.broadcasts_S1x256_S2000x256, Cert.KernelIdeal.Facts₀.reduces_S2000x256_S2000,
    Cert.KernelIdeal.Facts₀.shapeCasts_S2000_S2000x1⟩

/-- The body's normalised value is the generic normalised block at 2000 rows, width 256 and the word of 256.0:
    the same operations in the same order. -/
theorem ln3_eq (v0 v2 : FVec Ideal ⟨2, ![2000, 256]⟩ .f32) (v4 : FVec Ideal ⟨2, ![2000, 1]⟩ .f32)
    (v9 : FVec Ideal ⟨1, ![256]⟩ .f32) (v13 : FVec Ideal ⟨2, ![2000, 256]⟩ .f32) (v34 v38 : FVec Ideal ⟨1, ![256]⟩ .f32) :
    k3_pay2 (F := Ideal) v0 v2 v4 v9 v13 v34 v38 = lnBlock facts3 0x43800000#32 v0 v2 v4 v9 v13 v34 v38 := rfl

/-- What the body leaves in the result's buffer, at entry (p, o) of the block: the gate of the normalised row of
    the block's row p at o. -/
theorem out3_entry (x0 x1 x2 : FVec Ideal ⟨2, ![2000, 256]⟩ .f32) (x3 : FVec Ideal ⟨2, ![2000, 1]⟩ .f32)
    (x4 x5 x6 : FVec Ideal ⟨1, ![256]⟩ .f32) (p : Fin 2000) (o : Fin 256) :
    out3_7 (F := Ideal) x0 x1 x2 x3 x4 x5 x6 (ix2 p o)
      = Cert.Spec.silu (Cert.Spec.lnAt 0x43800000#32 (fun o' => Cert.Spec.preAt x0 x1 x2 x3 x4 p o') x5 x6 o) := by
  unfold out3_7
  rw [View.canon_unit_zero hz2]
  simp only [View.ld_unit_zero (S := S2000x256) hz2, View.ld_unit_zero (S := S2000x1) hz2,
    View.ld_unit_zero (S := S256) hz1]
  unfold k3_pay1 k3_pay3
  rw [ln3_eq]
  exact (gate_apply _ p o).trans (congrArg Cert.Spec.silu (lnBlock_apply facts3 _ x0 x1 x3 x4 x2 x5 x6 p o))

/-! ## The windows' blocks as rows of their arrays -/

/-- A grid point's number is below 25. -/
theorem lt3 (t : Fin cfg3.N) : t.val < 25 := lt_of_lt_of_eq t.isLt N_3

/-- The printed index maps, decided over the 25 points: a row window sits at block (t, 0), a vector window at block 0. -/
theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = t.val ∧ win3_3.index t (1 : Fin 2) = 0 :=
  (by decide +kernel : ∀ t : Fin grid3.N, _)
theorem idx3_4 : ∀ t : Fin cfg3.N, win3_4.index t (0 : Fin 1) = 0 := (by decide +kernel : ∀ t : Fin grid3.N, _)
theorem idx3_5 : ∀ t : Fin cfg3.N, win3_5.index t (0 : Fin 1) = 0 := (by decide +kernel : ∀ t : Fin grid3.N, _)
theorem idx3_6 : ∀ t : Fin cfg3.N, win3_6.index t (0 : Fin 1) = 0 := (by decide +kernel : ∀ t : Fin grid3.N, _)
theorem idx3_7 : ∀ t : Fin cfg3.N, win3_7.index t (0 : Fin 2) = t.val ∧ win3_7.index t (1 : Fin 2) = 0 :=
  (by decide +kernel : ∀ t : Fin grid3.N, _)

/-- A [50000, 256] array read through window 0's block at point t: entry (p, o) is the array's at (2000·t + p, o)
    (a block's coordinate is its index times its size plus the coordinate inside it). -/
theorem read3_0 (A : S50000x256.Idx → Ideal .f32) (t : Fin cfg3.N) (p : Fin 2000) (o : Fin 256) :
    (((cfg3.win 0).blk t).view.read (Elt Ideal) A : S2000x256.Idx → Ideal .f32) (ix2 p o)
      = A (ix2 (blockRow t.val (lt3 t) p) o) := by
  obtain ⟨e0, e1⟩ := idx3_0 t
  show A (((cfg3.win 0).blk t).view.emb (ix2 p o)) = _
  refine congrArg A (funext fun a => Fin.ext ?_)
  match a with
  | ⟨0, _⟩ => show win3_0.index t (0 : Fin 2) * 2000 + 1 * p.val = 2000 * t.val + p.val; rw [e0]; omega
  | ⟨1, _⟩ => show win3_0.index t (1 : Fin 2) * 256 + 1 * o.val = o.val; rw [e1]; omega

/-- The same through window 1's block. -/
theorem read3_1 (A : S50000x256.Idx → Ideal .f32) (t : Fin cfg3.N) (p : Fin 2000) (o : Fin 256) :
    (((cfg3.win 1).blk t).view.read (Elt Ideal) A : S2000x256.Idx → Ideal .f32) (ix2 p o)
      = A (ix2 (blockRow t.val (lt3 t) p) o) := by
  obtain ⟨e0, e1⟩ := idx3_1 t
  show A (((cfg3.win 1).blk t).view.emb (ix2 p o)) = _
  refine congrArg A (funext fun a => Fin.ext ?_)
  match a with
  | ⟨0, _⟩ => show win3_1.index t (0 : Fin 2) * 2000 + 1 * p.val = 2000 * t.val + p.val; rw [e0]; omega
  | ⟨1, _⟩ => show win3_1.index t (1 : Fin 2) * 256 + 1 * o.val = o.val; rw [e1]; omega

/-- The same through window 2's block. -/
theorem read3_2 (A : S50000x256.Idx → Ideal .f32) (t : Fin cfg3.N) (p : Fin 2000) (o : Fin 256) :
    (((cfg3.win 2).blk t).view.read (Elt Ideal) A : S2000x256.Idx → Ideal .f32) (ix2 p o)
      = A (ix2 (blockRow t.val (lt3 t) p) o) := by
  obtain ⟨e0, e1⟩ := idx3_2 t
  show A (((cfg3.win 2).blk t).view.emb (ix2 p o)) = _
  refine congrArg A (funext fun a => Fin.ext ?_)
  match a with
  | ⟨0, _⟩ => show win3_2.index t (0 : Fin 2) * 2000 + 1 * p.val = 2000 * t.val + p.val; rw [e0]; omega
  | ⟨1, _⟩ => show win3_2.index t (1 : Fin 2) * 256 + 1 * o.val = o.val; rw [e1]; omega

/-- A [50000, 1] column read through window 3's block at point t: entry (p, u) is the column's at (2000·t + p, u). -/
theorem read3_3 (A : S50000x1.Idx → Ideal .f32) (t : Fin cfg3.N) (p : Fin 2000) (u : Fin 1) :
    (((cfg3.win 3).blk t).view.read (Elt Ideal) A : S2000x1.Idx → Ideal .f32) (ix2 p u)
      = A (ix2 (blockRow t.val (lt3 t) p) u) := by
  obtain ⟨e0, e1⟩ := idx3_3 t
  show A (((cfg3.win 3).blk t).view.emb (ix2 p u)) = _
  refine congrArg A (funext fun a => Fin.ext ?_)
  match a with
  | ⟨0, _⟩ => show win3_3.index t (0 : Fin 2) * 2000 + 1 * p.val = 2000 * t.val + p.val; rw [e0]; omega
  | ⟨1, _⟩ => show win3_3.index t (1 : Fin 2) * 1 + 1 * u.val = u.val; rw [e1]; omega

/-- A [256] vector read through window 4's block, which is the whole vector at every point. -/
theorem read3_4 (A : S256.Idx → Ideal .f32) (t : Fin cfg3.N) (o : Fin 256) :
    (((cfg3.win 4).blk t).view.read (Elt Ideal) A : S256.Idx → Ideal .f32) (ix1 o) = A (ix1 o) := by
  have e0 := idx3_4 t
  show A (((cfg3.win 4).blk t).view.emb (ix1 o)) = _
  refine congrArg A (funext fun a => Fin.ext ?_)
  match a with
  | ⟨0, _⟩ => show win3_4.index t (0 : Fin 1) * 256 + 1 * o.val = o.val; rw [e0]; omega

/-- The same through window 5's block. -/
theorem read3_5 (A : S256.Idx → Ideal .f32) (t : Fin cfg3.N) (o : Fin 256) :
    (((cfg3.win 5).blk t).view.read (Elt Ideal) A : S256.Idx → Ideal .f32) (ix1 o) = A (ix1 o) := by
  have e0 := idx3_5 t
  show A (((cfg3.win 5).blk t).view.emb (ix1 o)) = _
  refine congrArg A (funext fun a => Fin.ext ?_)
  match a with
  | ⟨0, _⟩ => show win3_5.index t (0 : Fin 1) * 256 + 1 * o.val = o.val; rw [e0]; omega

/-- The same through window 6's block. -/
theorem read3_6 (A : S256.Idx → Ideal .f32) (t : Fin cfg3.N) (o : Fin 256) :
    (((cfg3.win 6).blk t).view.read (Elt Ideal) A : S256.Idx → Ideal .f32) (ix1 o) = A (ix1 o) := by
  have e0 := idx3_6 t
  show A (((cfg3.win 6).blk t).view.emb (ix1 o)) = _
  refine congrArg A (funext fun a => Fin.ext ?_)
  match a with
  | ⟨0, _⟩ => show win3_6.index t (0 : Fin 1) * 256 + 1 * o.val = o.val; rw [e0]; omega

/-- Entry (p, o) of the result window's block at point t is the array's index (2000·t + p, o). -/
theorem emb3_7 (t : Fin cfg3.N) (p : Fin 2000) (o : Fin 256) :
    (((cfg3.win 7).blk t).view.emb (ix2 p o : S2000x256.Idx) : S50000x256.Idx) = ix2 (blockRow t.val (lt3 t) p) o := by
  obtain ⟨e0, e1⟩ := idx3_7 t
  refine funext fun a => Fin.ext ?_
  match a with
  | ⟨0, _⟩ => show win3_7.index t (0 : Fin 2) * 2000 + 1 * p.val = 2000 * t.val + p.val; rw [e0]; omega
  | ⟨1, _⟩ => show win3_7.index t (1 : Fin 2) * 256 + 1 * o.val = o.val; rw [e1]; omega

section Region
variable (V : (c : Dev nD) → (b : Ref sig .tc) → Buf (Elt Ideal) ((c : Thread nD τ).loc b))

/-- Each input window's block at point t, as rows of the array the region finds. -/
theorem blk3_0 (c : Dev nD) (t : Fin cfg3.N) (p : Fin 2000) (o : Fin 256) :
    (iblk3 V c 0 t : S2000x256.Idx → Ideal .f32) (ix2 p o)
      = (V c main_v61 : S50000x256.Idx → Ideal .f32) (ix2 (blockRow t.val (lt3 t) p) o) := by
  unfold iblk3; exact read3_0 (V c main_v61) t p o
theorem blk3_1 (c : Dev nD) (t : Fin cfg3.N) (p : Fin 2000) (o : Fin 256) :
    (iblk3 V c 1 t : S2000x256.Idx → Ideal .f32) (ix2 p o)
      = (V c main_v48_0 : S50000x256.Idx → Ideal .f32) (ix2 (blockRow t.val (lt3 t) p) o) := by
  unfold iblk3; exact read3_1 (V c main_v48_0) t p o
theorem blk3_2 (c : Dev nD) (t : Fin cfg3.N) (p : Fin 2000) (o : Fin 256) :
    (iblk3 V c 2 t : S2000x256.Idx → Ideal .f32) (ix2 p o)
      = (V c main_v48_1 : S50000x256.Idx → Ideal .f32) (ix2 (blockRow t.val (lt3 t) p) o) := by
  unfold iblk3; exact read3_2 (V c main_v48_1) t p o
theorem blk3_3 (c : Dev nD) (t : Fin cfg3.N) (p : Fin 2000) (u : Fin 1) :
    (iblk3 V c 3 t : S2000x1.Idx → Ideal .f32) (ix2 p u)
      = (V c main_v62 : S50000x1.Idx → Ideal .f32) (ix2 (blockRow t.val (lt3 t) p) u) := by
  unfold iblk3; exact read3_3 (V c main_v62) t p u
theorem blk3_4 (c : Dev nD) (t : Fin cfg3.N) (o : Fin 256) :
    (iblk3 V c 4 t : S256.Idx → Ideal .f32) (ix1 o) = (V c main_arg6 : S256.Idx → Ideal .f32) (ix1 o) := by
  unfold iblk3; exact read3_4 (V c main_arg6) t o
theorem blk3_5 (c : Dev nD) (t : Fin cfg3.N) (o : Fin 256) :
    (iblk3 V c 5 t : S256.Idx → Ideal .f32) (ix1 o) = (V c main_arg17 : S256.Idx → Ideal .f32) (ix1 o) := by
  unfold iblk3; exact read3_5 (V c main_arg17) t o
theorem blk3_6 (c : Dev nD) (t : Fin cfg3.N) (o : Fin 256) :
    (iblk3 V c 6 t : S256.Idx → Ideal .f32) (ix1 o) = (V c main_arg18 : S256.Idx → Ideal .f32) (ix1 o) := by
  unfold iblk3; exact read3_6 (V c main_arg18) t o

/-! ## From the blocks to the array -/

/-- WHAT POINT t WRITES BACK is its block of the specification's function of the arrays the region finds. -/
theorem flushed3_eq (c : Dev nD) (t : Fin cfg3.N) :
    (dat3 (F := Ideal) V c).flushed 7 t = ((cfg3.win 7).blk t).view.read (Elt Ideal)
      (Cert.Spec.combineSilu (n := 50000) (b := 256) 0x43800000#32 (V c main_v61) (V c main_v48_0) (V c main_v48_1)
        (V c main_v62) (V c main_arg6) (V c main_arg17) (V c main_arg18)) := by
  show (cfg3.win 7).cut (grid3.coords t) ((dat3 V c).after 7 t) = _
  rw [after3_7]
  funext j
  obtain ⟨p, o, rfl⟩ : ∃ (p : Fin 2000) (o : Fin 256), j = ix2 p o := ⟨j 0, j 1, eq_ix2 j⟩
  show out3_7 (F := Ideal) (iblk3 V c 0 t) (iblk3 V c 1 t) (iblk3 V c 2 t) (iblk3 V c 3 t) (iblk3 V c 4 t)
        (iblk3 V c 5 t) (iblk3 V c 6 t) (ix2 p o)
      = Cert.Spec.combineSilu (n := 50000) (b := 256) 0x43800000#32 (V c main_v61) (V c main_v48_0) (V c main_v48_1)
        (V c main_v62) (V c main_arg6) (V c main_arg17) (V c main_arg18) (((cfg3.win 7).blk t).view.emb (ix2 p o))
  rw [emb3_7 t p o]
  refine (out3_entry (iblk3 V c 0 t) (iblk3 V c 1 t) (iblk3 V c 2 t) (iblk3 V c 3 t) (iblk3 V c 4 t)
    (iblk3 V c 5 t) (iblk3 V c 6 t) p o).trans ?_
  exact congrArg Cert.Spec.silu (lnAt_rows_eq 0x43800000#32
    (iblk3 V c 0 t) (iblk3 V c 1 t) (iblk3 V c 2 t) (iblk3 V c 3 t) (iblk3 V c 4 t) (iblk3 V c 5 t) (iblk3 V c 6 t)
    (V c main_v61) (V c main_v48_0) (V c main_v48_1) (V c main_v62) (V c main_arg6) (V c main_arg17) (V c main_arg18)
    p (blockRow t.val (lt3 t) p)
    (fun o' => blk3_0 V c t p o') (fun o' => blk3_1 V c t p o') (fun o' => blk3_2 V c t p o') (blk3_3 V c t p 0)
    (fun o' => blk3_4 V c t o') (fun o' => blk3_5 V c t o') (fun o' => blk3_6 V c t o') o)

/-- An index of the result array is in point t's block iff each coordinate is in the block's range on its axis. -/
theorem mem_blk3_7 (t : Fin cfg3.N) (i : S50000x256.Idx) :
    i ∈ ((cfg3.win 7).blk t).view.set ↔ ∀ a : Fin 2, win3_7.index t a * S2000x256.size a ≤ (i a).val
      ∧ (i a).val < win3_7.index t a * S2000x256.size a + S2000x256.size a := by
  show i ∈ ((View.whole main_v63).slice (win3_7.rect t)).set ↔ _
  rw [View.set_slice_whole, Rect.mem_set_unit]
  exact Iff.rfl

/-- Every index of the result array lies in the block of the point numbered (row / 2000), and every point writes back. -/
theorem covered3_7 (i : S50000x256.Idx) :
    ∃ t : Fin cfg3.N, (cfg3.win 7).flush t = true ∧ i ∈ ((cfg3.win 7).blk t).view.set := by
  have hi0 : (i 0).val < 50000 := (i 0).isLt
  have hi1 : (i 1).val < 256 := (i 1).isLt
  have hN : (i 0).val / 2000 < cfg3.N := lt_of_lt_of_eq (by omega : (i 0).val / 2000 < 25) N_3.symm
  refine ⟨⟨(i 0).val / 2000, hN⟩, flush3_7 _, ?_⟩
  obtain ⟨e0, e1⟩ := idx3_7 ⟨(i 0).val / 2000, hN⟩
  rw [mem_blk3_7]
  intro a
  match a with
  | ⟨0, _⟩ =>
    show win3_7.index _ (0 : Fin 2) * 2000 ≤ (i 0).val ∧ (i 0).val < win3_7.index _ (0 : Fin 2) * 2000 + 2000
    rw [e0]; show (i 0).val / 2000 * 2000 ≤ _ ∧ _ < (i 0).val / 2000 * 2000 + 2000; omega
  | ⟨1, _⟩ =>
    show win3_7.index _ (1 : Fin 2) * 256 ≤ (i 1).val ∧ (i 1).val < win3_7.index _ (1 : Fin 2) * 256 + 256
    rw [e1]; omega

/-- THE RESULT ARRAY after the region's last point: the specification's gated normalisation of the arrays the
    region finds. -/
theorem epilogue3 (c : Dev nD) : (dat3 (F := Ideal) V c).arrAt 7 cfg3.N
    = Cert.Spec.combineSilu (n := 50000) (b := 256) 0x43800000#32 (V c main_v61) (V c main_v48_0) (V c main_v48_1)
        (V c main_v62) (V c main_arg6) (V c main_arg17) (V c main_arg18) :=
  (dat3 (F := Ideal) V c).arrAt_eq_of_cover 7 _ (fun t _ => flushed3_eq V c t) covered3_7

end Region

end Cert.KernelIdeal.EpilogueValue

end
-- ==== Proof.EpilogueRegion5.lean ====
/-
  The last normalisation region of the idealized kernel, as one function of the arrays it finds.

  The region runs over 25 grid points; point t takes rows 2000·t … 2000·t + 1999 of the three [50000, 128] arrays
  (aggregate, features, residual) and of the [50000, 1] column of self coefficients, the three [128] row vectors whole,
  and writes rows 2000·t … 2000·t + 1999 of the [50000, 128] result. On its block the body computes the pre-activation,
  normalises it along each row (mean and variance over the 128 entries, divisor the float word of 128.0, floor ε), scales
  and shifts it; there is no gate in this region. Since a row's mean and variance only involve that
  row, the block computed from rows 2000·t … of the arrays is rows 2000·t … of the specification's whole-array function;
  the 25 blocks cover the 50000 rows, so the result array ends holding that function.
  Steps: the body's value at an entry of a block (from the generic row lemma); each window's block read as rows of its
  array (the index maps decided over the 25 points: the row windows sit at block (t, 0), the vector windows at block 0);
  what a point writes back is its block of the specification's function; every index lies in the block of point
  (row / 2000); the array after the last point.
-/
import proofs.«139766_j71992241815698_1_alg».proof.Proof.Gen.KernelIdeal.Frame
import proofs.«139766_j71992241815698_1_alg».proof.Proof.Spec
import proofs.«139766_j71992241815698_1_alg».proof.Proof.LibKeepDims
import proofs.«139766_j71992241815698_1_alg».proof.Proof.EpilogueRow
import Idealize.ShloMosaic.Lib.Pipeline.Value

set_option maxRecDepth 16384

noncomputable section

namespace Cert.KernelIdeal.EpilogueValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's value at an entry of a block -/

/-- The shapes' side facts for a block of 2000 rows of width 128. -/
theorem facts5 : RowFacts 2000 128 :=
  ⟨Cert.KernelIdeal.Facts₀.shapeCasts_S2000x128_S2000x128, Cert.KernelIdeal.Facts₀.shapeCasts_S2000x1_S2000x1,
    Cert.KernelIdeal.Facts₀.broadcasts_S2000x1_S2000x128, Cert.KernelIdeal.Facts₀.shapeCasts_S128_S1x128,
    Cert.KernelIdeal.Facts₀.broadcasts_S1x128_S2000x128, Cert.KernelIdeal.Facts₀.reduces_S2000x128_S2000,
    Cert.KernelIdeal.Facts₀.shapeCasts_S2000_S2000x1⟩

/-- The body's normalised value is the generic normalised block at 2000 rows, width 128 and the word of 128.0:
    the same operations in the same order. -/
theorem ln5_eq (v0 v2 : FVec Ideal ⟨2, ![2000, 128]⟩ .f32) (v4 : FVec Ideal ⟨2, ![2000, 1]⟩ .f32)
    (v9 : FVec Ideal ⟨1, ![128]⟩ .f32) (v13 : FVec Ideal ⟨2, ![2000, 128]⟩ .f32) (v34 v38 : FVec Ideal ⟨1, ![128]⟩ .f32) :
    k5_pay1 (F := Ideal) v0 v2 v4 v9 v13 v34 v38 = lnBlock facts5 0x43000000#32 v0 v2 v4 v9 v13 v34 v38 := rfl

/-- What the body leaves in the result's buffer, at entry (p, o) of the block: the normalised row of the block's
    row p at o. -/
theorem out5_entry (x0 x1 x2 : FVec Ideal ⟨2, ![2000, 128]⟩ .f32) (x3 : FVec Ideal ⟨2, ![2000, 1]⟩ .f32)
    (x4 x5 x6 : FVec Ideal ⟨1, ![128]⟩ .f32) (p : Fin 2000) (o : Fin 128) :
    out5_7 (F := Ideal) x0 x1 x2 x3 x4 x5 x6 (ix2 p o)
      = Cert.Spec.lnAt 0x43000000#32 (fun o' => Cert.Spec.preAt x0 x1 x2 x3 x4 p o') x5 x6 o := by
  unfold out5_7
  rw [View.canon_unit_zero hz2]
  simp only [View.ld_unit_zero (S := S2000x128) hz2, View.ld_unit_zero (S := S2000x1) hz2,
    View.ld_unit_zero (S := S128) hz1]
  rw [ln5_eq]
  exact lnBlock_apply facts5 _ x0 x1 x3 x4 x2 x5 x6 p o

/-! ## The windows' blocks as rows of their arrays -/

/-- A grid point's number is below 25. -/
theorem lt5 (t : Fin cfg5.N) : t.val < 25 := lt_of_lt_of_eq t.isLt N_5

/-- The printed index maps, decided over the 25 points: a row window sits at block (t, 0), a vector window at block 0. -/
theorem idx5_0 : ∀ t : Fin cfg5.N, win5_0.index t (0 : Fin 2) = t.val ∧ win5_0.index t (1 : Fin 2) = 0 :=
  (by decide +kernel : ∀ t : Fin grid5.N, _)
theorem idx5_1 : ∀ t : Fin cfg5.N, win5_1.index t (0 : Fin 2) = t.val ∧ win5_1.index t (1 : Fin 2) = 0 :=
  (by decide +kernel : ∀ t : Fin grid5.N, _)
theorem idx5_2 : ∀ t : Fin cfg5.N, win5_2.index t (0 : Fin 2) = t.val ∧ win5_2.index t (1 : Fin 2) = 0 :=
  (by decide +kernel : ∀ t : Fin grid5.N, _)
theorem idx5_3 : ∀ t : Fin cfg5.N, win5_3.index t (0 : Fin 2) = t.val ∧ win5_3.index t (1 : Fin 2) = 0 :=
  (by decide +kernel : ∀ t : Fin grid5.N, _)
theorem idx5_4 : ∀ t : Fin cfg5.N, win5_4.index t (0 : Fin 1) = 0 := (by decide +kernel : ∀ t : Fin grid5.N, _)
theorem idx5_5 : ∀ t : Fin cfg5.N, win5_5.index t (0 : Fin 1) = 0 := (by decide +kernel : ∀ t : Fin grid5.N, _)
theorem idx5_6 : ∀ t : Fin cfg5.N, win5_6.index t (0 : Fin 1) = 0 := (by decide +kernel : ∀ t : Fin grid5.N, _)
theorem idx5_7 : ∀ t : Fin cfg5.N, win5_7.index t (0 : Fin 2) = t.val ∧ win5_7.index t (1 : Fin 2) = 0 :=
  (by decide +kernel : ∀ t : Fin grid5.N, _)

/-- A [50000, 128] array read through window 0's block at point t: entry (p, o) is the array's at (2000·t + p, o)
    (a block's coordinate is its index times its size plus the coordinate inside it). -/
theorem read5_0 (A : S50000x128.Idx → Ideal .f32) (t : Fin cfg5.N) (p : Fin 2000) (o : Fin 128) :
    (((cfg5.win 0).blk t).view.read (Elt Ideal) A : S2000x128.Idx → Ideal .f32) (ix2 p o)
      = A (ix2 (blockRow t.val (lt5 t) p) o) := by
  obtain ⟨e0, e1⟩ := idx5_0 t
  show A (((cfg5.win 0).blk t).view.emb (ix2 p o)) = _
  refine congrArg A (funext fun a => Fin.ext ?_)
  match a with
  | ⟨0, _⟩ => show win5_0.index t (0 : Fin 2) * 2000 + 1 * p.val = 2000 * t.val + p.val; rw [e0]; omega
  | ⟨1, _⟩ => show win5_0.index t (1 : Fin 2) * 128 + 1 * o.val = o.val; rw [e1]; omega

/-- The same through window 1's block. -/
theorem read5_1 (A : S50000x128.Idx → Ideal .f32) (t : Fin cfg5.N) (p : Fin 2000) (o : Fin 128) :
    (((cfg5.win 1).blk t).view.read (Elt Ideal) A : S2000x128.Idx → Ideal .f32) (ix2 p o)
      = A (ix2 (blockRow t.val (lt5 t) p) o) := by
  obtain ⟨e0, e1⟩ := idx5_1 t
  show A (((cfg5.win 1).blk t).view.emb (ix2 p o)) = _
  refine congrArg A (funext fun a => Fin.ext ?_)
  match a with
  | ⟨0, _⟩ => show win5_1.index t (0 : Fin 2) * 2000 + 1 * p.val = 2000 * t.val + p.val; rw [e0]; omega
  | ⟨1, _⟩ => show win5_1.index t (1 : Fin 2) * 128 + 1 * o.val = o.val; rw [e1]; omega

/-- The same through window 2's block. -/
theorem read5_2 (A : S50000x128.Idx → Ideal .f32) (t : Fin cfg5.N) (p : Fin 2000) (o : Fin 128) :
    (((cfg5.win 2).blk t).view.read (Elt Ideal) A : S2000x128.Idx → Ideal .f32) (ix2 p o)
      = A (ix2 (blockRow t.val (lt5 t) p) o) := by
  obtain ⟨e0, e1⟩ := idx5_2 t
  show A (((cfg5.win 2).blk t).view.emb (ix2 p o)) = _
  refine congrArg A (funext fun a => Fin.ext ?_)
  match a with
  | ⟨0, _⟩ => show win5_2.index t (0 : Fin 2) * 2000 + 1 * p.val = 2000 * t.val + p.val; rw [e0]; omega
  | ⟨1, _⟩ => show win5_2.index t (1 : Fin 2) * 128 + 1 * o.val = o.val; rw [e1]; omega

/-- A [50000, 1] column read through window 3's block at point t: entry (p, u) is the column's at (2000·t + p, u). -/
theorem read5_3 (A : S50000x1.Idx → Ideal .f32) (t : Fin cfg5.N) (p : Fin 2000) (u : Fin 1) :
    (((cfg5.win 3).blk t).view.read (Elt Ideal) A : S2000x1.Idx → Ideal .f32) (ix2 p u)
      = A (ix2 (blockRow t.val (lt5 t) p) u) := by
  obtain ⟨e0, e1⟩ := idx5_3 t
  show A (((cfg5.win 3).blk t).view.emb (ix2 p u)) = _
  refine congrArg A (funext fun a => Fin.ext ?_)
  match a with
  | ⟨0, _⟩ => show win5_3.index t (0 : Fin 2) * 2000 + 1 * p.val = 2000 * t.val + p.val; rw [e0]; omega
  | ⟨1, _⟩ => show win5_3.index t (1 : Fin 2) * 1 + 1 * u.val = u.val; rw [e1]; omega

/-- A [128] vector read through window 4's block, which is the whole vector at every point. -/
theorem read5_4 (A : S128.Idx → Ideal .f32) (t : Fin cfg5.N) (o : Fin 128) :
    (((cfg5.win 4).blk t).view.read (Elt Ideal) A : S128.Idx → Ideal .f32) (ix1 o) = A (ix1 o) := by
  have e0 := idx5_4 t
  show A (((cfg5.win 4).blk t).view.emb (ix1 o)) = _
  refine congrArg A (funext fun a => Fin.ext ?_)
  match a with
  | ⟨0, _⟩ => show win5_4.index t (0 : Fin 1) * 128 + 1 * o.val = o.val; rw [e0]; omega

/-- The same through window 5's block. -/
theorem read5_5 (A : S128.Idx → Ideal .f32) (t : Fin cfg5.N) (o : Fin 128) :
    (((cfg5.win 5).blk t).view.read (Elt Ideal) A : S128.Idx → Ideal .f32) (ix1 o) = A (ix1 o) := by
  have e0 := idx5_5 t
  show A (((cfg5.win 5).blk t).view.emb (ix1 o)) = _
  refine congrArg A (funext fun a => Fin.ext ?_)
  match a with
  | ⟨0, _⟩ => show win5_5.index t (0 : Fin 1) * 128 + 1 * o.val = o.val; rw [e0]; omega

/-- The same through window 6's block. -/
theorem read5_6 (A : S128.Idx → Ideal .f32) (t : Fin cfg5.N) (o : Fin 128) :
    (((cfg5.win 6).blk t).view.read (Elt Ideal) A : S128.Idx → Ideal .f32) (ix1 o) = A (ix1 o) := by
  have e0 := idx5_6 t
  show A (((cfg5.win 6).blk t).view.emb (ix1 o)) = _
  refine congrArg A (funext fun a => Fin.ext ?_)
  match a with
  | ⟨0, _⟩ => show win5_6.index t (0 : Fin 1) * 128 + 1 * o.val = o.val; rw [e0]; omega

/-- Entry (p, o) of the result window's block at point t is the array's index (2000·t + p, o). -/
theorem emb5_7 (t : Fin cfg5.N) (p : Fin 2000) (o : Fin 128) :
    (((cfg5.win 7).blk t).view.emb (ix2 p o : S2000x128.Idx) : S50000x128.Idx) = ix2 (blockRow t.val (lt5 t) p) o := by
  obtain ⟨e0, e1⟩ := idx5_7 t
  refine funext fun a => Fin.ext ?_
  match a with
  | ⟨0, _⟩ => show win5_7.index t (0 : Fin 2) * 2000 + 1 * p.val = 2000 * t.val + p.val; rw [e0]; omega
  | ⟨1, _⟩ => show win5_7.index t (1 : Fin 2) * 128 + 1 * o.val = o.val; rw [e1]; omega

section Region
variable (V : (c : Dev nD) → (b : Ref sig .tc) → Buf (Elt Ideal) ((c : Thread nD τ).loc b))

/-- Each input window's block at point t, as rows of the array the region finds. -/
theorem blk5_0 (c : Dev nD) (t : Fin cfg5.N) (p : Fin 2000) (o : Fin 128) :
    (iblk5 V c 0 t : S2000x128.Idx → Ideal .f32) (ix2 p o)
      = (V c main_v77 : S50000x128.Idx → Ideal .f32) (ix2 (blockRow t.val (lt5 t) p) o) := by
  unfold iblk5; exact read5_0 (V c main_v77) t p o
theorem blk5_1 (c : Dev nD) (t : Fin cfg5.N) (p : Fin 2000) (o : Fin 128) :
    (iblk5 V c 1 t : S2000x128.Idx → Ideal .f32) (ix2 p o)
      = (V c main_v64_0 : S50000x128.Idx → Ideal .f32) (ix2 (blockRow t.val (lt5 t) p) o) := by
  unfold iblk5; exact read5_1 (V c main_v64_0) t p o
theorem blk5_2 (c : Dev nD) (t : Fin cfg5.N) (p : Fin 2000) (o : Fin 128) :
    (iblk5 V c 2 t : S2000x128.Idx → Ideal .f32) (ix2 p o)
      = (V c main_v64_1 : S50000x128.Idx → Ideal .f32) (ix2 (blockRow t.val (lt5 t) p) o) := by
  unfold iblk5; exact read5_2 (V c main_v64_1) t p o
theorem blk5_3 (c : Dev nD) (t : Fin cfg5.N) (p : Fin 2000) (u : Fin 1) :
    (iblk5 V c 3 t : S2000x1.Idx → Ideal .f32) (ix2 p u)
      = (V c main_v78 : S50000x1.Idx → Ideal .f32) (ix2 (blockRow t.val (lt5 t) p) u) := by
  unfold iblk5; exact read5_3 (V c main_v78) t p u
theorem blk5_4 (c : Dev nD) (t : Fin cfg5.N) (o : Fin 128) :
    (iblk5 V c 4 t : S128.Idx → Ideal .f32) (ix1 o) = (V c main_arg8 : S128.Idx → Ideal .f32) (ix1 o) := by
  unfold iblk5; exact read5_4 (V c main_arg8) t o
theorem blk5_5 (c : Dev nD) (t : Fin cfg5.N) (o : Fin 128) :
    (iblk5 V c 5 t : S128.Idx → Ideal .f32) (ix1 o) = (V c main_arg19 : S128.Idx → Ideal .f32) (ix1 o) := by
  unfold iblk5; exact read5_5 (V c main_arg19) t o
theorem blk5_6 (c : Dev nD) (t : Fin cfg5.N) (o : Fin 128) :
    (iblk5 V c 6 t : S128.Idx → Ideal .f32) (ix1 o) = (V c main_arg20 : S128.Idx → Ideal .f32) (ix1 o) := by
  unfold iblk5; exact read5_6 (V c main_arg20) t o

/-! ## From the blocks to the array -/

/-- WHAT POINT t WRITES BACK is its block of the specification's function of the arrays the region finds. -/
theorem flushed5_eq (c : Dev nD) (t : Fin cfg5.N) :
    (dat5 (F := Ideal) V c).flushed 7 t = ((cfg5.win 7).blk t).view.read (Elt Ideal)
      (Cert.Spec.combine (n := 50000) (b := 128) 0x43000000#32 (V c main_v77) (V c main_v64_0) (V c main_v64_1)
        (V c main_v78) (V c main_arg8) (V c main_arg19) (V c main_arg20)) := by
  show (cfg5.win 7).cut (grid5.coords t) ((dat5 V c).after 7 t) = _
  rw [after5_7]
  funext j
  obtain ⟨p, o, rfl⟩ : ∃ (p : Fin 2000) (o : Fin 128), j = ix2 p o := ⟨j 0, j 1, eq_ix2 j⟩
  show out5_7 (F := Ideal) (iblk5 V c 0 t) (iblk5 V c 1 t) (iblk5 V c 2 t) (iblk5 V c 3 t) (iblk5 V c 4 t)
        (iblk5 V c 5 t) (iblk5 V c 6 t) (ix2 p o)
      = Cert.Spec.combine (n := 50000) (b := 128) 0x43000000#32 (V c main_v77) (V c main_v64_0) (V c main_v64_1)
        (V c main_v78) (V c main_arg8) (V c main_arg19) (V c main_arg20) (((cfg5.win 7).blk t).view.emb (ix2 p o))
  rw [emb5_7 t p o]
  refine (out5_entry (iblk5 V c 0 t) (iblk5 V c 1 t) (iblk5 V c 2 t) (iblk5 V c 3 t) (iblk5 V c 4 t)
    (iblk5 V c 5 t) (iblk5 V c 6 t) p o).trans ?_
  exact (lnAt_rows_eq 0x43000000#32
    (iblk5 V c 0 t) (iblk5 V c 1 t) (iblk5 V c 2 t) (iblk5 V c 3 t) (iblk5 V c 4 t) (iblk5 V c 5 t) (iblk5 V c 6 t)
    (V c main_v77) (V c main_v64_0) (V c main_v64_1) (V c main_v78) (V c main_arg8) (V c main_arg19) (V c main_arg20)
    p (blockRow t.val (lt5 t) p)
    (fun o' => blk5_0 V c t p o') (fun o' => blk5_1 V c t p o') (fun o' => blk5_2 V c t p o') (blk5_3 V c t p 0)
    (fun o' => blk5_4 V c t o') (fun o' => blk5_5 V c t o') (fun o' => blk5_6 V c t o') o)

/-- An index of the result array is in point t's block iff each coordinate is in the block's range on its axis. -/
theorem mem_blk5_7 (t : Fin cfg5.N) (i : S50000x128.Idx) :
    i ∈ ((cfg5.win 7).blk t).view.set ↔ ∀ a : Fin 2, win5_7.index t a * S2000x128.size a ≤ (i a).val
      ∧ (i a).val < win5_7.index t a * S2000x128.size a + S2000x128.size a := by
  show i ∈ ((View.whole main_v79).slice (win5_7.rect t)).set ↔ _
  rw [View.set_slice_whole, Rect.mem_set_unit]
  exact Iff.rfl

/-- Every index of the result array lies in the block of the point numbered (row / 2000), and every point writes back. -/
theorem covered5_7 (i : S50000x128.Idx) :
    ∃ t : Fin cfg5.N, (cfg5.win 7).flush t = true ∧ i ∈ ((cfg5.win 7).blk t).view.set := by
  have hi0 : (i 0).val < 50000 := (i 0).isLt
  have hi1 : (i 1).val < 128 := (i 1).isLt
  have hN : (i 0).val / 2000 < cfg5.N := lt_of_lt_of_eq (by omega : (i 0).val / 2000 < 25) N_5.symm
  refine ⟨⟨(i 0).val / 2000, hN⟩, flush5_7 _, ?_⟩
  obtain ⟨e0, e1⟩ := idx5_7 ⟨(i 0).val / 2000, hN⟩
  rw [mem_blk5_7]
  intro a
  match a with
  | ⟨0, _⟩ =>
    show win5_7.index _ (0 : Fin 2) * 2000 ≤ (i 0).val ∧ (i 0).val < win5_7.index _ (0 : Fin 2) * 2000 + 2000
    rw [e0]; show (i 0).val / 2000 * 2000 ≤ _ ∧ _ < (i 0).val / 2000 * 2000 + 2000; omega
  | ⟨1, _⟩ =>
    show win5_7.index _ (1 : Fin 2) * 128 ≤ (i 1).val ∧ (i 1).val < win5_7.index _ (1 : Fin 2) * 128 + 128
    rw [e1]; omega

/-- THE RESULT ARRAY after the region's last point: the specification's normalisation of the arrays the
    region finds. -/
theorem epilogue5 (c : Dev nD) : (dat5 (F := Ideal) V c).arrAt 7 cfg5.N
    = Cert.Spec.combine (n := 50000) (b := 128) 0x43000000#32 (V c main_v77) (V c main_v64_0) (V c main_v64_1)
        (V c main_v78) (V c main_arg8) (V c main_arg19) (V c main_arg20) :=
  (dat5 (F := Ideal) V c).arrAt_eq_of_cover 7 _ (fun t _ => flushed5_eq V c t) covered5_7

end Region

end Cert.KernelIdeal.EpilogueValue

end
-- ==== Proof.LibConsts.lean ====
/-
  The float literals the two programs spell whose VALUES the proof uses, as the real numbers their single-precision
  words denote exactly: 1.0 (the self loop added to every degree, and the unit every edge adds to its target's
  degree) and 100000.0 (the number of nodes, by which both batch moments are divided). The zero word is the
  library's. Every other literal — the batch-norm epsilon, the minus infinity of the row maximum — appears as the same
  word on both sides and is never evaluated.
-/
import Idealize.ShloMosaic.PureOps.Ideal

noncomputable section

namespace Cert.LibConsts

open Idealize.ShloMosaic

/-- The single-precision word of 1.0 denotes the real number one. -/
theorem ofBits_one_f32 : Ideal.ofBits .f32 0x3F800000#32 = (1 : EReal) := by
  simp [Ideal.ofBits, Ideal.ieee, -EReal.coe_mul]; norm_num

/-- The single-precision word of 100000.0 denotes the real number 100000. -/
theorem ofBits_1e5_f32 : Ideal.ofBits .f32 0x47C35000#32 = ((100000 : ℝ) : EReal) := by
  simp [Ideal.ofBits, Ideal.ieee, -EReal.coe_mul]; norm_num

end Cert.LibConsts

end
-- ==== Proof.RefBlock1.lean ====
/-
  The reference's first graph-convolution block, read entry by entry.

  Write h = x · W₁ for the feature product (operation %32), agg for the aggregate over the incoming edges (%45, kept
  here as one array that is never opened), c for the self coefficient (%31, one number per row) and res = x · R₁ + r₁
  for the residual branch (%56). At row p and column o the block computes

      pre(p, o) = ((agg(p, o) + h(p, o) · c(p)) + bias(o)) + res(p, o)             (%46 … %57)
      μ(p)      = (∑ₖ pre(p, k)) / 256                                            (%58 … %61)
      σ²(p)     = (∑ₖ (pre(p, k) − μ(p)) · (pre(p, k) − μ(p))) / 256               (%62 … %68)
      ln(p, o)  = ((pre(p, o) − μ(p)) · rsqrt(σ²(p) + ε)) · g(o) + β(o)            (%69 … %81)
      out(p, o) = ln(p, o) · (1 / (1 + exp(−ln(p, o))))                            (%82)

  which is the specification's epilogue with the gate, term by term. Every layout step in between is a broadcast: a
  vector over the rows becomes a column [50000, 1] and is then repeated along each row; a vector over the columns
  becomes a row [1, 256] and is then repeated down the rows. Reading such a broadcast at (p, o) reads its operand at
  the row p, or at the column o: these are the index equations each lemma starts with. Both row sums start from the
  zero word, which denotes 0, so they are the plain sums over the row. The gate's quotient is the logistic function
  as the specification spells it, the word of 1.0 denoting the number 1.
-/
import proofs.«139766_j71992241815698_1_alg».proof.Proof.RefReadP
import proofs.«139766_j71992241815698_1_alg».proof.Proof.Spec
import proofs.«139766_j71992241815698_1_alg».proof.Proof.LibPlainDot
import proofs.«139766_j71992241815698_1_alg».proof.Proof.LibConsts

open scoped BigOperators

namespace Cert.ReferenceIdeal.RefValue

open Cert.ReferenceIdeal Cert.ReferenceIdeal.Gen Idealize.ShloMosaic Idealize.ShloMosaic.ValueIdx

variable (x0 : (⟨S50000x128, .f32⟩ : BufTy).Contents (Elt Ideal)) (x1 : (⟨S2x800000, .i32⟩ : BufTy).Contents (Elt Ideal))
  (x3 : (⟨S128x256, .f32⟩ : BufTy).Contents (Elt Ideal)) (x4 : (⟨S256, .f32⟩ : BufTy).Contents (Elt Ideal))
  (x9 : (⟨S128x256, .f32⟩ : BufTy).Contents (Elt Ideal)) (x10 x15 x16 : (⟨S256, .f32⟩ : BufTy).Contents (Elt Ideal))

/-- The feature product: entry (p, o) of %32 is ∑ₖ x(p, k) · W₁(k, o). -/
theorem h1_eq : ReadP.val_main_v32 (F := Ideal) x0 x3 = Cert.Spec.mm (n := 50000) (a := 128) (b := 256) x0 x3 := by
  funext i
  obtain ⟨p, o, rfl⟩ : ∃ (p : Fin 50000) (o : Fin 256), i = ix2 p o := ⟨i 0, i 1, eq_ix2 i⟩
  exact Cert.LibPlainDot.dotGeneral_apply none x0 x3 p o

/-- The residual branch: entry (p, o) of %56 is ∑ₖ x(p, k) · R₁(k, o) + r₁(o); the bias vector is read through its
    row [1, 256] and that row's repetition down the rows, at column o. -/
theorem res1_eq : ReadP.val_main_v56 (F := Ideal) x0 x9 x10 = Cert.Spec.lin (n := 50000) (a := 128) (b := 256) x0 x9 x10 := by
  funext i
  obtain ⟨p, o, rfl⟩ : ∃ (p : Fin 50000) (o : Fin 256), i = ix2 p o := ⟨i 0, i 1, eq_ix2 i⟩
  have e : ReadP.idx_main_v54 (ReadP.idx_main_v55 (ix2 p o)) = ix1 o :=
    funext fun a => Fin.ext (by match a with | ⟨0, _⟩ => rfl)
  rw [ReadP.val_main_v56_apply, ReadP.val_main_v55_apply, ReadP.val_main_v54_apply, e, Ideal.addf_def]
  exact congrArg (· + x10 (ix1 o)) (Cert.LibPlainDot.dotGeneral_apply none x0 x9 p o)

/-- The pre-activation %57 at (p, o): the aggregate, plus the feature product times the self coefficient of row p
    (read through its column and the column's repetition along the row), plus the bias of column o, plus the
    residual branch. -/
theorem pre1_at (p : Fin 50000) (o : Fin 256) :
    ReadP.val_main_v57 (F := Ideal) x0 x1 x3 x4 x9 x10 (ix2 p o)
      = Cert.Spec.preAt (n := 50000) (b := 256) (ReadP.val_main_v45 (F := Ideal) x0 x1 x3) (ReadP.val_main_v32 (F := Ideal) x0 x3)
          (ReadP.val_main_v56 (F := Ideal) x0 x9 x10) (fun i => ReadP.val_main_v31 (F := Ideal) x1 (ix1 (i 0))) x4 p o := by
  have e1 : ReadP.idx_main_v46 (ReadP.idx_main_v47 (ix2 p o)) = ix1 p :=
    funext fun a => Fin.ext (by match a with | ⟨0, _⟩ => rfl)
  have e2 : ReadP.idx_main_v50 (ReadP.idx_main_v51 (ix2 p o)) = ix1 o :=
    funext fun a => Fin.ext (by match a with | ⟨0, _⟩ => rfl)
  rw [ReadP.val_main_v57_apply, ReadP.val_main_v52_apply, ReadP.val_main_v49_apply, ReadP.val_main_v48_apply,
    ReadP.val_main_v47_apply, ReadP.val_main_v46_apply, ReadP.val_main_v51_apply, ReadP.val_main_v50_apply, e1, e2]
  simp only [Ideal.addf_def, Ideal.mulf_def]
  rfl

/-- The row sum %58 at row p is the sum of the pre-activation over the row: its initial value is the zero word. -/
theorem sum1_at (p : Fin 50000) :
    ReadP.val_main_v58 (F := Ideal) x0 x1 x3 x4 x9 x10 (ix1 p)
      = ∑ k : Fin 256, ReadP.val_main_v57 (F := Ideal) x0 x1 x3 x4 x9 x10 (ix2 p k) := by
  rw [ReadP.val_main_v58_apply, ReadP.val_main_cst_10_apply, Ideal.ofBits_def, Ideal.ofBits_zero_f32, zero_add]
  refine Finset.sum_congr rfl fun k _ => congrArg (ReadP.val_main_v57 (F := Ideal) x0 x1 x3 x4 x9 x10) ?_
  exact funext fun a => Fin.ext (by match a with | ⟨0, _⟩ => rfl | ⟨1, _⟩ => rfl)

/-- The column of row means %61 at row p: the row sum, kept as a column, divided by the word of 256.0. -/
theorem mean1_at (p : Fin 50000) :
    ReadP.val_main_v61 (F := Ideal) x0 x1 x3 x4 x9 x10 (ix2 p (0 : Fin 1))
      = Cert.Spec.meanOf (b := 256) 0x43800000#32 (fun o => ReadP.val_main_v57 (F := Ideal) x0 x1 x3 x4 x9 x10 (ix2 p o)) := by
  have e : ReadP.idx_main_v59 (ix2 p (0 : Fin 1)) = ix1 p :=
    funext fun a => Fin.ext (by match a with | ⟨0, _⟩ => rfl)
  rw [ReadP.val_main_v61_apply, ReadP.val_main_v59_apply, ReadP.val_main_v60_apply, ReadP.val_main_cst_11_apply, e, sum1_at,
    Ideal.hostDivf_def, Ideal.ofBits_def]
  rfl

/-- The deviation %63 at (p, k): the pre-activation minus the mean of row p, the mean column being repeated along
    the row. -/
theorem dev1_at (p : Fin 50000) (k : Fin 256) :
    ReadP.val_main_v63 (F := Ideal) x0 x1 x3 x4 x9 x10 (ix2 p k)
      = ReadP.val_main_v57 (F := Ideal) x0 x1 x3 x4 x9 x10 (ix2 p k)
        - Cert.Spec.meanOf (b := 256) 0x43800000#32 (fun o => ReadP.val_main_v57 (F := Ideal) x0 x1 x3 x4 x9 x10 (ix2 p o)) := by
  have e : ReadP.idx_main_v62 (ix2 p k) = ix2 p (0 : Fin 1) :=
    funext fun a => Fin.ext (by match a with | ⟨0, _⟩ => rfl | ⟨1, _⟩ => rfl)
  rw [ReadP.val_main_v63_apply, ReadP.val_main_v62_apply, e, mean1_at, Ideal.subf_def]

/-- The column of row variances %68 at row p: the sum over the row of the squared deviations, divided by the word of
    256.0. -/
theorem var1_at (p : Fin 50000) :
    ReadP.val_main_v68 (F := Ideal) x0 x1 x3 x4 x9 x10 (ix2 p (0 : Fin 1))
      = Cert.Spec.varOf (b := 256) 0x43800000#32 (fun o => ReadP.val_main_v57 (F := Ideal) x0 x1 x3 x4 x9 x10 (ix2 p o)) := by
  have e : ReadP.idx_main_v66 (ix2 p (0 : Fin 1)) = ix1 p :=
    funext fun a => Fin.ext (by match a with | ⟨0, _⟩ => rfl)
  have ek : ∀ k : Fin 256, ReadP.idx_main_v65 (ix1 p) k = ix2 p k := fun k =>
    funext fun a => Fin.ext (by match a with | ⟨0, _⟩ => rfl | ⟨1, _⟩ => rfl)
  have hk : ∀ k : Fin 256, ReadP.val_main_v64 (F := Ideal) x0 x1 x3 x4 x9 x10 (ReadP.idx_main_v65 (ix1 p) k)
      = (ReadP.val_main_v57 (F := Ideal) x0 x1 x3 x4 x9 x10 (ix2 p k)
          - Cert.Spec.meanOf (b := 256) 0x43800000#32 (fun o => ReadP.val_main_v57 (F := Ideal) x0 x1 x3 x4 x9 x10 (ix2 p o)))
        * (ReadP.val_main_v57 (F := Ideal) x0 x1 x3 x4 x9 x10 (ix2 p k)
          - Cert.Spec.meanOf (b := 256) 0x43800000#32 (fun o => ReadP.val_main_v57 (F := Ideal) x0 x1 x3 x4 x9 x10 (ix2 p o))) :=
    fun k => by rw [ek, ReadP.val_main_v64_apply, dev1_at, Ideal.mulf_def]
  rw [ReadP.val_main_v68_apply, ReadP.val_main_v66_apply, ReadP.val_main_v67_apply, ReadP.val_main_cst_13_apply, e,
    ReadP.val_main_v65_apply, ReadP.val_main_cst_12_apply, Ideal.ofBits_def, Ideal.ofBits_zero_f32, zero_add,
    Ideal.hostDivf_def, Ideal.ofBits_def, Finset.sum_congr rfl fun k _ => hk k]
  rfl

/-- The normalised, scaled and shifted row %81 at (p, o). The mean and the reciprocal square root of the variance
    plus ε are columns repeated along the row; the scale g and the shift β are vectors over the columns read through
    their rows [1, 256]. -/
theorem ln1_at (p : Fin 50000) (o : Fin 256) :
    ReadP.val_main_v81 (F := Ideal) x0 x1 x3 x4 x9 x10 x15 x16 (ix2 p o)
      = Cert.Spec.lnAt (b := 256) 0x43800000#32 (fun o => ReadP.val_main_v57 (F := Ideal) x0 x1 x3 x4 x9 x10 (ix2 p o)) x15 x16 o := by
  have e69 : ReadP.idx_main_v69 (ix2 p o) = ix2 p (0 : Fin 1) :=
    funext fun a => Fin.ext (by match a with | ⟨0, _⟩ => rfl | ⟨1, _⟩ => rfl)
  have e74 : ReadP.idx_main_v74 (ix2 p o) = ix2 p (0 : Fin 1) :=
    funext fun a => Fin.ext (by match a with | ⟨0, _⟩ => rfl | ⟨1, _⟩ => rfl)
  have e76 : ReadP.idx_main_v76 (ReadP.idx_main_v77 (ix2 p o)) = ix1 o :=
    funext fun a => Fin.ext (by match a with | ⟨0, _⟩ => rfl)
  have e79 : ReadP.idx_main_v79 (ReadP.idx_main_v80 (ix2 p o)) = ix1 o :=
    funext fun a => Fin.ext (by match a with | ⟨0, _⟩ => rfl)
  rw [ReadP.val_main_v81_apply, ReadP.val_main_v78_apply, ReadP.val_main_v75_apply, ReadP.val_main_v70_apply,
    ReadP.val_main_v69_apply, e69, mean1_at, ReadP.val_main_v74_apply, e74, ReadP.val_main_v73_apply, ReadP.val_main_v72_apply,
    var1_at, ReadP.val_main_v71_apply, ReadP.val_main_cst_14_apply, ReadP.val_main_v77_apply, ReadP.val_main_v76_apply, e76,
    ReadP.val_main_v80_apply, ReadP.val_main_v79_apply, e79]
  simp only [Ideal.addf_def, Ideal.subf_def, Ideal.mulf_def, Ideal.hostUnary_rsqrt_def, Ideal.ofBits_def]
  rfl

/-- The block's output %82: the normalised row through the gate x · (1 / (1 + exp(−x))), which is x times the
    logistic function of x. -/
theorem out1_eq : ReadP.val_main_v82 (F := Ideal) x0 x1 x3 x4 x9 x10 x15 x16
    = Cert.Spec.combineSilu (n := 50000) (b := 256) 0x43800000#32 (ReadP.val_main_v45 (F := Ideal) x0 x1 x3)
        (ReadP.val_main_v32 (F := Ideal) x0 x3) (ReadP.val_main_v56 (F := Ideal) x0 x9 x10)
        (fun i => ReadP.val_main_v31 (F := Ideal) x1 (ix1 (i 0))) x4 x15 x16 := by
  funext i
  obtain ⟨p, o, rfl⟩ : ∃ (p : Fin 50000) (o : Fin 256), i = ix2 p o := ⟨i 0, i 1, eq_ix2 i⟩
  have hrow : (fun o => ReadP.val_main_v57 (F := Ideal) x0 x1 x3 x4 x9 x10 (ix2 p o))
      = fun o => Cert.Spec.preAt (n := 50000) (b := 256) (ReadP.val_main_v45 (F := Ideal) x0 x1 x3)
          (ReadP.val_main_v32 (F := Ideal) x0 x3) (ReadP.val_main_v56 (F := Ideal) x0 x9 x10)
          (fun i => ReadP.val_main_v31 (F := Ideal) x1 (ix1 (i 0))) x4 p o :=
    funext fun o => pre1_at x0 x1 x3 x4 x9 x10 p o
  rw [ReadP.val_main_v82_apply, ReadP.val_main_call0_v5_apply, ReadP.val_main_call0_v4_apply, ReadP.val_main_call0_cst_0_apply,
    ReadP.val_main_call0_v3_apply, ReadP.val_main_call0_v2_apply, ReadP.val_main_call0_cst_apply, ReadP.val_main_call0_v1_apply,
    ReadP.val_main_call0_v0_apply, ln1_at, hrow]
  simp only [Ideal.mulf_def, Ideal.hostDivf_def, Ideal.addf_def, Ideal.hostUnary_exp_def, Ideal.hostNegf_def, Ideal.negf_def,
    Ideal.ofBits_def, Cert.LibConsts.ofBits_one_f32]
  rfl

end Cert.ReferenceIdeal.RefValue
-- ==== Proof.RefBlock2.lean ====
/-
  The reference's second graph-convolution block, read entry by entry.

  Its input is the first block's output X = %82, an array [50000, 256] that is never opened here. Write h = X · W₂
  for the feature product (operation %83), agg for the aggregate over the incoming edges (%96, one array that is never
  opened), c for the self coefficient (%31, one number per row) and res = X · R₂ + r₂ for the residual branch (%107).
  At row p and column o the block computes

      pre(p, o) = ((agg(p, o) + h(p, o) · c(p)) + bias(o)) + res(p, o)             (%97 … %108)
      μ(p)      = (∑ₖ pre(p, k)) / 256                                            (%109 … %112)
      σ²(p)     = (∑ₖ (pre(p, k) − μ(p)) · (pre(p, k) − μ(p))) / 256               (%113 … %119)
      ln(p, o)  = ((pre(p, o) − μ(p)) · rsqrt(σ²(p) + ε)) · g(o) + β(o)            (%120 … %132)
      out(p, o) = ln(p, o) · (1 / (1 + exp(−ln(p, o))))                            (%133)

  which is the specification's epilogue with the gate, term by term. The layout steps in between are the same
  broadcasts as in the first block: a vector over the rows becomes a column [50000, 1] and is repeated along each
  row, a vector over the columns becomes a row [1, 256] and is repeated down the rows, so a broadcast read at (p, o)
  reads its operand at the row p, or at the column o. Both row sums start from the zero word, which denotes 0; the
  gate's quotient is the logistic function, the word of 1.0 denoting the number 1.
-/
import proofs.«139766_j71992241815698_1_alg».proof.Proof.RefReadP
import proofs.«139766_j71992241815698_1_alg».proof.Proof.Spec
import proofs.«139766_j71992241815698_1_alg».proof.Proof.LibPlainDot
import proofs.«139766_j71992241815698_1_alg».proof.Proof.LibConsts

open scoped BigOperators

namespace Cert.ReferenceIdeal.RefValue

open Cert.ReferenceIdeal Cert.ReferenceIdeal.Gen Idealize.ShloMosaic Idealize.ShloMosaic.ValueIdx

variable (x0 : (⟨S50000x128, .f32⟩ : BufTy).Contents (Elt Ideal)) (x1 : (⟨S2x800000, .i32⟩ : BufTy).Contents (Elt Ideal))
  (x3 : (⟨S128x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x9 : (⟨S128x256, .f32⟩ : BufTy).Contents (Elt Ideal)) (x10 : (⟨S256, .f32⟩ : BufTy).Contents (Elt Ideal))
  (x11 : (⟨S256x256, .f32⟩ : BufTy).Contents (Elt Ideal)) (x12 x15 x16 x17 x18 : (⟨S256, .f32⟩ : BufTy).Contents (Elt Ideal))

/-- The block's input: the first block's output. -/
local notation "X82" => ReadP.val_main_v82 (F := Ideal) x0 x1 x3 x4 x9 x10 x15 x16
/-- The feature product, the aggregate and the residual branch, as whole arrays. -/
local notation "H2" => ReadP.val_main_v83 (F := Ideal) x0 x1 x3 x4 x5 x9 x10 x15 x16
local notation "AGG2" => ReadP.val_main_v96 (F := Ideal) x0 x1 x3 x4 x5 x9 x10 x15 x16
local notation "RES2" => ReadP.val_main_v107 (F := Ideal) x0 x1 x3 x4 x9 x10 x11 x12 x15 x16
/-- The self coefficient as a column [50000, 1]. -/
local notation "SC" => (fun i => ReadP.val_main_v31 (F := Ideal) x1 (ix1 (i 0)))
/-- The pre-activation, as a whole array. -/
local notation "PRE2" => ReadP.val_main_v108 (F := Ideal) x0 x1 x3 x4 x5 x6 x9 x10 x11 x12 x15 x16

/-- The feature product: entry (p, o) of %83 is ∑ₖ X(p, k) · W₂(k, o). -/
theorem h2_eq : ReadP.val_main_v83 (F := Ideal) x0 x1 x3 x4 x5 x9 x10 x15 x16
    = Cert.Spec.mm (n := 50000) (a := 256) (b := 256) (ReadP.val_main_v82 (F := Ideal) x0 x1 x3 x4 x9 x10 x15 x16) x5 := by
  funext i
  obtain ⟨p, o, rfl⟩ : ∃ (p : Fin 50000) (o : Fin 256), i = ix2 p o := ⟨i 0, i 1, eq_ix2 i⟩
  exact Cert.LibPlainDot.dotGeneral_apply none X82 x5 p o

/-- The residual branch: entry (p, o) of %107 is ∑ₖ X(p, k) · R₂(k, o) + r₂(o). -/
theorem res2_eq : ReadP.val_main_v107 (F := Ideal) x0 x1 x3 x4 x9 x10 x11 x12 x15 x16
    = Cert.Spec.lin (n := 50000) (a := 256) (b := 256) (ReadP.val_main_v82 (F := Ideal) x0 x1 x3 x4 x9 x10 x15 x16) x11 x12 := by
  funext i
  obtain ⟨p, o, rfl⟩ : ∃ (p : Fin 50000) (o : Fin 256), i = ix2 p o := ⟨i 0, i 1, eq_ix2 i⟩
  have e : ReadP.idx_main_v105 (ReadP.idx_main_v106 (ix2 p o)) = ix1 o :=
    funext fun a => Fin.ext (by match a with | ⟨0, _⟩ => rfl)
  rw [ReadP.val_main_v107_apply, ReadP.val_main_v106_apply, ReadP.val_main_v105_apply, e, Ideal.addf_def]
  exact congrArg (· + x12 (ix1 o)) (Cert.LibPlainDot.dotGeneral_apply none X82 x11 p o)

/-- The pre-activation %108 at (p, o): the aggregate, plus the feature product times the self coefficient of row p,
    plus the bias of column o, plus the residual branch. -/
theorem pre2_at (p : Fin 50000) (o : Fin 256) :
    PRE2 (ix2 p o) = Cert.Spec.preAt (n := 50000) (b := 256) AGG2 H2 RES2 SC x6 p o := by
  have e1 : ReadP.idx_main_v97 (ReadP.idx_main_v98 (ix2 p o)) = ix1 p :=
    funext fun a => Fin.ext (by match a with | ⟨0, _⟩ => rfl)
  have e2 : ReadP.idx_main_v101 (ReadP.idx_main_v102 (ix2 p o)) = ix1 o :=
    funext fun a => Fin.ext (by match a with | ⟨0, _⟩ => rfl)
  rw [ReadP.val_main_v108_apply, ReadP.val_main_v103_apply, ReadP.val_main_v100_apply, ReadP.val_main_v99_apply,
    ReadP.val_main_v98_apply, ReadP.val_main_v97_apply, ReadP.val_main_v102_apply, ReadP.val_main_v101_apply, e1, e2]
  simp only [Ideal.addf_def, Ideal.mulf_def]
  rfl

/-- The row sum %109 at row p is the sum of the pre-activation over the row: its initial value is the zero word. -/
theorem sum2_at (p : Fin 50000) :
    ReadP.val_main_v109 (F := Ideal) x0 x1 x3 x4 x5 x6 x9 x10 x11 x12 x15 x16 (ix1 p) = ∑ k : Fin 256, PRE2 (ix2 p k) := by
  rw [ReadP.val_main_v109_apply, ReadP.val_main_cst_18_apply, Ideal.ofBits_def, Ideal.ofBits_zero_f32, zero_add]
  refine Finset.sum_congr rfl fun k _ => congrArg PRE2 ?_
  exact funext fun a => Fin.ext (by match a with | ⟨0, _⟩ => rfl | ⟨1, _⟩ => rfl)

/-- The column of row means %112 at row p: the row sum, kept as a column, divided by the word of 256.0. -/
theorem mean2_at (p : Fin 50000) :
    ReadP.val_main_v112 (F := Ideal) x0 x1 x3 x4 x5 x6 x9 x10 x11 x12 x15 x16 (ix2 p (0 : Fin 1))
      = Cert.Spec.meanOf (b := 256) 0x43800000#32 (fun o => PRE2 (ix2 p o)) := by
  have e : ReadP.idx_main_v110 (ix2 p (0 : Fin 1)) = ix1 p :=
    funext fun a => Fin.ext (by match a with | ⟨0, _⟩ => rfl)
  rw [ReadP.val_main_v112_apply, ReadP.val_main_v110_apply, ReadP.val_main_v111_apply, ReadP.val_main_cst_19_apply, e, sum2_at,
    Ideal.hostDivf_def, Ideal.ofBits_def]
  rfl

/-- The deviation %114 at (p, k): the pre-activation minus the mean of row p. -/
theorem dev2_at (p : Fin 50000) (k : Fin 256) :
    ReadP.val_main_v114 (F := Ideal) x0 x1 x3 x4 x5 x6 x9 x10 x11 x12 x15 x16 (ix2 p k)
      = PRE2 (ix2 p k) - Cert.Spec.meanOf (b := 256) 0x43800000#32 (fun o => PRE2 (ix2 p o)) := by
  have e : ReadP.idx_main_v113 (ix2 p k) = ix2 p (0 : Fin 1) :=
    funext fun a => Fin.ext (by match a with | ⟨0, _⟩ => rfl | ⟨1, _⟩ => rfl)
  rw [ReadP.val_main_v114_apply, ReadP.val_main_v113_apply, e, mean2_at, Ideal.subf_def]

/-- The column of row variances %119 at row p: the sum over the row of the squared deviations, divided by the word of
    256.0. -/
theorem var2_at (p : Fin 50000) :
    ReadP.val_main_v119 (F := Ideal) x0 x1 x3 x4 x5 x6 x9 x10 x11 x12 x15 x16 (ix2 p (0 : Fin 1))
      = Cert.Spec.varOf (b := 256) 0x43800000#32 (fun o => PRE2 (ix2 p o)) := by
  have e : ReadP.idx_main_v117 (ix2 p (0 : Fin 1)) = ix1 p :=
    funext fun a => Fin.ext (by match a with | ⟨0, _⟩ => rfl)
  have ek : ∀ k : Fin 256, ReadP.idx_main_v116 (ix1 p) k = ix2 p k := fun k =>
    funext fun a => Fin.ext (by match a with | ⟨0, _⟩ => rfl | ⟨1, _⟩ => rfl)
  have hk : ∀ k : Fin 256, ReadP.val_main_v115 (F := Ideal) x0 x1 x3 x4 x5 x6 x9 x10 x11 x12 x15 x16 (ReadP.idx_main_v116 (ix1 p) k)
      = (PRE2 (ix2 p k) - Cert.Spec.meanOf (b := 256) 0x43800000#32 (fun o => PRE2 (ix2 p o)))
        * (PRE2 (ix2 p k) - Cert.Spec.meanOf (b := 256) 0x43800000#32 (fun o => PRE2 (ix2 p o))) :=
    fun k => by rw [ek, ReadP.val_main_v115_apply, dev2_at, Ideal.mulf_def]
  rw [ReadP.val_main_v119_apply, ReadP.val_main_v117_apply, ReadP.val_main_v118_apply, ReadP.val_main_cst_21_apply, e,
    ReadP.val_main_v116_apply, ReadP.val_main_cst_20_apply, Ideal.ofBits_def, Ideal.ofBits_zero_f32, zero_add,
    Ideal.hostDivf_def, Ideal.ofBits_def, Finset.sum_congr rfl fun k _ => hk k]
  rfl

/-- The normalised, scaled and shifted row %132 at (p, o). -/
theorem ln2_at (p : Fin 50000) (o : Fin 256) :
    ReadP.val_main_v132 (F := Ideal) x0 x1 x3 x4 x5 x6 x9 x10 x11 x12 x15 x16 x17 x18 (ix2 p o)
      = Cert.Spec.lnAt (b := 256) 0x43800000#32 (fun o => PRE2 (ix2 p o)) x17 x18 o := by
  have e120 : ReadP.idx_main_v120 (ix2 p o) = ix2 p (0 : Fin 1) :=
    funext fun a => Fin.ext (by match a with | ⟨0, _⟩ => rfl | ⟨1, _⟩ => rfl)
  have e125 : ReadP.idx_main_v125 (ix2 p o) = ix2 p (0 : Fin 1) :=
    funext fun a => Fin.ext (by match a with | ⟨0, _⟩ => rfl | ⟨1, _⟩ => rfl)
  have e127 : ReadP.idx_main_v127 (ReadP.idx_main_v128 (ix2 p o)) = ix1 o :=
    funext fun a => Fin.ext (by match a with | ⟨0, _⟩ => rfl)
  have e130 : ReadP.idx_main_v130 (ReadP.idx_main_v131 (ix2 p o)) = ix1 o :=
    funext fun a => Fin.ext (by match a with | ⟨0, _⟩ => rfl)
  rw [ReadP.val_main_v132_apply, ReadP.val_main_v129_apply, ReadP.val_main_v126_apply, ReadP.val_main_v121_apply,
    ReadP.val_main_v120_apply, e120, mean2_at, ReadP.val_main_v125_apply, e125, ReadP.val_main_v124_apply, ReadP.val_main_v123_apply,
    var2_at, ReadP.val_main_v122_apply, ReadP.val_main_cst_22_apply, ReadP.val_main_v128_apply, ReadP.val_main_v127_apply, e127,
    ReadP.val_main_v131_apply, ReadP.val_main_v130_apply, e130]
  simp only [Ideal.addf_def, Ideal.subf_def, Ideal.mulf_def, Ideal.hostUnary_rsqrt_def, Ideal.ofBits_def]
  rfl

/-- The block's output %133: the normalised row through the gate x · (1 / (1 + exp(−x))), which is x times the
    logistic function of x. -/
theorem out2_eq : ReadP.val_main_v133 (F := Ideal) x0 x1 x3 x4 x5 x6 x9 x10 x11 x12 x15 x16 x17 x18
    = Cert.Spec.combineSilu (n := 50000) (b := 256) 0x43800000#32 (ReadP.val_main_v96 (F := Ideal) x0 x1 x3 x4 x5 x9 x10 x15 x16)
        (ReadP.val_main_v83 (F := Ideal) x0 x1 x3 x4 x5 x9 x10 x15 x16) (ReadP.val_main_v107 (F := Ideal) x0 x1 x3 x4 x9 x10 x11 x12 x15 x16)
        (fun i => ReadP.val_main_v31 (F := Ideal) x1 (ix1 (i 0))) x6 x17 x18 := by
  funext i
  obtain ⟨p, o, rfl⟩ : ∃ (p : Fin 50000) (o : Fin 256), i = ix2 p o := ⟨i 0, i 1, eq_ix2 i⟩
  have hrow : (fun o => PRE2 (ix2 p o)) = fun o => Cert.Spec.preAt (n := 50000) (b := 256) AGG2 H2 RES2 SC x6 p o :=
    funext fun o => pre2_at x0 x1 x3 x4 x5 x6 x9 x10 x11 x12 x15 x16 p o
  rw [ReadP.val_main_v133_apply, ReadP.val_main_call1_v5_apply, ReadP.val_main_call1_v4_apply, ReadP.val_main_call1_cst_0_apply,
    ReadP.val_main_call1_v3_apply, ReadP.val_main_call1_v2_apply, ReadP.val_main_call1_cst_apply, ReadP.val_main_call1_v1_apply,
    ReadP.val_main_call1_v0_apply, ln2_at, hrow]
  simp only [Ideal.mulf_def, Ideal.hostDivf_def, Ideal.addf_def, Ideal.hostUnary_exp_def, Ideal.hostNegf_def, Ideal.negf_def,
    Ideal.ofBits_def, Cert.LibConsts.ofBits_one_f32]
  rfl

end Cert.ReferenceIdeal.RefValue
-- ==== Proof.RefBlock3.lean ====
/-
  The reference's third graph-convolution block, read entry by entry. It is 128 wide and has no gate.

  Its input is the second block's output X = %133, an array [50000, 256] that is never opened here. Write h = X · W₃
  for the feature product (operation %134), agg for the aggregate over the incoming edges (%147, one array that is
  never opened), c for the self coefficient (%31, one number per row) and res = X · R₃ + r₃ for the residual branch
  (%158). At row p and column o the block computes

      pre(p, o) = ((agg(p, o) + h(p, o) · c(p)) + bias(o)) + res(p, o)             (%148 … %159)
      μ(p)      = (∑ₖ pre(p, k)) / 128                                            (%160 … %163)
      σ²(p)     = (∑ₖ (pre(p, k) − μ(p)) · (pre(p, k) − μ(p))) / 128               (%164 … %170)
      out(p, o) = ((pre(p, o) − μ(p)) · rsqrt(σ²(p) + ε)) · g(o) + β(o)            (%171 … %183)

  which is the specification's epilogue without the gate, term by term. The layout steps in between are broadcasts:
  a vector over the rows becomes a column [50000, 1] and is repeated along each row, a vector over the columns
  becomes a row [1, 128] and is repeated down the rows, so a broadcast read at (p, o) reads its operand at the row p,
  or at the column o. Both row sums start from the zero word, which denotes 0.
-/
import proofs.«139766_j71992241815698_1_alg».proof.Proof.RefReadP
import proofs.«139766_j71992241815698_1_alg».proof.Proof.Spec
import proofs.«139766_j71992241815698_1_alg».proof.Proof.LibPlainDot

open scoped BigOperators

namespace Cert.ReferenceIdeal.RefValue

open Cert.ReferenceIdeal Cert.ReferenceIdeal.Gen Idealize.ShloMosaic Idealize.ShloMosaic.ValueIdx

variable (x0 : (⟨S50000x128, .f32⟩ : BufTy).Contents (Elt Ideal)) (x1 : (⟨S2x800000, .i32⟩ : BufTy).Contents (Elt Ideal))
  (x3 : (⟨S128x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x128, .f32⟩ : BufTy).Contents (Elt Ideal)) (x8 : (⟨S128, .f32⟩ : BufTy).Contents (Elt Ideal))
  (x9 : (⟨S128x256, .f32⟩ : BufTy).Contents (Elt Ideal)) (x10 : (⟨S256, .f32⟩ : BufTy).Contents (Elt Ideal))
  (x11 : (⟨S256x256, .f32⟩ : BufTy).Contents (Elt Ideal)) (x12 : (⟨S256, .f32⟩ : BufTy).Contents (Elt Ideal))
  (x13 : (⟨S256x128, .f32⟩ : BufTy).Contents (Elt Ideal)) (x14 : (⟨S128, .f32⟩ : BufTy).Contents (Elt Ideal))
  (x15 x16 x17 x18 : (⟨S256, .f32⟩ : BufTy).Contents (Elt Ideal)) (x19 x20 : (⟨S128, .f32⟩ : BufTy).Contents (Elt Ideal))

/-- The block's input: the second block's output. -/
local notation "X133" => ReadP.val_main_v133 (F := Ideal) x0 x1 x3 x4 x5 x6 x9 x10 x11 x12 x15 x16 x17 x18
/-- The feature product, the aggregate and the residual branch, as whole arrays. -/
local notation "H3" => ReadP.val_main_v134 (F := Ideal) x0 x1 x3 x4 x5 x6 x7 x9 x10 x11 x12 x15 x16 x17 x18
local notation "AGG3" => ReadP.val_main_v147 (F := Ideal) x0 x1 x3 x4 x5 x6 x7 x9 x10 x11 x12 x15 x16 x17 x18
local notation "RES3" => ReadP.val_main_v158 (F := Ideal) x0 x1 x3 x4 x5 x6 x9 x10 x11 x12 x13 x14 x15 x16 x17 x18
/-- The self coefficient as a column [50000, 1]. -/
local notation "SC" => (fun i => ReadP.val_main_v31 (F := Ideal) x1 (ix1 (i 0)))
/-- The pre-activation, as a whole array. -/
local notation "PRE3" => ReadP.val_main_v159 (F := Ideal) x0 x1 x3 x4 x5 x6 x7 x8 x9 x10 x11 x12 x13 x14 x15 x16 x17 x18

/-- The feature product: entry (p, o) of %134 is ∑ₖ X(p, k) · W₃(k, o). -/
theorem h3_eq : ReadP.val_main_v134 (F := Ideal) x0 x1 x3 x4 x5 x6 x7 x9 x10 x11 x12 x15 x16 x17 x18
    = Cert.Spec.mm (n := 50000) (a := 256) (b := 128)
        (ReadP.val_main_v133 (F := Ideal) x0 x1 x3 x4 x5 x6 x9 x10 x11 x12 x15 x16 x17 x18) x7 := by
  funext i
  obtain ⟨p, o, rfl⟩ : ∃ (p : Fin 50000) (o : Fin 128), i = ix2 p o := ⟨i 0, i 1, eq_ix2 i⟩
  exact Cert.LibPlainDot.dotGeneral_apply none X133 x7 p o

/-- The residual branch: entry (p, o) of %158 is ∑ₖ X(p, k) · R₃(k, o) + r₃(o). -/
theorem res3_eq : ReadP.val_main_v158 (F := Ideal) x0 x1 x3 x4 x5 x6 x9 x10 x11 x12 x13 x14 x15 x16 x17 x18
    = Cert.Spec.lin (n := 50000) (a := 256) (b := 128)
        (ReadP.val_main_v133 (F := Ideal) x0 x1 x3 x4 x5 x6 x9 x10 x11 x12 x15 x16 x17 x18) x13 x14 := by
  funext i
  obtain ⟨p, o, rfl⟩ : ∃ (p : Fin 50000) (o : Fin 128), i = ix2 p o := ⟨i 0, i 1, eq_ix2 i⟩
  have e : ReadP.idx_main_v156 (ReadP.idx_main_v157 (ix2 p o)) = ix1 o :=
    funext fun a => Fin.ext (by match a with | ⟨0, _⟩ => rfl)
  rw [ReadP.val_main_v158_apply, ReadP.val_main_v157_apply, ReadP.val_main_v156_apply, e, Ideal.addf_def]
  exact congrArg (· + x14 (ix1 o)) (Cert.LibPlainDot.dotGeneral_apply none X133 x13 p o)

/-- The pre-activation %159 at (p, o): the aggregate, plus the feature product times the self coefficient of row p,
    plus the bias of column o, plus the residual branch. -/
theorem pre3_at (p : Fin 50000) (o : Fin 128) :
    PRE3 (ix2 p o) = Cert.Spec.preAt (n := 50000) (b := 128) AGG3 H3 RES3 SC x8 p o := by
  have e1 : ReadP.idx_main_v148 (ReadP.idx_main_v149 (ix2 p o)) = ix1 p :=
    funext fun a => Fin.ext (by match a with | ⟨0, _⟩ => rfl)
  have e2 : ReadP.idx_main_v152 (ReadP.idx_main_v153 (ix2 p o)) = ix1 o :=
    funext fun a => Fin.ext (by match a with | ⟨0, _⟩ => rfl)
  rw [ReadP.val_main_v159_apply, ReadP.val_main_v154_apply, ReadP.val_main_v151_apply, ReadP.val_main_v150_apply,
    ReadP.val_main_v149_apply, ReadP.val_main_v148_apply, ReadP.val_main_v153_apply, ReadP.val_main_v152_apply, e1, e2]
  simp only [Ideal.addf_def, Ideal.mulf_def]
  rfl

/-- The row sum %160 at row p is the sum of the pre-activation over the row: its initial value is the zero word. -/
theorem sum3_at (p : Fin 50000) :
    ReadP.val_main_v160 (F := Ideal) x0 x1 x3 x4 x5 x6 x7 x8 x9 x10 x11 x12 x13 x14 x15 x16 x17 x18 (ix1 p)
      = ∑ k : Fin 128, PRE3 (ix2 p k) := by
  rw [ReadP.val_main_v160_apply, ReadP.val_main_cst_26_apply, Ideal.ofBits_def, Ideal.ofBits_zero_f32, zero_add]
  refine Finset.sum_congr rfl fun k _ => congrArg PRE3 ?_
  exact funext fun a => Fin.ext (by match a with | ⟨0, _⟩ => rfl | ⟨1, _⟩ => rfl)

/-- The column of row means %163 at row p: the row sum, kept as a column, divided by the word of 128.0. -/
theorem mean3_at (p : Fin 50000) :
    ReadP.val_main_v163 (F := Ideal) x0 x1 x3 x4 x5 x6 x7 x8 x9 x10 x11 x12 x13 x14 x15 x16 x17 x18 (ix2 p (0 : Fin 1))
      = Cert.Spec.meanOf (b := 128) 0x43000000#32 (fun o => PRE3 (ix2 p o)) := by
  have e : ReadP.idx_main_v161 (ix2 p (0 : Fin 1)) = ix1 p :=
    funext fun a => Fin.ext (by match a with | ⟨0, _⟩ => rfl)
  rw [ReadP.val_main_v163_apply, ReadP.val_main_v161_apply, ReadP.val_main_v162_apply, ReadP.val_main_cst_27_apply, e, sum3_at,
    Ideal.hostDivf_def, Ideal.ofBits_def]
  rfl

/-- The deviation %165 at (p, k): the pre-activation minus the mean of row p. -/
theorem dev3_at (p : Fin 50000) (k : Fin 128) :
    ReadP.val_main_v165 (F := Ideal) x0 x1 x3 x4 x5 x6 x7 x8 x9 x10 x11 x12 x13 x14 x15 x16 x17 x18 (ix2 p k)
      = PRE3 (ix2 p k) - Cert.Spec.meanOf (b := 128) 0x43000000#32 (fun o => PRE3 (ix2 p o)) := by
  have e : ReadP.idx_main_v164 (ix2 p k) = ix2 p (0 : Fin 1) :=
    funext fun a => Fin.ext (by match a with | ⟨0, _⟩ => rfl | ⟨1, _⟩ => rfl)
  rw [ReadP.val_main_v165_apply, ReadP.val_main_v164_apply, e, mean3_at, Ideal.subf_def]

/-- The column of row variances %170 at row p: the sum over the row of the squared deviations, divided by the word of
    128.0. -/
theorem var3_at (p : Fin 50000) :
    ReadP.val_main_v170 (F := Ideal) x0 x1 x3 x4 x5 x6 x7 x8 x9 x10 x11 x12 x13 x14 x15 x16 x17 x18 (ix2 p (0 : Fin 1))
      = Cert.Spec.varOf (b := 128) 0x43000000#32 (fun o => PRE3 (ix2 p o)) := by
  have e : ReadP.idx_main_v168 (ix2 p (0 : Fin 1)) = ix1 p :=
    funext fun a => Fin.ext (by match a with | ⟨0, _⟩ => rfl)
  have ek : ∀ k : Fin 128, ReadP.idx_main_v167 (ix1 p) k = ix2 p k := fun k =>
    funext fun a => Fin.ext (by match a with | ⟨0, _⟩ => rfl | ⟨1, _⟩ => rfl)
  have hk : ∀ k : Fin 128, ReadP.val_main_v166 (F := Ideal) x0 x1 x3 x4 x5 x6 x7 x8 x9 x10 x11 x12 x13 x14 x15 x16 x17 x18
        (ReadP.idx_main_v167 (ix1 p) k)
      = (PRE3 (ix2 p k) - Cert.Spec.meanOf (b := 128) 0x43000000#32 (fun o => PRE3 (ix2 p o)))
        * (PRE3 (ix2 p k) - Cert.Spec.meanOf (b := 128) 0x43000000#32 (fun o => PRE3 (ix2 p o))) :=
    fun k => by rw [ek, ReadP.val_main_v166_apply, dev3_at, Ideal.mulf_def]
  rw [ReadP.val_main_v170_apply, ReadP.val_main_v168_apply, ReadP.val_main_v169_apply, ReadP.val_main_cst_29_apply, e,
    ReadP.val_main_v167_apply, ReadP.val_main_cst_28_apply, Ideal.ofBits_def, Ideal.ofBits_zero_f32, zero_add,
    Ideal.hostDivf_def, Ideal.ofBits_def, Finset.sum_congr rfl fun k _ => hk k]
  rfl

/-- The normalised, scaled and shifted row %183 at (p, o): the block's output. -/
theorem ln3_at (p : Fin 50000) (o : Fin 128) :
    ReadP.val_main_v183 (F := Ideal) x0 x1 x3 x4 x5 x6 x7 x8 x9 x10 x11 x12 x13 x14 x15 x16 x17 x18 x19 x20 (ix2 p o)
      = Cert.Spec.lnAt (b := 128) 0x43000000#32 (fun o => PRE3 (ix2 p o)) x19 x20 o := by
  have e171 : ReadP.idx_main_v171 (ix2 p o) = ix2 p (0 : Fin 1) :=
    funext fun a => Fin.ext (by match a with | ⟨0, _⟩ => rfl | ⟨1, _⟩ => rfl)
  have e176 : ReadP.idx_main_v176 (ix2 p o) = ix2 p (0 : Fin 1) :=
    funext fun a => Fin.ext (by match a with | ⟨0, _⟩ => rfl | ⟨1, _⟩ => rfl)
  have e178 : ReadP.idx_main_v178 (ReadP.idx_main_v179 (ix2 p o)) = ix1 o :=
    funext fun a => Fin.ext (by match a with | ⟨0, _⟩ => rfl)
  have e181 : ReadP.idx_main_v181 (ReadP.idx_main_v182 (ix2 p o)) = ix1 o :=
    funext fun a => Fin.ext (by match a with | ⟨0, _⟩ => rfl)
  rw [ReadP.val_main_v183_apply, ReadP.val_main_v180_apply, ReadP.val_main_v177_apply, ReadP.val_main_v172_apply,
    ReadP.val_main_v171_apply, e171, mean3_at, ReadP.val_main_v176_apply, e176, ReadP.val_main_v175_apply, ReadP.val_main_v174_apply,
    var3_at, ReadP.val_main_v173_apply, ReadP.val_main_cst_30_apply, ReadP.val_main_v179_apply, ReadP.val_main_v178_apply, e178,
    ReadP.val_main_v182_apply, ReadP.val_main_v181_apply, e181]
  simp only [Ideal.addf_def, Ideal.subf_def, Ideal.mulf_def, Ideal.hostUnary_rsqrt_def, Ideal.ofBits_def]
  rfl

/-- The block's output %183 is the specification's epilogue without the gate. -/
theorem out3_eq : ReadP.val_main_v183 (F := Ideal) x0 x1 x3 x4 x5 x6 x7 x8 x9 x10 x11 x12 x13 x14 x15 x16 x17 x18 x19 x20
    = Cert.Spec.combine (n := 50000) (b := 128) 0x43000000#32
        (ReadP.val_main_v147 (F := Ideal) x0 x1 x3 x4 x5 x6 x7 x9 x10 x11 x12 x15 x16 x17 x18)
        (ReadP.val_main_v134 (F := Ideal) x0 x1 x3 x4 x5 x6 x7 x9 x10 x11 x12 x15 x16 x17 x18)
        (ReadP.val_main_v158 (F := Ideal) x0 x1 x3 x4 x5 x6 x9 x10 x11 x12 x13 x14 x15 x16 x17 x18)
        (fun i => ReadP.val_main_v31 (F := Ideal) x1 (ix1 (i 0))) x8 x19 x20 := by
  funext i
  obtain ⟨p, o, rfl⟩ : ∃ (p : Fin 50000) (o : Fin 128), i = ix2 p o := ⟨i 0, i 1, eq_ix2 i⟩
  have hrow : (fun o => PRE3 (ix2 p o)) = fun o => Cert.Spec.preAt (n := 50000) (b := 128) AGG3 H3 RES3 SC x8 p o :=
    funext fun o => pre3_at x0 x1 x3 x4 x5 x6 x7 x8 x9 x10 x11 x12 x13 x14 x15 x16 x17 x18 p o
  exact (ln3_at x0 x1 x3 x4 x5 x6 x7 x8 x9 x10 x11 x12 x13 x14 x15 x16 x17 x18 x19 x20 p o).trans
    (congrArg (fun r => Cert.Spec.lnAt (b := 128) 0x43000000#32 r x19 x20 o) hrow)

end Cert.ReferenceIdeal.RefValue
-- ==== Proof.FoldValue.lean ====
/-
  The idealized kernel's result, read through the fold of @main's eleven segments, is the reference's last stage.

  Write aK for argument K's launch contents. The reference's stages are functions of the arguments; the kernel's
  buffers are read boundary by boundary and each is found to hold the corresponding stage:
    * after the first stretch of host operations: the edges' sources and targets, the edges' coefficients and the
      nodes' self coefficients — the same operations as the reference's, on the same edge list;
    * per block: the dual-product region leaves h = x · W and res = x · R + rb (the region's array is the product,
      entry by entry; the reference's dot_general is the same sum); the host stretch aggregates h along the edges by
      the same gather, scaling and scatter-add as the reference and views the self coefficients as a column; the
      epilogue region leaves the normalised (and, in the two inner blocks, gated) rows, which is the reference's
      chain of host operations read entry by entry;
    * the last stretch pools the third block's rows by graph with the reference's operations.
  No step uses that an entry is finite: the two programs apply the same exact operations in the same order, and
  differ only in how the dense pieces are tiled.
-/
import proofs.«139766_j71992241815698_1_alg».proof.Proof.FoldKeep
import proofs.«139766_j71992241815698_1_alg».proof.Proof.RefReadP
import proofs.«139766_j71992241815698_1_alg».proof.Proof.DenseRegion0
import proofs.«139766_j71992241815698_1_alg».proof.Proof.DenseRegion2
import proofs.«139766_j71992241815698_1_alg».proof.Proof.DenseRegion4
import proofs.«139766_j71992241815698_1_alg».proof.Proof.EpilogueRegion1
import proofs.«139766_j71992241815698_1_alg».proof.Proof.EpilogueRegion3
import proofs.«139766_j71992241815698_1_alg».proof.Proof.EpilogueRegion5
import proofs.«139766_j71992241815698_1_alg».proof.Proof.RefBlock1
import proofs.«139766_j71992241815698_1_alg».proof.Proof.RefBlock2
import proofs.«139766_j71992241815698_1_alg».proof.Proof.RefBlock3
import proofs.«139766_j71992241815698_1_alg».proof.Proof.LibKeepDims

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo Idealize.ShloMosaic.ValueIdx
open Cert.KernelIdeal.DenseValue Cert.KernelIdeal.EpilogueValue Cert.ReferenceIdeal.RefValue

variable (m : (ℓ : Loc nD τ sig) → Buf (Elt Ideal) ℓ) (ρ : Dev nD → PrngReg) (c : Dev nD)

/-! ## Names: the arguments' launch contents and the reference's stages at them -/

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)
abbrev A10 := m ((c : Thread nD τ).loc main_arg10)
abbrev A11 := m ((c : Thread nD τ).loc main_arg11)
abbrev A12 := m ((c : Thread nD τ).loc main_arg12)
abbrev A13 := m ((c : Thread nD τ).loc main_arg13)
abbrev A14 := m ((c : Thread nD τ).loc main_arg14)
abbrev A15 := m ((c : Thread nD τ).loc main_arg15)
abbrev A16 := m ((c : Thread nD τ).loc main_arg16)
abbrev A17 := m ((c : Thread nD τ).loc main_arg17)
abbrev A18 := m ((c : Thread nD τ).loc main_arg18)
abbrev A19 := m ((c : Thread nD τ).loc main_arg19)
abbrev A20 := m ((c : Thread nD τ).loc main_arg20)

/-- The edges' source nodes, target nodes, coefficients, and the nodes' self coefficients. -/
abbrev Rsrc := Cert.ReferenceIdeal.ReadP.val_main_v1 (F := Ideal) (A1 m c)
abbrev Rdst := Cert.ReferenceIdeal.ReadP.val_main_v3 (F := Ideal) (A1 m c)
abbrev Rec := Cert.ReferenceIdeal.ReadP.val_main_v30 (F := Ideal) (A1 m c)
abbrev Rsc := Cert.ReferenceIdeal.ReadP.val_main_v31 (F := Ideal) (A1 m c)
/-- Block 1: the product, the aggregate, the residual product, the block's output. -/
abbrev Rh1 := Cert.ReferenceIdeal.ReadP.val_main_v32 (F := Ideal) (A0 m c) (A3 m c)
abbrev Ragg1 := Cert.ReferenceIdeal.ReadP.val_main_v45 (F := Ideal) (A0 m c) (A1 m c) (A3 m c)
abbrev Rres1 := Cert.ReferenceIdeal.ReadP.val_main_v56 (F := Ideal) (A0 m c) (A9 m c) (A10 m c)
abbrev Rout1 := Cert.ReferenceIdeal.ReadP.val_main_v82 (F := Ideal) (A0 m c) (A1 m c) (A3 m c) (A4 m c) (A9 m c) (A10 m c) (A15 m c) (A16 m c)
/-- Block 2. -/
abbrev Rh2 := Cert.ReferenceIdeal.ReadP.val_main_v83 (F := Ideal) (A0 m c) (A1 m c) (A3 m c) (A4 m c) (A5 m c) (A9 m c) (A10 m c) (A15 m c) (A16 m c)
abbrev Ragg2 := Cert.ReferenceIdeal.ReadP.val_main_v96 (F := Ideal) (A0 m c) (A1 m c) (A3 m c) (A4 m c) (A5 m c) (A9 m c) (A10 m c) (A15 m c) (A16 m c)
abbrev Rres2 := Cert.ReferenceIdeal.ReadP.val_main_v107 (F := Ideal) (A0 m c) (A1 m c) (A3 m c) (A4 m c) (A9 m c) (A10 m c) (A11 m c) (A12 m c) (A15 m c) (A16 m c)
abbrev Rout2 := Cert.ReferenceIdeal.ReadP.val_main_v133 (F := Ideal) (A0 m c) (A1 m c) (A3 m c) (A4 m c) (A5 m c) (A6 m c) (A9 m c) (A10 m c) (A11 m c) (A12 m c) (A15 m c) (A16 m c) (A17 m c) (A18 m c)
/-- Block 3, and the pooled result. -/
abbrev Rh3 := Cert.ReferenceIdeal.ReadP.val_main_v134 (F := Ideal) (A0 m c) (A1 m c) (A3 m c) (A4 m c) (A5 m c) (A6 m c) (A7 m c) (A9 m c) (A10 m c) (A11 m c) (A12 m c) (A15 m c) (A16 m c) (A17 m c) (A18 m c)
abbrev Ragg3 := Cert.ReferenceIdeal.ReadP.val_main_v147 (F := Ideal) (A0 m c) (A1 m c) (A3 m c) (A4 m c) (A5 m c) (A6 m c) (A7 m c) (A9 m c) (A10 m c) (A11 m c) (A12 m c) (A15 m c) (A16 m c) (A17 m c) (A18 m c)
abbrev Rres3 := Cert.ReferenceIdeal.ReadP.val_main_v158 (F := Ideal) (A0 m c) (A1 m c) (A3 m c) (A4 m c) (A5 m c) (A6 m c) (A9 m c) (A10 m c) (A11 m c) (A12 m c) (A13 m c) (A14 m c) (A15 m c) (A16 m c) (A17 m c) (A18 m c)
abbrev Rout3 := Cert.ReferenceIdeal.ReadP.val_main_v183 (F := Ideal) (A0 m c) (A1 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c)
abbrev Rfinal := Cert.ReferenceIdeal.ReadP.val_main_v195 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c)

/-- A vector [n] as the column [n, 1] whose entry (p, ·) is the vector's entry p. -/
abbrev colOf (v : FVec Ideal ⟨1, ![50000]⟩ .f32) : FVec Ideal ⟨2, ![50000, 1]⟩ .f32 := fun i => v (ix1 (i 0))

/-- The row-major view of a vector as a column is that column. -/
theorem col_eq (v : FVec Ideal ⟨1, ![50000]⟩ .f32) (h : (⟨1, ![50000]⟩ : Shape).ShapeCasts ⟨2, ![50000, 1]⟩) :
    shapeCast ⟨2, ![50000, 1]⟩ v h = colOf v := by
  funext i
  obtain ⟨p, u, rfl⟩ : ∃ (p : Fin 50000) (u : Fin 1), i = ix2 p u := ⟨i 0, i 1, eq_ix2 i⟩
  exact Cert.Lib.KeepDims.shapeCast_a_a1_apply v h p u

/-! ## After the first stretch: the edge list's arrays -/

theorem W1_src : W1 m ρ c (Proc.devRef .tc main_v1) = Rsrc m c := by
  show StableHlo.after hostOps0 (W0 m ρ c) (Proc.devRef .tc main_v1) = _
  after_results_simp <;> rfl
theorem W1_dst : W1 m ρ c (Proc.devRef .tc main_v3) = Rdst m c := by
  show StableHlo.after hostOps0 (W0 m ρ c) (Proc.devRef .tc main_v3) = _
  after_results_simp <;> rfl
theorem W1_ec : W1 m ρ c (Proc.devRef .tc main_v30) = Rec m c := by
  show StableHlo.after hostOps0 (W0 m ρ c) (Proc.devRef .tc main_v30) = _
  after_results_simp <;> rfl
theorem W1_sc : W1 m ρ c (Proc.devRef .tc main_v31) = Rsc m c := by
  show StableHlo.after hostOps0 (W0 m ρ c) (Proc.devRef .tc main_v31) = _
  after_results_simp <;> rfl

/-! ## Block 1 -/

theorem V1_arg0 : V1 m ρ c main_arg0 = A0 m c := W1_arg0 m ρ c
theorem V1_arg3 : V1 m ρ c main_arg3 = A3 m c := W1_arg3 m ρ c
theorem V1_arg9 : V1 m ρ c main_arg9 = A9 m c := W1_arg9 m ρ c
theorem V1_arg10 : V1 m ρ c main_arg10 = A10 m c := W1_arg10 m ρ c

theorem W2_h1 : W2 m ρ c (Proc.devRef .tc main_v32_0) = Rh1 m c := by
  refine (W2_arr m ρ c 4).trans ((dense0_h (V1 m ρ) c).trans ?_)
  rw [V1_arg0 m ρ c, V1_arg3 m ρ c]
  exact (h1_eq ..).symm
theorem W2_res1 : W2 m ρ c (Proc.devRef .tc main_v32_1) = Rres1 m c := by
  refine (W2_arr m ρ c 5).trans ((dense0_res (V1 m ρ) c).trans ?_)
  rw [V1_arg0 m ρ c, V1_arg9 m ρ c, V1_arg10 m ρ c]
  exact (res1_eq ..).symm

theorem W3_agg1 : W3 m ρ c (Proc.devRef .tc main_v45) = Ragg1 m c := by
  show StableHlo.after hostOps1 (W2 m ρ c) (Proc.devRef .tc main_v45) = _
  after_results_simp
  rw [W2_h1 m ρ c, (W2_v1 m ρ c).trans (W1_src m ρ c), (W2_v3 m ρ c).trans (W1_dst m ρ c), (W2_v30 m ρ c).trans (W1_ec m ρ c)]
  rfl
theorem W3_col : W3 m ρ c (Proc.devRef .tc main_v46) = colOf (Rsc m c) := by
  show StableHlo.after hostOps1 (W2 m ρ c) (Proc.devRef .tc main_v46) = _
  after_results
  rw [(W2_v31 m ρ c).trans (W1_sc m ρ c)]
  exact col_eq _ _

theorem V3_v45 : V3 m ρ c main_v45 = Ragg1 m c := W3_agg1 m ρ c
theorem V3_v32_0 : V3 m ρ c main_v32_0 = Rh1 m c := (W3_v32_0 m ρ c).trans (W2_h1 m ρ c)
theorem V3_v32_1 : V3 m ρ c main_v32_1 = Rres1 m c := (W3_v32_1 m ρ c).trans (W2_res1 m ρ c)
theorem V3_v46 : V3 m ρ c main_v46 = colOf (Rsc m c) := W3_col m ρ c
theorem V3_arg4 : V3 m ρ c main_arg4 = A4 m c := W3_arg4 m ρ c
theorem V3_arg15 : V3 m ρ c main_arg15 = A15 m c := W3_arg15 m ρ c
theorem V3_arg16 : V3 m ρ c main_arg16 = A16 m c := W3_arg16 m ρ c

theorem W4_out1 : W4 m ρ c (Proc.devRef .tc main_v47) = Rout1 m c := by
  refine (W4_arr m ρ c 7).trans ((epilogue1 (V3 m ρ) c).trans ?_)
  rw [V3_v45 m ρ c, V3_v32_0 m ρ c, V3_v32_1 m ρ c, V3_v46 m ρ c, V3_arg4 m ρ c, V3_arg15 m ρ c, V3_arg16 m ρ c]
  exact (out1_eq ..).symm

/-! ## Block 2 -/

theorem V4_v47 : V4 m ρ c main_v47 = Rout1 m c := W4_out1 m ρ c
theorem V4_arg5 : V4 m ρ c main_arg5 = A5 m c := W4_arg5 m ρ c
theorem V4_arg11 : V4 m ρ c main_arg11 = A11 m c := W4_arg11 m ρ c
theorem V4_arg12 : V4 m ρ c main_arg12 = A12 m c := W4_arg12 m ρ c

theorem W5_h2 : W5 m ρ c (Proc.devRef .tc main_v48_0) = Rh2 m c := by
  refine (W5_arr m ρ c 4).trans ((dense2_h (V4 m ρ) c).trans ?_)
  rw [V4_v47 m ρ c, V4_arg5 m ρ c]
  exact (h2_eq ..).symm
theorem W5_res2 : W5 m ρ c (Proc.devRef .tc main_v48_1) = Rres2 m c := by
  refine (W5_arr m ρ c 5).trans ((dense2_res (V4 m ρ) c).trans ?_)
  rw [V4_v47 m ρ c, V4_arg11 m ρ c, V4_arg12 m ρ c]
  exact (res2_eq ..).symm

theorem W6_agg2 : W6 m ρ c (Proc.devRef .tc main_v61) = Ragg2 m c := by
  show StableHlo.after hostOps3 (W5 m ρ c) (Proc.devRef .tc main_v61) = _
  after_results_simp
  rw [W5_h2 m ρ c, (W5_v1 m ρ c).trans (W1_src m ρ c), (W5_v3 m ρ c).trans (W1_dst m ρ c), (W5_v30 m ρ c).trans (W1_ec m ρ c)]
  rfl
theorem W6_col : W6 m ρ c (Proc.devRef .tc main_v62) = colOf (Rsc m c) := by
  show StableHlo.after hostOps3 (W5 m ρ c) (Proc.devRef .tc main_v62) = _
  after_results
  rw [(W5_v31 m ρ c).trans (W1_sc m ρ c)]
  exact col_eq _ _

theorem V6_v61 : V6 m ρ c main_v61 = Ragg2 m c := W6_agg2 m ρ c
theorem V6_v48_0 : V6 m ρ c main_v48_0 = Rh2 m c := (W6_v48_0 m ρ c).trans (W5_h2 m ρ c)
theorem V6_v48_1 : V6 m ρ c main_v48_1 = Rres2 m c := (W6_v48_1 m ρ c).trans (W5_res2 m ρ c)
theorem V6_v62 : V6 m ρ c main_v62 = colOf (Rsc m c) := W6_col m ρ c
theorem V6_arg6 : V6 m ρ c main_arg6 = A6 m c := W6_arg6 m ρ c
theorem V6_arg17 : V6 m ρ c main_arg17 = A17 m c := W6_arg17 m ρ c
theorem V6_arg18 : V6 m ρ c main_arg18 = A18 m c := W6_arg18 m ρ c

theorem W7_out2 : W7 m ρ c (Proc.devRef .tc main_v63) = Rout2 m c := by
  refine (W7_arr m ρ c 7).trans ((epilogue3 (V6 m ρ) c).trans ?_)
  rw [V6_v61 m ρ c, V6_v48_0 m ρ c, V6_v48_1 m ρ c, V6_v62 m ρ c, V6_arg6 m ρ c, V6_arg17 m ρ c, V6_arg18 m ρ c]
  exact (out2_eq ..).symm

/-! ## Block 3 -/

theorem V7_v63 : V7 m ρ c main_v63 = Rout2 m c := W7_out2 m ρ c
theorem V7_arg7 : V7 m ρ c main_arg7 = A7 m c := W7_arg7 m ρ c
theorem V7_arg13 : V7 m ρ c main_arg13 = A13 m c := W7_arg13 m ρ c
theorem V7_arg14 : V7 m ρ c main_arg14 = A14 m c := W7_arg14 m ρ c

theorem W8_h3 : W8 m ρ c (Proc.devRef .tc main_v64_0) = Rh3 m c := by
  refine (W8_arr m ρ c 4).trans ((dense4_h (V7 m ρ) c).trans ?_)
  rw [V7_v63 m ρ c, V7_arg7 m ρ c]
  exact (h3_eq ..).symm
theorem W8_res3 : W8 m ρ c (Proc.devRef .tc main_v64_1) = Rres3 m c := by
  refine (W8_arr m ρ c 5).trans ((dense4_res (V7 m ρ) c).trans ?_)
  rw [V7_v63 m ρ c, V7_arg13 m ρ c, V7_arg14 m ρ c]
  exact (res3_eq ..).symm

theorem W9_agg3 : W9 m ρ c (Proc.devRef .tc main_v77) = Ragg3 m c := by
  show StableHlo.after hostOps5 (W8 m ρ c) (Proc.devRef .tc main_v77) = _
  after_results_simp
  rw [W8_h3 m ρ c, (W8_v1 m ρ c).trans (W1_src m ρ c), (W8_v3 m ρ c).trans (W1_dst m ρ c), (W8_v30 m ρ c).trans (W1_ec m ρ c)]
  rfl
theorem W9_col : W9 m ρ c (Proc.devRef .tc main_v78) = colOf (Rsc m c) := by
  show StableHlo.after hostOps5 (W8 m ρ c) (Proc.devRef .tc main_v78) = _
  after_results
  rw [(W8_v31 m ρ c).trans (W1_sc m ρ c)]
  exact col_eq _ _

theorem V9_v77 : V9 m ρ c main_v77 = Ragg3 m c := W9_agg3 m ρ c
theorem V9_v64_0 : V9 m ρ c main_v64_0 = Rh3 m c := (W9_v64_0 m ρ c).trans (W8_h3 m ρ c)
theorem V9_v64_1 : V9 m ρ c main_v64_1 = Rres3 m c := (W9_v64_1 m ρ c).trans (W8_res3 m ρ c)
theorem V9_v78 : V9 m ρ c main_v78 = colOf (Rsc m c) := W9_col m ρ c
theorem V9_arg8 : V9 m ρ c main_arg8 = A8 m c := W9_arg8 m ρ c
theorem V9_arg19 : V9 m ρ c main_arg19 = A19 m c := W9_arg19 m ρ c
theorem V9_arg20 : V9 m ρ c main_arg20 = A20 m c := W9_arg20 m ρ c

theorem W10_out3 : W10 m ρ c (Proc.devRef .tc main_v79) = Rout3 m c := by
  refine (W10_arr m ρ c 7).trans ((epilogue5 (V9 m ρ) c).trans ?_)
  rw [V9_v77 m ρ c, V9_v64_0 m ρ c, V9_v64_1 m ρ c, V9_v78 m ρ c, V9_arg8 m ρ c, V9_arg19 m ρ c, V9_arg20 m ρ c]
  exact (out3_eq ..).symm

/-! ## The pooled result -/

/-- The result buffer after the last stretch holds the reference's last stage of the argument arrays. -/
theorem W11_result : W11 m ρ c (Proc.devRef .tc main_v91) = Rfinal m c := by
  show StableHlo.after hostOps6 (W10 m ρ c) (Proc.devRef .tc main_v91) = _
  after_results
  rw [W10_out3 m ρ c, W10_arg2 m ρ c]
  rfl

end Cert.KernelIdeal.Fold

end
-- ==== Proof.RefResult.lean ====
/-
  What the reference leaves in its result buffer, as its last stage.

  The reference's @main is a list of 249 host operations; its run ends with every buffer at the value the list,
  applied in order to the launch contents, leaves there. Read at the result buffer, that value is the composition
  of the operations along the program's data flow — the pooled quotient of the third block's normalised features —
  which is the stage function of the last operation applied to the argument arrays.
-/
import proofs.«139766_j71992241815698_1_alg».proof.Proof.RefReadP

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 99600000 in
/-- The value the 249 operations leave in the result buffer is the last stage of the argument arrays. -/
theorem result_eq (m : (ℓ : Loc nD τ sig) → Buf (Elt F) ℓ) (c : Dev nD) :
    Cert.ReferenceIdeal.ValueP.res_main_v195 (F := F) m c
      = Cert.ReferenceIdeal.ReadP.val_main_v195 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  unfold Cert.ReferenceIdeal.ValueP.res_main_v195
  after_results_simp <;> rfl

end Cert.ReferenceIdeal.RefValue

end
-- ==== Proof.lean ====
/-
  The claim: a three-block graph network — per block a dense product and a residual product, an aggregation of the
  product along the edges with symmetric degree coefficients, a self term, a bias, a layer norm along the feature
  axis and (in the two inner blocks) the gate x · logistic(x); then a mean over each graph's nodes — computed by a
  kernel whose dense products and epilogues run as six row-tiled regions, against the same network as plain array
  operations.

  * The three frames: the kernel's and its idealization's are the runs of @main's eleven segments; the
    reference's is its list of host operations run in order.
  * The idealization rewrote no operation, so there is nothing to preserve beyond the program's own text.
  * At the ideal values both programs end with the same array: the kernel's result buffer, read through the fold of
    its segments, holds the reference's last stage of the argument arrays (every region's array is, entry by entry,
    the reference's chain of operations for that piece — a product as the sum over the contracted index, a layer
    norm as the row's mean, variance, reciprocal square root and affine map — and the host stretches between the
    regions are the reference's own operations on the same operands); the reference's result buffer holds that
    stage by its run. The arguments of the two runs agree, so the two arrays are equal. No finiteness is used.
-/
import proofs.«139766_j71992241815698_1_alg».proof.Defs
import proofs.«139766_j71992241815698_1_alg».proof.Proof.Gen.Kernel
import proofs.«139766_j71992241815698_1_alg».proof.Proof.Gen.Kernel.Skeleton
import proofs.«139766_j71992241815698_1_alg».proof.Proof.Gen.Kernel.Launch
import proofs.«139766_j71992241815698_1_alg».proof.Proof.Gen.Kernel.Points
import proofs.«139766_j71992241815698_1_alg».proof.Proof.Gen.Kernel.Frame
import proofs.«139766_j71992241815698_1_alg».proof.Proof.Gen.KernelIdeal
import proofs.«139766_j71992241815698_1_alg».proof.Proof.Gen.KernelIdeal.Skeleton
import proofs.«139766_j71992241815698_1_alg».proof.Proof.Gen.KernelIdeal.Launch
import proofs.«139766_j71992241815698_1_alg».proof.Proof.Gen.KernelIdeal.Points
import proofs.«139766_j71992241815698_1_alg».proof.Proof.Gen.KernelIdeal.Frame
import proofs.«139766_j71992241815698_1_alg».proof.Proof.Gen.ReferenceIdeal
import proofs.«139766_j71992241815698_1_alg».proof.Proof.Gen.Pre_finite_inputs
import proofs.«139766_j71992241815698_1_alg».proof.Proof.KernelRun
import proofs.«139766_j71992241815698_1_alg».proof.Proof.FoldValue
import proofs.«139766_j71992241815698_1_alg».proof.Proof.RefResult
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the reference's last stage of the (agreeing) argument arrays in their result buffers. -/
theorem algebraic : Cert.algebraic_KernelIdeal_ReferenceIdeal := by
  intro m ρ m' ρ' _ hagree
  refine ⟨fun c => Cert.KernelIdeal.Fold.Rfinal m c, ?_, ?_⟩
  · exact (θ_run Cert.KernelIdeal.defs _ _).mono
      (fun _ h c => ⟨(h c).1.trans (Cert.KernelIdeal.Fold.W11_result m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10, h11, h12, h13, h14, h15, h16, h17, h18, h19, h20⟩ := hagree c
    rw [Cert.ReferenceIdeal.RefValue.result_eq m' c, h0, h1, h2, h3, h4, h5, h6, h7, h8, h9, h10, h11, h12, h13, h14, h15, h16, h17, h18, h19, h20]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
